-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3 : S_.BroadcastsInDim S3 (![] : Fin 0 → Fin S3.rank)
  reducesTo_S3_S_d0 : S3.ReducesTo [0] S_

variable [Facts]

def fn {F : FTy → Type} [FloatOps F] (main_arg0 : FVec F S100000x128 .f32) (main_arg1 : IVec S1600000 32) (main_arg2 : IVec S1600000 32) (main_arg3 : FVec F S1600000 .f32) (main_arg4 : IVec S100000 32) (main_arg5 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3 .f32 := Host.absf main_arg5
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S100000 : Shape := ⟨1, ![100000]⟩
abbrev S3 : Shape := ⟨1, ![3]⟩
abbrev S_ : Shape := ⟨0, ![]⟩
abbrev S1600000x1 : Shape := ⟨2, ![1600000, 1]⟩
abbrev S1 : Shape := ⟨1, ![1]⟩
abbrev S100000x1 : Shape := ⟨2, ![100000, 1]⟩
abbrev S1x1 : Shape := ⟨2, ![1, 1]⟩
abbrev S5000x1 : Shape := ⟨2, ![5000, 1]⟩
abbrev S5000x128 : Shape := ⟨2, ![5000, 128]⟩
abbrev S1600000x128 : Shape := ⟨2, ![1600000, 128]⟩
abbrev S6400x1 : Shape := ⟨2, ![6400, 1]⟩
abbrev S6400x128 : Shape := ⟨2, ![6400, 128]⟩

abbrev nBuf : Space → Nat
  | .hbm => 138
  | .vmem => 59
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S100000, .i32⟩
  | 5 => ⟨S3, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .i1⟩
  | 13 => ⟨S_, .f32⟩
  | 14 => ⟨S100000, .f32⟩
  | 15 => ⟨S100000, .f32⟩
  | 16 => ⟨S_, .f32⟩
  | 17 => ⟨S_, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000x1, .f32⟩
  | 39 => ⟨S1600000x1, .f32⟩
  | 40 => ⟨S1600000x1, .f32⟩
  | 41 => ⟨S_, .f32⟩
  | 42 => ⟨S_, .f32⟩
  | 43 => ⟨S_, .f32⟩
  | 44 => ⟨S_, .f32⟩
  | 45 => ⟨S1, .f32⟩
  | 46 => ⟨S3, .f32⟩
  | 47 => ⟨S3, .f32⟩
  | 48 => ⟨S3, .f32⟩
  | 49 => ⟨S_, .f32⟩
  | 50 => ⟨S_, .f32⟩
  | 51 => ⟨S1, .f32⟩
  | 52 => ⟨S3, .f32⟩
  | 53 => ⟨S3, .f32⟩
  | 54 => ⟨S_, .i1⟩
  | 55 => ⟨S100000, .i1⟩
  | 56 => ⟨S_, .i32⟩
  | 57 => ⟨S100000, .i32⟩
  | 58 => ⟨S100000, .i1⟩
  | 59 => ⟨S_, .i32⟩
  | 60 => ⟨S100000, .i32⟩
  | 61 => ⟨S100000, .i32⟩
  | 62 => ⟨S100000, .i32⟩
  | 63 => ⟨S100000x1, .i32⟩
  | 64 => ⟨S_, .i1⟩
  | 65 => ⟨S100000, .i1⟩
  | 66 => ⟨S100000, .i1⟩
  | 67 => ⟨S100000, .f32⟩
  | 68 => ⟨S100000x1, .f32⟩
  | 69 => ⟨S_, .f32⟩
  | 70 => ⟨S100000x1, .f32⟩
  | 71 => ⟨S_, .f32⟩
  | 72 => ⟨S100000x128, .f32⟩
  | 73 => ⟨S1, .f32⟩
  | 74 => ⟨S_, .f32⟩
  | 75 => ⟨S1x1, .f32⟩
  | 76 => ⟨S100000x128, .f32⟩
  | 77 => ⟨S100000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x128, .f32⟩
  | 87 => ⟨S1600000x128, .f32⟩
  | 88 => ⟨S_, .f32⟩
  | 89 => ⟨S100000x128, .f32⟩
  | 90 => ⟨S1600000x1, .i32⟩
  | 91 => ⟨S100000x128, .f32⟩
  | 92 => ⟨S_, .f32⟩
  | 93 => ⟨S100000x128, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x128, .f32⟩
  | 103 => ⟨S1, .f32⟩
  | 104 => ⟨S_, .f32⟩
  | 105 => ⟨S1x1, .f32⟩
  | 106 => ⟨S100000x128, .f32⟩
  | 107 => ⟨S100000x128, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .f32⟩
  | 123 => ⟨S100000x128, .f32⟩
  | 124 => ⟨S_, .i32⟩
  | 125 => ⟨S100000, .i32⟩
  | 126 => ⟨S100000, .i1⟩
  | 127 => ⟨S_, .i32⟩
  | _ => ⟨S100000x128, .f32⟩

abbrev hbmTy0_1 (i : Nat) : BufTy := match i % 128 with
  | 0 => ⟨S100000, .i32⟩
  | 1 => ⟨S100000, .i32⟩
  | 2 => ⟨S100000, .i32⟩
  | 3 => ⟨S100000x1, .i32⟩
  | 4 => ⟨S100000x128, .f32⟩
  | 5 => ⟨S1, .f32⟩
  | 6 => ⟨S_, .f32⟩
  | 7 => ⟨S1x1, .f32⟩
  | 8 => ⟨S100000x128, .f32⟩
  | 9 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S6400x1, .f32⟩
  | .local _ .vmem, ⟨14, _⟩ => ⟨S6400x1, .f32⟩
  | .local _ .vmem, ⟨15, _⟩ => ⟨S6400x1, .f32⟩
  | .local _ .vmem, ⟨16, _⟩ => ⟨S6400x1, .f32⟩
  | .local _ .vmem, ⟨17, _⟩ => ⟨S6400x1, .f32⟩
  | .local _ .vmem, ⟨18, _⟩ => ⟨S6400x1, .f32⟩
  | .local _ .vmem, ⟨19, _⟩ => ⟨S6400x128, .f32⟩
  | .local _ .vmem, ⟨20, _⟩ => ⟨S6400x128, .f32⟩
  | .local _ .vmem, ⟨21, _⟩ => ⟨S6400x128, .f32⟩
  | .local _ .vmem, ⟨22, _⟩ => ⟨S6400x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S6400x1, .f32⟩
  | .local _ .vmem, ⟨37, _⟩ => ⟨S6400x1, .f32⟩
  | .local _ .vmem, ⟨38, _⟩ => ⟨S6400x1, .f32⟩
  | .local _ .vmem, ⟨39, _⟩ => ⟨S6400x1, .f32⟩
  | .local _ .vmem, ⟨40, _⟩ => ⟨S6400x1, .f32⟩
  | .local _ .vmem, ⟨41, _⟩ => ⟨S6400x1, .f32⟩
  | .local _ .vmem, ⟨42, _⟩ => ⟨S6400x128, .f32⟩
  | .local _ .vmem, ⟨43, _⟩ => ⟨S6400x128, .f32⟩
  | .local _ .vmem, ⟨44, _⟩ => ⟨S6400x128, .f32⟩
  | .local _ .vmem, ⟨45, _⟩ => ⟨S6400x128, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x1, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_c_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_c_15 : Ref sig .tc := ⟨.hbm, 78, rfl⟩
abbrev main_v52 : Ref sig .tc := ⟨.hbm, 79, rfl⟩
abbrev main_v53 : Ref sig .tc := ⟨.hbm, 80, rfl⟩
abbrev main_c_16 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_17 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_18 : Ref sig .tc := ⟨.hbm, 92, rfl⟩
abbrev main_v63 : Ref sig .tc := ⟨.hbm, 93, rfl⟩
abbrev main_c_19 : Ref sig .tc := ⟨.hbm, 94, rfl⟩
abbrev main_v64 : Ref sig .tc := ⟨.hbm, 95, rfl⟩
abbrev main_v65 : Ref sig .tc := ⟨.hbm, 96, rfl⟩
abbrev main_c_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74_0 : Ref sig .tc := ⟨.hbm, 106, rfl⟩
abbrev main_v74_1 : Ref sig .tc := ⟨.hbm, 107, rfl⟩
abbrev main_c_21 : Ref sig .tc := ⟨.hbm, 108, rfl⟩
abbrev main_v75 : Ref sig .tc := ⟨.hbm, 109, rfl⟩
abbrev main_v76 : Ref sig .tc := ⟨.hbm, 110, rfl⟩
abbrev main_c_22 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_23 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_24 : Ref sig .tc := ⟨.hbm, 122, rfl⟩
abbrev main_v86 : Ref sig .tc := ⟨.hbm, 123, rfl⟩
abbrev main_c_25 : Ref sig .tc := ⟨.hbm, 124, rfl⟩
abbrev main_v87 : Ref sig .tc := ⟨.hbm, 125, rfl⟩
abbrev main_v88 : Ref sig .tc := ⟨.hbm, 126, rfl⟩
abbrev main_c_26 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97_0 : Ref sig .tc := ⟨.hbm, 136, rfl⟩
abbrev main_v97_1 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg5_1 : Ref sig .tc := ⟨.vmem, 56, rfl⟩
abbrev cc4_stg6_0 : Ref sig .tc := ⟨.vmem, 57, rfl⟩
abbrev cc4_stg6_1 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem5_0 : DmaSem sig := 55
abbrev cc4_sem5_1 : DmaSem sig := 56
abbrev cc4_sem6_0 : DmaSem sig := 57
abbrev cc4_sem6_1 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6400x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S6400x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S6400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S1600000_S1600000x1 : S1600000.ShapeCasts S1600000x1
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000x128 : S_.BroadcastsInDim S100000x128 (![] : Fin 0 → Fin S100000x128.rank)
  slices_S3_S1_0 : S3.Slices ![0] S1
  shapeCasts_S1_S_ : S1.ShapeCasts S_
  shapeCasts_S_S1x1 : S_.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  broadcasts_S6400x1_S6400x128 : S6400x1.Broadcasts S6400x128
  slices_S3_S1_1 : S3.Slices ![1] S1
  slices_S3_S1_2 : S3.Slices ![2] S1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000_S100000x1_S100000_n_0_0_1_wf : ScatterDims.WF S100000 S100000x1 S100000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x128_S100000x1_S100000x128_1_0_0_1_wf : ScatterDims.WF S100000x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x1.size a ≤ S1600000x1.size a
  hwx1_0 : ∀ i : grid1.Coords, EltTy.bits .f32 = 32 ∨ (Rect.block (s := S1600000x1) S6400x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S1600000x1.size a
  hwx1_1 : ∀ i : grid1.Coords, EltTy.bits .f32 = 32 ∨ (Rect.block (s := S1600000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x1.size a ≤ S1600000x1.size a
  hwx1_2 : ∀ i : grid1.Coords, EltTy.bits .f32 = 32 ∨ (Rect.block (s := S1600000x1) S6400x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x128.size a ≤ S1600000x128.size a
  hwx1_3 : ∀ i : grid1.Coords, EltTy.bits .f32 = 32 ∨ (Rect.block (s := S1600000x128) S6400x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x128.size a ≤ S1600000x128.size a
  hwx1_4 : ∀ i : grid1.Coords, EltTy.bits .f32 = 32 ∨ (Rect.block (s := S1600000x128) S6400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x1.size a ≤ S1600000x1.size a
  hwx3_0 : ∀ i : grid3.Coords, EltTy.bits .f32 = 32 ∨ (Rect.block (s := S1600000x1) S6400x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x1.size a ≤ S1600000x1.size a
  hwx3_1 : ∀ i : grid3.Coords, EltTy.bits .f32 = 32 ∨ (Rect.block (s := S1600000x1) S6400x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x1.size a ≤ S1600000x1.size a
  hwx3_2 : ∀ i : grid3.Coords, EltTy.bits .f32 = 32 ∨ (Rect.block (s := S1600000x1) S6400x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6400x128.size a ≤ S1600000x128.size a
  hwx3_3 : ∀ i : grid3.Coords, EltTy.bits .f32 = 32 ∨ (Rect.block (s := S1600000x128) S6400x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6400x128.size a ≤ S1600000x128.size a
  hwx3_4 : ∀ i : grid3.Coords, EltTy.bits .f32 = 32 ∨ (Rect.block (s := S1600000x128) S6400x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .f32 = 32 ∨ (Rect.block (s := S100000x1) S5000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf

abbrev win0_0 : Pipeline.Window sig grid0 :=
  Pipeline.Window.ofSpec (Memref.whole main_v46) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v51_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S6400x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S6400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S6400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S6400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51_1) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v74_1) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22) S6400x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S6400x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S6400x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S6400x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v82) S6400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74_0) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v74_1) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v97_1) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S3 : Shape := ⟨1, ![3]⟩
abbrev S_ : Shape := ⟨0, ![]⟩
abbrev S1600000x1 : Shape := ⟨2, ![1600000, 1]⟩
abbrev S1 : Shape := ⟨1, ![1]⟩
abbrev S100000x1 : Shape := ⟨2, ![100000, 1]⟩
abbrev S1600000x128 : Shape := ⟨2, ![1600000, 128]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S100000, .i32⟩
  | 5 => ⟨S3, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .i1⟩
  | 13 => ⟨S_, .f32⟩
  | 14 => ⟨S100000, .f32⟩
  | 15 => ⟨S100000, .f32⟩
  | 16 => ⟨S_, .f32⟩
  | 17 => ⟨S_, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .f32⟩
  | 41 => ⟨S_, .f32⟩
  | 42 => ⟨S_, .f32⟩
  | 43 => ⟨S_, .f32⟩
  | 44 => ⟨S1, .f32⟩
  | 45 => ⟨S3, .f32⟩
  | 46 => ⟨S3, .f32⟩
  | 47 => ⟨S3, .f32⟩
  | 48 => ⟨S_, .f32⟩
  | 49 => ⟨S_, .f32⟩
  | 50 => ⟨S1, .f32⟩
  | 51 => ⟨S3, .f32⟩
  | 52 => ⟨S3, .f32⟩
  | 53 => ⟨S_, .i1⟩
  | 54 => ⟨S100000, .i1⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S_, .i1⟩
  | 64 => ⟨S100000, .i1⟩
  | 65 => ⟨S100000, .i1⟩
  | 66 => ⟨S1, .f32⟩
  | 67 => ⟨S_, .f32⟩
  | 68 => ⟨S100000x128, .f32⟩
  | 69 => ⟨S100000x128, .f32⟩
  | 70 => ⟨S1600000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .f32⟩
  | 80 => ⟨S1600000x128, .f32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S_, .f32⟩
  | 87 => ⟨S100000x128, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x128, .f32⟩
  | 97 => ⟨S100000x1, .i1⟩
  | 98 => ⟨S100000x128, .i1⟩
  | 99 => ⟨S100000x128, .f32⟩
  | 100 => ⟨S1, .f32⟩
  | 101 => ⟨S_, .f32⟩
  | 102 => ⟨S100000x128, .f32⟩
  | 103 => ⟨S100000x128, .f32⟩
  | 104 => ⟨S100000x128, .f32⟩
  | 105 => ⟨S1600000x1, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S_, .f32⟩
  | 122 => ⟨S100000x128, .f32⟩
  | 123 => ⟨S_, .i32⟩
  | 124 => ⟨S100000, .i32⟩
  | 125 => ⟨S100000, .i1⟩
  | 126 => ⟨S_, .i32⟩
  | 127 => ⟨S100000, .i32⟩
  | _ => ⟨S100000x128, .f32⟩

abbrev hbmTy0_1 (i : Nat) : BufTy := match i % 128 with
  | 0 => ⟨S100000, .i32⟩
  | 1 => ⟨S100000, .i32⟩
  | 2 => ⟨S100000x1, .i32⟩
  | 3 => ⟨S100000x128, .f32⟩
  | 4 => ⟨S100000x1, .i1⟩
  | 5 => ⟨S100000x128, .i1⟩
  | 6 => ⟨S100000x128, .f32⟩
  | 7 => ⟨S1, .f32⟩
  | 8 => ⟨S_, .f32⟩
  | 9 => ⟨S100000x128, .f32⟩
  | 10 => ⟨S100000x128, .f32⟩
  | 11 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_c_14 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_c_17 : Ref sig .tc := ⟨.hbm, 88, rfl⟩
abbrev main_v61 : Ref sig .tc := ⟨.hbm, 89, rfl⟩
abbrev main_v62 : Ref sig .tc := ⟨.hbm, 90, rfl⟩
abbrev main_c_18 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call1_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_19 : Ref sig .tc := ⟨.hbm, 106, rfl⟩
abbrev main_v76 : Ref sig .tc := ⟨.hbm, 107, rfl⟩
abbrev main_v77 : Ref sig .tc := ⟨.hbm, 108, rfl⟩
abbrev main_c_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_c_23 : Ref sig .tc := ⟨.hbm, 123, rfl⟩
abbrev main_v89 : Ref sig .tc := ⟨.hbm, 124, rfl⟩
abbrev main_v90 : Ref sig .tc := ⟨.hbm, 125, rfl⟩
abbrev main_c_24 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call2_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  bcast_S100000_S100000x1_0 : S100000.BroadcastsInDim S100000x1 (![0] : Fin 1 → Fin S100000x1.rank)
  slices_S3_S1_0 : S3.Slices ![0] S1
  shapeCasts_S1_S_ : S1.ShapeCasts S_
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S100000x1_S100000x128_0_1 : S100000x1.BroadcastsInDim S100000x128 (![0, 1] : Fin 2 → Fin S100000x128.rank)
  slices_S3_S1_1 : S3.Slices ![1] S1
  slices_S3_S1_2 : S3.Slices ![2] S1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000_S100000x1_S100000_n_0_0_1_wf : ScatterDims.WF S100000 S100000x1 S100000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x128_S100000x1_S100000x128_1_0_0_1_wf : ScatterDims.WF S100000x128 S100000x1 S100000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf

class Facts : Prop extends Facts₀ where

variable [Facts]
-- ==== Proof.K.Region0.lean ====
/-
  Region 0 of the program: the per-node combine kernel on a grid of 20 points. At a point the body reads a 5000x1 mask
  block, three 5000x128 blocks (the scattered rows, the previous features, the previous result) and the 1x1 layer weight,
  and stores two 5000x128 blocks: the new features  mask * scattered + (1 - mask) * previous  (the mask spread along
  the lanes), and the new result  previous result + weight * new features.
  Here: each window's block at a point as a function of the region's entry contents, what the body leaves in each output
  buffer, the body's triple, the pipeline's proof data and the body obligation at every point — at any float model.
-/
import proofs.«119003_j2834678415702_1_alg».proof.Proof.Gen.Kernel.Launch
import proofs.«119003_j2834678415702_1_alg».proof.Proof.Gen.Kernel.Skeleton
import proofs.«119003_j2834678415702_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is the entry contents' and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is the entry contents' and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and both stores take the whole buffer -/

abbrev r0_col : Rect S5000x1 := Rect.unit (s := S5000x1) ![0, 0] S5000x1.size inb_S5000x1_S5000x1_0_0
abbrev r0_row : Rect S5000x128 := Rect.unit (s := S5000x128) ![0, 0] S5000x128.size inb_S5000x128_S5000x128_0_0
abbrev r0_one : Rect S1x1 := Rect.unit (s := S1x1) ![0, 0] S1x1.size inb_S1x1_S1x1_0_0

/-- The new-features buffer after the body, from the input blocks. -/
def out0_5 (x0 : Vec F S5000x1 .f32) (x1 x2 : Vec F S5000x128 .f32) : Vec F S5000x128 .f32 :=
  View.canon [⟨r0_row, k0_pay1 (View.ld x0 r0_col) (View.ld x1 r0_row) (View.ld x2 r0_row)⟩]

/-- The new-result buffer after the body, from the input blocks. -/
def out0_6 (x0 : Vec F S5000x1 .f32) (x1 x2 x3 : Vec F S5000x128 .f32) (x4 : Vec F S1x1 .f32) : Vec F S5000x128 .f32 :=
  View.canon [⟨r0_row, k0_pay2 (View.ld x0 r0_col) (View.ld x1 r0_row) (View.ld x2 r0_row) (View.ld x3 r0_row) (View.ld x4 r0_one)⟩]

/-- A store of the whole buffer covers it. -/
theorem cover0 (p0 : Vec F S5000x128 .f32) (y : S5000x128.Idx) :
    ∃ pc ∈ ([⟨r0_row, p0⟩] : List (View.Piece (Elt F) S5000x128 .f32)), y ∈ pc.1.set :=
  View.cover_of_tiled [⟨r0_row, p0⟩] S5000x128.size (by rfl) y

/-! ## The body's triple -/

set_option maxHeartbeats 1000000 in
/-- The body on whole staging memrefs, the inputs' at contents `x0 … x4` and the outputs' at anything, runs to the
    continuation with the inputs' as they were and the outputs' at `out0_5`, `out0_6` of the inputs'. -/
theorem sound_kernel0 (c : Dev nD) (E : Set ℕ) (i : grid0.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1 .f32) (harg5 : arg5.IsWhole) (arg6 : Memref sig .tc .vmem S5000x128 .f32) (harg6 : arg6.IsWhole)
    (arg7 : Memref sig .tc .vmem S5000x128 .f32) (harg7 : arg7.IsWhole)
    (x0 : Vec F S5000x1 .f32) (x1 x2 x3 : Vec F S5000x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- Region 0 is handed the features array through two input windows (the scattered rows and the previous features are both
    the features at the first call): each of the two holds it at one half of the full share; every other input is held whole. -/
def q0 : Fin cfg0.W → PosShare TreeShare
  | ⟨1, _⟩ => fullShare.left
  | ⟨2, _⟩ => fullShare.right
  | _ => fullShare

/-- The proof data on core `c`: the arrays as the region finds them; after the body at point `t` each input's buffer at
    its block and each output's at its function of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the per-edge message kernel on a grid of 250 points. At a point the body reads three
  6400x1 column blocks (the row factor, the edge value, the column factor) and one 6400x128 block of gathered rows,
  and stores the product (row factor * edge value * column factor), spread along the lanes, times the gathered rows.
  Here: each window's block at a point as a function of the region's entry contents, what the body leaves in the output
  buffer, the body's triple, the pipeline's proof data and the body obligation at every point — at any float model.
-/
import proofs.«119003_j2834678415702_1_alg».proof.Proof.Gen.Kernel.Launch
import proofs.«119003_j2834678415702_1_alg».proof.Proof.Gen.Kernel.Skeleton
import proofs.«119003_j2834678415702_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the entry
    contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for any proof data whose array is the entry
    contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for any proof data whose array is the entry
    contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for any proof data whose array is the entry
    contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_col : Rect S6400x1 := Rect.unit (s := S6400x1) ![0, 0] S6400x1.size inb_S6400x1_S6400x1_0_0
abbrev r1_row : Rect S6400x128 := Rect.unit (s := S6400x128) ![0, 0] S6400x128.size inb_S6400x128_S6400x128_0_0

/-- The output buffer after the body, from the input blocks: the one store's payload over the whole buffer. -/
def out1_4 (x0 x1 x2 : Vec F S6400x1 .f32) (x3 : Vec F S6400x128 .f32) : Vec F S6400x128 .f32 :=
  View.canon [⟨r1_row, k1_pay1 (View.ld x0 r1_col) (View.ld x1 r1_col) (View.ld x2 r1_col) (View.ld x3 r1_row)⟩]

/-- The store covers the buffer. -/
theorem cover1_4 (p0 : Vec F S6400x128 .f32) (y : S6400x128.Idx) :
    ∃ pc ∈ ([⟨r1_row, p0⟩] : List (View.Piece (Elt F) S6400x128 .f32)), y ∈ pc.1.set :=
  View.cover_of_tiled [⟨r1_row, p0⟩] S6400x128.size (by rfl) y

/-! ## The body's triple -/

set_option maxHeartbeats 1000000 in
/-- The body on whole staging memrefs, the inputs' at contents `x0 … x3` and the output's at anything, runs to the
    continuation with the inputs' as they were and the output's at `out1_4` of the inputs'. -/
theorem sound_kernel1 (c : Dev nD) (E : Set ℕ) (i : grid1.Coords)
    (arg1 : Memref sig .tc .vmem S6400x1 .f32) (harg1 : arg1.IsWhole) (arg2 : Memref sig .tc .vmem S6400x1 .f32) (harg2 : arg2.IsWhole)
    (arg3 : Memref sig .tc .vmem S6400x1 .f32) (harg3 : arg3.IsWhole) (arg4 : Memref sig .tc .vmem S6400x128 .f32) (harg4 : arg4.IsWhole)
    (arg5 : Memref sig .tc .vmem S6400x128 .f32) (harg5 : arg5.IsWhole)
    (x0 x1 x2 : Vec F S6400x1 .f32) (x3 : Vec F S6400x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__msg_kernel i arg1 harg1 arg2 harg2 arg3 harg3 arg4 harg4 arg5 harg5) K := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data on core `c`: the arrays as the region finds them; after the body at point `t` each input's buffer at
    its block and the output's at `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program: the per-node combine kernel on a grid of 20 points. At a point the body reads a 5000x1 mask
  block, three 5000x128 blocks (the scattered rows, the previous features, the previous result) and the 1x1 layer weight,
  and stores two 5000x128 blocks: the new features  mask * scattered + (1 - mask) * previous  (the mask spread along
  the lanes), and the new result  previous result + weight * new features.
  Here: each window's block at a point as a function of the region's entry contents, what the body leaves in each output
  buffer, the body's triple, the pipeline's proof data and the body obligation at every point — at any float model.
-/
import proofs.«119003_j2834678415702_1_alg».proof.Proof.Gen.Kernel.Launch
import proofs.«119003_j2834678415702_1_alg».proof.Proof.Gen.Kernel.Skeleton
import proofs.«119003_j2834678415702_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents' and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is the entry contents' and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is the entry contents' and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is the entry contents' and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is the entry contents' and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and both stores take the whole buffer -/

abbrev r2_col : Rect S5000x1 := Rect.unit (s := S5000x1) ![0, 0] S5000x1.size inb_S5000x1_S5000x1_0_0
abbrev r2_row : Rect S5000x128 := Rect.unit (s := S5000x128) ![0, 0] S5000x128.size inb_S5000x128_S5000x128_0_0
abbrev r2_one : Rect S1x1 := Rect.unit (s := S1x1) ![0, 0] S1x1.size inb_S1x1_S1x1_0_0

/-- The new-features buffer after the body, from the input blocks. -/
def out2_5 (x0 : Vec F S5000x1 .f32) (x1 x2 : Vec F S5000x128 .f32) : Vec F S5000x128 .f32 :=
  View.canon [⟨r2_row, k2_pay1 (View.ld x0 r2_col) (View.ld x1 r2_row) (View.ld x2 r2_row)⟩]

/-- The new-result buffer after the body, from the input blocks. -/
def out2_6 (x0 : Vec F S5000x1 .f32) (x1 x2 x3 : Vec F S5000x128 .f32) (x4 : Vec F S1x1 .f32) : Vec F S5000x128 .f32 :=
  View.canon [⟨r2_row, k2_pay2 (View.ld x0 r2_col) (View.ld x1 r2_row) (View.ld x2 r2_row) (View.ld x3 r2_row) (View.ld x4 r2_one)⟩]

/-- A store of the whole buffer covers it. -/
theorem cover2 (p0 : Vec F S5000x128 .f32) (y : S5000x128.Idx) :
    ∃ pc ∈ ([⟨r2_row, p0⟩] : List (View.Piece (Elt F) S5000x128 .f32)), y ∈ pc.1.set :=
  View.cover_of_tiled [⟨r2_row, p0⟩] S5000x128.size (by rfl) y

/-! ## The body's triple -/

set_option maxHeartbeats 1000000 in
/-- The body on whole staging memrefs, the inputs' at contents `x0 … x4` and the outputs' at anything, runs to the
    continuation with the inputs' as they were and the outputs' at `out2_5`, `out2_6` of the inputs'. -/
theorem sound_kernel2 (c : Dev nD) (E : Set ℕ) (i : grid2.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1 .f32) (harg5 : arg5.IsWhole) (arg6 : Memref sig .tc .vmem S5000x128 .f32) (harg6 : arg6.IsWhole)
    (arg7 : Memref sig .tc .vmem S5000x128 .f32) (harg7 : arg7.IsWhole)
    (x0 : Vec F S5000x1 .f32) (x1 x2 x3 : Vec F S5000x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2) ∗ owns (c : Thread nD τ) arg7 fullShare (out2_6 x0 x1 x2 x3 x4)) -∗ K ⟨⟩))
      ⊢ wp frame (wpE (defs₀ (F := F)) Variants.none c none) E
          (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  iexists _; isplitr
  swap; · iexact H6
  ipureintro
  exact View.read_writes_eq_canon _ _ _ (cover2 _)

/-! ## The pipeline's proof data -/

/-- The proof data on core `c`: the arrays as the region finds them; after the body at point `t` each input's buffer at
    its block and each output's at its function of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program: the per-edge message kernel on a grid of 250 points. At a point the body reads three
  6400x1 column blocks (the row factor, the edge value, the column factor) and one 6400x128 block of gathered rows,
  and stores the product (row factor * edge value * column factor), spread along the lanes, times the gathered rows.
  Here: each window's block at a point as a function of the region's entry contents, what the body leaves in the output
  buffer, the body's triple, the pipeline's proof data and the body obligation at every point — at any float model.
-/
import proofs.«119003_j2834678415702_1_alg».proof.Proof.Gen.Kernel.Launch
import proofs.«119003_j2834678415702_1_alg».proof.Proof.Gen.Kernel.Skeleton
import proofs.«119003_j2834678415702_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is the entry
    contents' and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, for any proof data whose array is the entry
    contents' and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, for any proof data whose array is the entry
    contents' and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, for any proof data whose array is the entry
    contents' and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole buffer -/

abbrev r3_col : Rect S6400x1 := Rect.unit (s := S6400x1) ![0, 0] S6400x1.size inb_S6400x1_S6400x1_0_0
abbrev r3_row : Rect S6400x128 := Rect.unit (s := S6400x128) ![0, 0] S6400x128.size inb_S6400x128_S6400x128_0_0

/-- The output buffer after the body, from the input blocks: the one store's payload over the whole buffer. -/
def out3_4 (x0 x1 x2 : Vec F S6400x1 .f32) (x3 : Vec F S6400x128 .f32) : Vec F S6400x128 .f32 :=
  View.canon [⟨r3_row, k3_pay1 (View.ld x0 r3_col) (View.ld x1 r3_col) (View.ld x2 r3_col) (View.ld x3 r3_row)⟩]

/-- The store covers the buffer. -/
theorem cover3_4 (p0 : Vec F S6400x128 .f32) (y : S6400x128.Idx) :
    ∃ pc ∈ ([⟨r3_row, p0⟩] : List (View.Piece (Elt F) S6400x128 .f32)), y ∈ pc.1.set :=
  View.cover_of_tiled [⟨r3_row, p0⟩] S6400x128.size (by rfl) y

/-! ## The body's triple -/

set_option maxHeartbeats 1000000 in
/-- The body on whole staging memrefs, the inputs' at contents `x0 … x3` and the output's at anything, runs to the
    continuation with the inputs' as they were and the output's at `out3_4` of the inputs'. -/
theorem sound_kernel3 (c : Dev nD) (E : Set ℕ) (i : grid3.Coords)
    (arg1 : Memref sig .tc .vmem S6400x1 .f32) (harg1 : arg1.IsWhole) (arg2 : Memref sig .tc .vmem S6400x1 .f32) (harg2 : arg2.IsWhole)
    (arg3 : Memref sig .tc .vmem S6400x1 .f32) (harg3 : arg3.IsWhole) (arg4 : Memref sig .tc .vmem S6400x128 .f32) (harg4 : arg4.IsWhole)
    (arg5 : Memref sig .tc .vmem S6400x128 .f32) (harg5 : arg5.IsWhole)
    (x0 x1 x2 : Vec F S6400x1 .f32) (x3 : Vec F S6400x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__msg_kernel i arg1 harg1 arg2 harg2 arg3 harg3 arg4 harg4 arg5 harg5) K := by
  simp only [cc3__msg_kernel_eq_skeleton]; unfold cc3__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data on core `c`: the arrays as the region finds them; after the body at point `t` each input's buffer at
    its block and the output's at `out3_4` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
/-
  Region 4 of the program: the per-node combine kernel on a grid of 20 points. At a point the body reads a 5000x1 mask
  block, three 5000x128 blocks (the scattered rows, the previous features, the previous result) and the 1x1 layer weight,
  and stores two 5000x128 blocks: the new features  mask * scattered + (1 - mask) * previous  (the mask spread along
  the lanes), and the new result  previous result + weight * new features.
  Here: each window's block at a point as a function of the region's entry contents, what the body leaves in each output
  buffer, the body's triple, the pipeline's proof data and the body obligation at every point — at any float model.
-/
import proofs.«119003_j2834678415702_1_alg».proof.Proof.Gen.Kernel.Launch
import proofs.«119003_j2834678415702_1_alg».proof.Proof.Gen.Kernel.Skeleton
import proofs.«119003_j2834678415702_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents' and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof data
    whose array is the entry contents' and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof data
    whose array is the entry contents' and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof data
    whose array is the entry contents' and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof data
    whose array is the entry contents' and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and both stores take the whole buffer -/

abbrev r4_col : Rect S5000x1 := Rect.unit (s := S5000x1) ![0, 0] S5000x1.size inb_S5000x1_S5000x1_0_0
abbrev r4_row : Rect S5000x128 := Rect.unit (s := S5000x128) ![0, 0] S5000x128.size inb_S5000x128_S5000x128_0_0
abbrev r4_one : Rect S1x1 := Rect.unit (s := S1x1) ![0, 0] S1x1.size inb_S1x1_S1x1_0_0

/-- The new-features buffer after the body, from the input blocks. -/
def out4_5 (x0 : Vec F S5000x1 .f32) (x1 x2 : Vec F S5000x128 .f32) : Vec F S5000x128 .f32 :=
  View.canon [⟨r4_row, k4_pay1 (View.ld x0 r4_col) (View.ld x1 r4_row) (View.ld x2 r4_row)⟩]

/-- The new-result buffer after the body, from the input blocks. -/
def out4_6 (x0 : Vec F S5000x1 .f32) (x1 x2 x3 : Vec F S5000x128 .f32) (x4 : Vec F S1x1 .f32) : Vec F S5000x128 .f32 :=
  View.canon [⟨r4_row, k4_pay2 (View.ld x0 r4_col) (View.ld x1 r4_row) (View.ld x2 r4_row) (View.ld x3 r4_row) (View.ld x4 r4_one)⟩]

/-- A store of the whole buffer covers it. -/
theorem cover4 (p0 : Vec F S5000x128 .f32) (y : S5000x128.Idx) :
    ∃ pc ∈ ([⟨r4_row, p0⟩] : List (View.Piece (Elt F) S5000x128 .f32)), y ∈ pc.1.set :=
  View.cover_of_tiled [⟨r4_row, p0⟩] S5000x128.size (by rfl) y

/-! ## The body's triple -/

set_option maxHeartbeats 1000000 in
/-- The body on whole staging memrefs, the inputs' at contents `x0 … x4` and the outputs' at anything, runs to the
    continuation with the inputs' as they were and the outputs' at `out4_5`, `out4_6` of the inputs'. -/
theorem sound_kernel4 (c : Dev nD) (E : Set ℕ) (i : grid4.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1 .f32) (harg5 : arg5.IsWhole) (arg6 : Memref sig .tc .vmem S5000x128 .f32) (harg6 : arg6.IsWhole)
    (arg7 : Memref sig .tc .vmem S5000x128 .f32) (harg7 : arg7.IsWhole)
    (x0 : Vec F S5000x1 .f32) (x1 x2 x3 : Vec F S5000x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2) ∗ owns (c : Thread nD τ) arg7 fullShare (out4_6 x0 x1 x2 x3 x4)) -∗ K ⟨⟩))
      ⊢ wp frame (wpE (defs₀ (F := F)) Variants.none c none) E
          (cc4__combine_kernel i arg1 harg1 arg2 harg2 arg3 harg3 arg4 harg4 arg5 harg5 arg6 harg6 arg7 harg7) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4 _)
  iexists _; isplitr
  swap; · iexact H6
  ipureintro
  exact View.read_writes_eq_canon _ _ _ (cover4 _)

/-! ## The pipeline's proof data -/

/-- The proof data on core `c`: the arrays as the region finds them; after the body at point `t` each input's buffer at
    its block and each output's at its function of the input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Share0.lean ====
/-
  Region 0 reads the features array through two of its input windows. The buffers behind its seven windows are six; the
  pipeline holds each window's array at the window's share, so the features' buffer, held whole, is split into its two
  half shares on the way in and joined again on the way out (both windows leave it as they found it).
-/
import proofs.«119003_j2834678415702_1_alg».proof.Proof.K.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The buffers behind region 0's windows. -/
theorem arrRefs0 : Finset.univ.image (Pipeline.arrRef spec0)
    = ({main_v46, main_arg0, main_v47, main_v50, main_v51_0, main_v51_1} : Finset (Ref sig .tc)) := by decide +kernel

set_option maxHeartbeats 4000000 in
/-- Those six buffers, each held whole at contents `V'`, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_v46) ↦{fullShare} V' main_v46)
      ∗ (((c : Thread nD τ).loc main_arg0) ↦{fullShare} V' main_arg0)
      ∗ (((c : Thread nD τ).loc main_v47) ↦{fullShare} V' main_v47)
      ∗ (((c : Thread nD τ).loc main_v50) ↦{fullShare} V' main_v50)
      ∗ (((c : Thread nD τ).loc main_v51_0) ↦{fullShare} V' main_v51_0)
      ∗ (((c : Thread nD τ).loc main_v51_1) ↦{fullShare} V' main_v51_1)) := by
  unfold Pipeline.arrBufs
  rw [arrRefs0, BI.bigSep_insert (by decide), BI.bigSep_insert (by decide), BI.bigSep_insert (by decide), BI.bigSep_insert (by decide),
    BI.bigSep_insert (by decide), BI.bigSep_singleton]
  rfl

set_option maxHeartbeats 4000000 in
/-- The windowed arrays of region 0 at contents `G`, window by window: every array whole; the features' at the left half
    share for window 1 and at the right half for window 2, every other at the full share. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_v46) ↦{fullShare} G 0)
      ∗ (((c : Thread nD τ).loc main_arg0) ↦{fullShare.left} G 1)
      ∗ (((c : Thread nD τ).loc main_arg0) ↦{fullShare.right} G 2)
      ∗ (((c : Thread nD τ).loc main_v47) ↦{fullShare} G 3)
      ∗ (((c : Thread nD τ).loc main_v50) ↦{fullShare} G 4)
      ∗ (((c : Thread nD τ).loc main_v51_0) ↦{fullShare} G 5)
      ∗ (((c : Thread nD τ).loc main_v51_1) ↦{fullShare} G 6)) := by
  unfold Dat.arrays
  rw [bigSep_W0]
  rw [(arr_whole0 0).set_eq_univ, (arr_whole0 1).set_eq_univ, (arr_whole0 3).set_eq_univ,
    (arr_whole0 4).set_eq_univ, (arr_whole0 5).set_eq_univ, (arr_whole0 6).set_eq_univ]
  rfl

set_option maxHeartbeats 4000000 in
/-- The six buffers behind region 0's windows, each held whole at contents `V'`, are its windowed arrays at contents `G` — where
    `G` reads `V'` at each window's array —, the features' buffer split into its two half shares; and back. -/
theorem arrays0_iff (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (Pipeline.arrBufs (Ix := Unit) (Name := ℕ) (U := UR sig nD τ) (Lvl := ℕ) spec0 c V' : sProp 𝕄) ⊣⊢ (dat0 V c).arrays G := by
  have h0 : G 0 = V' main_v46 := hG 0
  have h1 : G 1 = V' main_arg0 := hG 1
  have h2 : G 2 = V' main_arg0 := hG 2
  have h3 : G 3 = V' main_v47 := hG 3
  have h4 : G 4 = V' main_v50 := hG 4
  have h5 : G 5 = V' main_v51_0 := hG 5
  have h6 : G 6 = V' main_v51_1 := hG 6
  rw [arrays0_eq, arrBufs0_eq, h0, h1, h2, h3, h4, h5, h6]
  constructor
  · iintro ⟨H0, Ha, H3, H4, H5, H6⟩
    ihave Hs := (pointsTo_share (PosShare.mem_left_op_right fullShare)).1 $$ Ha
    icases Hs with ⟨Hl, Hr⟩
    isplitl [H0]; · iexact H0
    isplitl [Hl]; · iexact Hl
    isplitl [Hr]; · iexact Hr
    isplitl [H3]; · iexact H3
    isplitl [H4]; · iexact H4
    isplitl [H5]; · iexact H5
    iexact H6
  · iintro ⟨H0, Hl, Hr, H3, H4, H5, H6⟩
    ihave Ha := (pointsTo_share (PosShare.mem_left_op_right fullShare)).2 $$ [Hl Hr]
    · isplitl [Hl]; · iexact Hl
      iexact Hr
    isplitl [H0]; · iexact H0
    isplitl [Ha]; · iexact Ha
    isplitl [H3]; · iexact H3
    isplitl [H4]; · iexact H4
    isplitl [H5]; · iexact H5
    iexact H6

end Cert.Kernel.Hand

end
-- ==== Proof.K.Run.lean ====
/-
  The whole run of the program: @main is twelve segments — three stretches of host operations, then five kernel regions
  each followed (but the last) by a stretch of host operations. Here: the TensorCore's buffer contents at every segment
  boundary as a fold from the launch memory (a stretch applies its operations; a region leaves its output arrays at what its
  pipeline's write-backs add up to and every other buffer as it found it), the pipelines' proof data at their regions' entry
  contents, every region as a segment over the thread state "every unscoped buffer held whole at the boundary's contents", and
  the run: every weakly fair execution terminates, nothing faults, and the final memory holds every unscoped buffer at the
  last boundary's contents — from which the argument arrays read back as launched and the result array as region 4 left it.
  At any float model.
-/
import proofs.«119003_j2834678415702_1_alg».proof.Proof.K.Region0
import proofs.«119003_j2834678415702_1_alg».proof.Proof.K.Region1
import proofs.«119003_j2834678415702_1_alg».proof.Proof.K.Region2
import proofs.«119003_j2834678415702_1_alg».proof.Proof.K.Region3
import proofs.«119003_j2834678415702_1_alg».proof.Proof.K.Region4
import proofs.«119003_j2834678415702_1_alg».proof.Proof.K.Share0
import proofs.«119003_j2834678415702_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- After the three leading stretches: region 0's entry. -/
abbrev W3 : Dev nD → Valuation τ sig (Elt F) := fun c => StableHlo.after hostOps0_2 (W2 m c)
abbrev E0 : (c : Dev nD) → (b : Ref sig .tc) → Buf (Elt F) ((c : Thread nD τ).loc b) := fun c b => W3 m c b

/-- At region 0's exit: its two output arrays at what the pipeline leaves, every other buffer as entered (the features'
    buffer, read through two windows, among them). -/
def W4 (c : Dev nD) : Valuation τ sig (Elt F) :=
  Function.update (Function.update (W3 m c) main_v51_0 ((dat0 (E0 m) c).arrAt 5 cfg0.N)) main_v51_1 ((dat0 (E0 m) c).arrAt 6 cfg0.N)
theorem W4_of (c : Dev nD) (r : Ref sig .tc) (h : r ∉ ([main_v51_0, main_v51_1] : List (Ref sig .tc))) : W4 m c r = W3 m c r := by
  simp only [W4, Function.update_of_ne (StableHlo.devRef_ne_of_ne (List.ne_of_not_mem_cons h) : (Proc.devRef .tc r : DevRef τ sig) ≠ Proc.devRef .tc main_v51_0), Function.update_of_ne (StableHlo.devRef_ne_of_ne (List.ne_of_not_mem_cons (List.not_mem_of_not_mem_cons h)) : (Proc.devRef .tc r : DevRef τ sig) ≠ Proc.devRef .tc main_v51_1)]
theorem W4_5 (c : Dev nD) : W4 m c main_v51_0 = (dat0 (E0 m) c).arrAt 5 cfg0.N := by
  unfold W4
  rw [Function.update_of_ne (StableHlo.devRef_ne_of_ne (by decide) : (Proc.devRef .tc main_v51_0 : DevRef τ sig) ≠ Proc.devRef .tc main_v51_1), Function.update_self]
theorem W4_6 (c : Dev nD) : W4 m c main_v51_1 = (dat0 (E0 m) c).arrAt 6 cfg0.N := by
  unfold W4; rw [Function.update_self]
abbrev X0 : (c : Dev nD) → (b : Ref sig .tc) → Buf (Elt F) ((c : Thread nD τ).loc b) := fun c b => W4 m c b
set_option maxHeartbeats 4000000 in
/-- At region 0's exit each of its arrays holds what the pipeline leaves: an input as entered, an output its write-backs. -/
theorem hF0 (c : Dev nD) : ∀ w : Fin cfg0.W, (dat0 (E0 m) c).arrAt w cfg0.N = X0 m c (Pipeline.arrRef spec0 w)
  | ⟨0, _⟩ => ((dat0 (E0 m) c).arrAt_in 0 rfl _).trans ((A_eq0 (E0 m) c 0).trans (W4_of m c main_v46 (by decide)).symm)
  | ⟨1, _⟩ => ((dat0 (E0 m) c).arrAt_in 1 rfl _).trans ((A_eq0 (E0 m) c 1).trans (W4_of m c main_arg0 (by decide)).symm)
  | ⟨2, _⟩ => ((dat0 (E0 m) c).arrAt_in 2 rfl _).trans ((A_eq0 (E0 m) c 2).trans (W4_of m c main_arg0 (by decide)).symm)
  | ⟨3, _⟩ => ((dat0 (E0 m) c).arrAt_in 3 rfl _).trans ((A_eq0 (E0 m) c 3).trans (W4_of m c main_v47 (by decide)).symm)
  | ⟨4, _⟩ => ((dat0 (E0 m) c).arrAt_in 4 rfl _).trans ((A_eq0 (E0 m) c 4).trans (W4_of m c main_v50 (by decide)).symm)
  | ⟨5, _⟩ => (W4_5 m c).symm
  | ⟨6, _⟩ => (W4_6 m c).symm
set_option maxHeartbeats 4000000 in
theorem hrest0 (c : Dev nD) : ∀ b, b ∉ Finset.univ.image (Pipeline.arrRef spec0) → X0 m c b = E0 m c b := fun b hb =>
  W4_of m c b fun h => hb (by
    rw [arrRefs0]
    rcases List.mem_cons.mp h with rfl | h
    · exact Finset.mem_insert_of_mem (Finset.mem_insert_of_mem (Finset.mem_insert_of_mem (Finset.mem_insert_of_mem (Finset.mem_insert_self _ _))))
    · rcases List.mem_cons.mp h with rfl | h
      · exact Finset.mem_insert_of_mem (Finset.mem_insert_of_mem (Finset.mem_insert_of_mem (Finset.mem_insert_of_mem (Finset.mem_insert_of_mem (Finset.mem_singleton_self _)))))
      · exact absurd h List.not_mem_nil)

abbrev W5 : Dev nD → Valuation τ sig (Elt F) := fun c => StableHlo.after hostOps1 (W4 m c)
abbrev E1 : (c : Dev nD) → (b : Ref sig .tc) → Buf (Elt F) ((c : Thread nD τ).loc b) := fun c b => W5 m c b

/-- At region 1's exit: its arrays at what the pipeline leaves (the inputs as entered, each output's write-backs folded),
    every other buffer as entered. -/
def W6 (c : Dev nD) : Valuation τ sig (Elt F) :=
  Pipeline.withArrays spec1 c (W5 m c) fun w => (dat1 (E1 m) c).arrAt w cfg1.N
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev X1 : (c : Dev nD) → (b : Ref sig .tc) → Buf (Elt F) ((c : Thread nD τ).loc b) := fun c b => W6 m c b
theorem hF1 (c : Dev nD) (w : Fin cfg1.W) : (dat1 (E1 m) c).arrAt w cfg1.N = X1 m c (Pipeline.arrRef spec1 w) :=
  (W6_arr m c w).symm
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev E2 : (c : Dev nD) → (b : Ref sig .tc) → Buf (Elt F) ((c : Thread nD τ).loc b) := fun c b => W7 m c b

/-- At region 2's exit: its arrays at what the pipeline leaves (the inputs as entered, each output's write-backs folded),
    every other buffer as entered. -/
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev X2 : (c : Dev nD) → (b : Ref sig .tc) → Buf (Elt F) ((c : Thread nD τ).loc b) := fun c b => W8 m c b
theorem hF2 (c : Dev nD) (w : Fin cfg2.W) : (dat2 (E2 m) c).arrAt w cfg2.N = X2 m c (Pipeline.arrRef spec2 w) :=
  (W8_arr m c w).symm
theorem hrest2 (c : Dev nD) : ∀ b, b ∉ Finset.univ.image (Pipeline.arrRef spec2) → X2 m c b = E2 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev E3 : (c : Dev nD) → (b : Ref sig .tc) → Buf (Elt F) ((c : Thread nD τ).loc b) := fun c b => W9 m c b

/-- At region 3's exit: its arrays at what the pipeline leaves (the inputs as entered, each output's write-backs folded),
    every other buffer as entered. -/
def W10 (c : Dev nD) : Valuation τ sig (Elt F) :=
  Pipeline.withArrays spec3 c (W9 m c) fun w => (dat3 (E3 m) c).arrAt w cfg3.N
theorem W10_arr (c : Dev nD) (w : Fin cfg3.W) :
    W10 m c (Proc.devRef .tc (Pipeline.arrRef spec3 w)) = (dat3 (E3 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same read at the TensorCore's references. -/
abbrev X3 : (c : Dev nD) → (b : Ref sig .tc) → Buf (Elt F) ((c : Thread nD τ).loc b) := fun c b => W10 m c b
theorem hF3 (c : Dev nD) (w : Fin cfg3.W) : (dat3 (E3 m) c).arrAt w cfg3.N = X3 m c (Pipeline.arrRef spec3 w) :=
  (W10_arr m c w).symm
theorem hrest3 (c : Dev nD) : ∀ b, b ∉ Finset.univ.image (Pipeline.arrRef spec3) → X3 m c b = E3 m c b :=
  fun b hb => W10_of_ne m c b fun w e => hb (Finset.mem_image.mpr ⟨w, Finset.mem_univ _, e⟩)

abbrev W11 : Dev nD → Valuation τ sig (Elt F) := fun c => StableHlo.after hostOps4 (W10 m c)
abbrev E4 : (c : Dev nD) → (b : Ref sig .tc) → Buf (Elt F) ((c : Thread nD τ).loc b) := fun c b => W11 m c b

/-- At region 4's exit: its arrays at what the pipeline leaves (the inputs as entered, each output's write-backs folded),
    every other buffer as entered. -/
def W12 (c : Dev nD) : Valuation τ sig (Elt F) :=
  Pipeline.withArrays spec4 c (W11 m c) fun w => (dat4 (E4 m) c).arrAt w cfg4.N
theorem W12_arr (c : Dev nD) (w : Fin cfg4.W) :
    W12 m c (Proc.devRef .tc (Pipeline.arrRef spec4 w)) = (dat4 (E4 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- The same read at the TensorCore's references. -/
abbrev X4 : (c : Dev nD) → (b : Ref sig .tc) → Buf (Elt F) ((c : Thread nD τ).loc b) := fun c b => W12 m c b
theorem hF4 (c : Dev nD) (w : Fin cfg4.W) : (dat4 (E4 m) c).arrAt w cfg4.N = X4 m c (Pipeline.arrRef spec4 w) :=
  (W12_arr m c w).symm
theorem hrest4 (c : Dev nD) : ∀ b, b ∉ Finset.univ.image (Pipeline.arrRef spec4) → X4 m c b = E4 m c b :=
  fun b hb => W12_of_ne m c b fun w e => hb (Finset.mem_image.mpr ⟨w, Finset.mem_univ _, e⟩)

/-! ### What a stretch of host operations leaves alone -/

theorem W1_of (c : Dev nD) (r : Ref sig .tc) (h : r ∉ hostOps0_W) : W1 m c r = W0 m c r := StableHlo.after_of_writes_sub hostOps0 _ hostOps0_writes h
theorem W2_of (c : Dev nD) (r : Ref sig .tc) (h : r ∉ hostOps0_1_W) : W2 m c r = W1 m c r := StableHlo.after_of_writes_sub hostOps0_1 _ hostOps0_1_writes h
theorem W3_of (c : Dev nD) (r : Ref sig .tc) (h : r ∉ hostOps0_2_W) : W3 m c r = W2 m c r := StableHlo.after_of_writes_sub hostOps0_2 _ hostOps0_2_writes h
theorem W5_of (c : Dev nD) (r : Ref sig .tc) (h : r ∉ hostOps1_W) : W5 m c r = W4 m c r := StableHlo.after_of_writes_sub hostOps1 _ hostOps1_writes h
theorem W7_of (c : Dev nD) (r : Ref sig .tc) (h : r ∉ hostOps2_W) : W7 m c r = W6 m c r := StableHlo.after_of_writes_sub hostOps2 _ hostOps2_writes h
theorem W9_of (c : Dev nD) (r : Ref sig .tc) (h : r ∉ hostOps3_W) : W9 m c r = W8 m c r := StableHlo.after_of_writes_sub hostOps3 _ hostOps3_writes h
theorem W11_of (c : Dev nD) (r : Ref sig .tc) (h : r ∉ hostOps4_W) : W11 m c r = W10 m c r := StableHlo.after_of_writes_sub hostOps4 _ hostOps4_writes h

/-! ### The arguments end as launched: no host operation writes one and no region has one among its output arrays -/

theorem W12_main_arg0 (c : Dev nD) : W12 m c main_arg0 = m ((c : Thread nD τ).loc main_arg0) :=
  (W12_of_ne m c main_arg0 (by decide)).trans <| (W11_of m c main_arg0 (by decide)).trans <| (W10_of_ne m c main_arg0 (by decide)).trans <|
  (W9_of m c main_arg0 (by decide)).trans <| (W8_of_ne m c main_arg0 (by decide)).trans <| (W7_of m c main_arg0 (by decide)).trans <|
  (W6_of_ne m c main_arg0 (by decide)).trans <| (W5_of m c main_arg0 (by decide)).trans <| (W4_of m c main_arg0 (by decide)).trans <|
  (W3_of m c main_arg0 (by decide)).trans <| (W2_of m c main_arg0 (by decide)).trans <| (W1_of m c main_arg0 (by decide)).trans rfl
theorem W12_main_arg1 (c : Dev nD) : W12 m c main_arg1 = m ((c : Thread nD τ).loc main_arg1) :=
  (W12_of_ne m c main_arg1 (by decide)).trans <| (W11_of m c main_arg1 (by decide)).trans <| (W10_of_ne m c main_arg1 (by decide)).trans <|
  (W9_of m c main_arg1 (by decide)).trans <| (W8_of_ne m c main_arg1 (by decide)).trans <| (W7_of m c main_arg1 (by decide)).trans <|
  (W6_of_ne m c main_arg1 (by decide)).trans <| (W5_of m c main_arg1 (by decide)).trans <| (W4_of m c main_arg1 (by decide)).trans <|
  (W3_of m c main_arg1 (by decide)).trans <| (W2_of m c main_arg1 (by decide)).trans <| (W1_of m c main_arg1 (by decide)).trans rfl
theorem W12_main_arg2 (c : Dev nD) : W12 m c main_arg2 = m ((c : Thread nD τ).loc main_arg2) :=
  (W12_of_ne m c main_arg2 (by decide)).trans <| (W11_of m c main_arg2 (by decide)).trans <| (W10_of_ne m c main_arg2 (by decide)).trans <|
  (W9_of m c main_arg2 (by decide)).trans <| (W8_of_ne m c main_arg2 (by decide)).trans <| (W7_of m c main_arg2 (by decide)).trans <|
  (W6_of_ne m c main_arg2 (by decide)).trans <| (W5_of m c main_arg2 (by decide)).trans <| (W4_of m c main_arg2 (by decide)).trans <|
  (W3_of m c main_arg2 (by decide)).trans <| (W2_of m c main_arg2 (by decide)).trans <| (W1_of m c main_arg2 (by decide)).trans rfl
theorem W12_main_arg3 (c : Dev nD) : W12 m c main_arg3 = m ((c : Thread nD τ).loc main_arg3) :=
  (W12_of_ne m c main_arg3 (by decide)).trans <| (W11_of m c main_arg3 (by decide)).trans <| (W10_of_ne m c main_arg3 (by decide)).trans <|
  (W9_of m c main_arg3 (by decide)).trans <| (W8_of_ne m c main_arg3 (by decide)).trans <| (W7_of m c main_arg3 (by decide)).trans <|
  (W6_of_ne m c main_arg3 (by decide)).trans <| (W5_of m c main_arg3 (by decide)).trans <| (W4_of m c main_arg3 (by decide)).trans <|
  (W3_of m c main_arg3 (by decide)).trans <| (W2_of m c main_arg3 (by decide)).trans <| (W1_of m c main_arg3 (by decide)).trans rfl
theorem W12_main_arg4 (c : Dev nD) : W12 m c main_arg4 = m ((c : Thread nD τ).loc main_arg4) :=
  (W12_of_ne m c main_arg4 (by decide)).trans <| (W11_of m c main_arg4 (by decide)).trans <| (W10_of_ne m c main_arg4 (by decide)).trans <|
  (W9_of m c main_arg4 (by decide)).trans <| (W8_of_ne m c main_arg4 (by decide)).trans <| (W7_of m c main_arg4 (by decide)).trans <|
  (W6_of_ne m c main_arg4 (by decide)).trans <| (W5_of m c main_arg4 (by decide)).trans <| (W4_of m c main_arg4 (by decide)).trans <|
  (W3_of m c main_arg4 (by decide)).trans <| (W2_of m c main_arg4 (by decide)).trans <| (W1_of m c main_arg4 (by decide)).trans rfl
theorem W12_main_arg5 (c : Dev nD) : W12 m c main_arg5 = m ((c : Thread nD τ).loc main_arg5) :=
  (W12_of_ne m c main_arg5 (by decide)).trans <| (W11_of m c main_arg5 (by decide)).trans <| (W10_of_ne m c main_arg5 (by decide)).trans <|
  (W9_of m c main_arg5 (by decide)).trans <| (W8_of_ne m c main_arg5 (by decide)).trans <| (W7_of m c main_arg5 (by decide)).trans <|
  (W6_of_ne m c main_arg5 (by decide)).trans <| (W5_of m c main_arg5 (by decide)).trans <| (W4_of m c main_arg5 (by decide)).trans <|
  (W3_of m c main_arg5 (by decide)).trans <| (W2_of m c main_arg5 (by decide)).trans <| (W1_of m c main_arg5 (by decide)).trans rfl

/-! ## The proof data family and the thread state -/

/-- No pipeline has a prefetched table. -/
abbrev admT : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admT p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: entered from every unscoped buffer at `W3`, left at `W4`. The buffers behind its windows
    are taken out of the unscoped buffers, the features' split between the two windows that read it, and put back at the exit
    contents; the generator register goes into the pipeline's invariant and comes back; nothing is owed. -/
def reg0 : Pipeline.RegionSeg (pcfgs (F := F)) admT (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (unscopedBufs (Ix := Unit) (Name := ℕ) (U := UR sig nD τ) (Lvl := ℕ) c (E0 m c) : sProp 𝕄)
        ⊢ iprop((dat0 (E0 m) c).arrays ((dat0 (E0 m) c).arrAt · 0) ∗ Pipeline.unscopedRest spec0 c (E0 m c)) := by
      rw [Pipeline.unscopedBufs_split₀ cfgs 0 winFacts₀0.arr_unscoped c (E0 m c)]
      exact sep_mono (arrays0_iff (E0 m) c (E0 m c) _ fun w => A_eq0 (E0 m) c w).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (E0 m) c).arrays ((dat0 (E0 m) c).arrAt · cfg0.N) ∗ Pipeline.unscopedRest spec0 c (E0 m c))
        ⊢ (unscopedBufs (Ix := Unit) (Name := ℕ) (U := UR sig nD τ) (Lvl := ℕ) c (X0 m c) : sProp 𝕄) := by
      rw [Pipeline.unscopedBufs_split₀ cfgs 0 winFacts₀0.arr_unscoped c (X0 m c)]
      refine sep_mono (arrays0_iff (E0 m) c (X0 m c) _ (hF0 m c)).2 (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the pipeline's invariant and
    comes back; nothing is owed; the kernel has no semaphore of its own. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split out
    of the unscoped buffers and put back at the exit contents; the generator register goes into the pipeline's invariant and
    comes back; nothing is owed; the kernel has no semaphore of its own. -/
def reg2 : Pipeline.RegionSeg (pcfgs (F := F)) admT (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) admT (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split out
    of the unscoped buffers and put back at the exit contents; the generator register goes into the pipeline's invariant and
    comes back; nothing is owed; the kernel has no semaphore of its own. -/
def reg3 : Pipeline.RegionSeg (pcfgs (F := F)) admT (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) admT (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admT (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`. Its arrays are split out
    of the unscoped buffers and put back at the exit contents; the generator register goes into the pipeline's invariant and
    comes back; nothing is owed; the kernel has no semaphore of its own. -/
def reg4 : Pipeline.RegionSeg (pcfgs (F := F)) admT (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) admT (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admT (Ix := Unit) (Name := ℕ) (U := UR sig nD τ) (Lvl := ℕ)
      launch4.win launch4.arr_whole c (pdats m) ((pdats m 4 c).share_full fun _ => rfl)
      (E4 m c) (X4 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's twelve segments in order. -/
abbrev segsT : List (Pipeline.Seg (pcfgs (F := F)) admT (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]
/-- @main is the run of the segments. -/
theorem main_run (c : Dev nD) : main (F := F) c = Pipeline.Seg.run (segsT m) := (main_chain c).trans (by chain_rfl)

set_option backward.isDefEq.respectTransparency.types false in
/-- THE RUN. From any memory with zero counters, every weakly fair execution of @main on the TensorCores terminates, nothing
    faulting, and the final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) admT (pdats m) () cellOf_inj emb₁ defs₀ 𝒱₀ L lv m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W12_main_arg0 m c), (h c _ (mem_uc main_arg1 (by decide))).trans (W12_main_arg1 m c),
     (h c _ (mem_uc main_arg2 (by decide))).trans (W12_main_arg2 m c), (h c _ (mem_uc main_arg3 (by decide))).trans (W12_main_arg3 m c),
     (h c _ (mem_uc main_arg4 (by decide))).trans (W12_main_arg4 m c), (h c _ (mem_uc main_arg5 (by decide))).trans (W12_main_arg5 m c)⟩)
    (run_all m ρ)

/-- THE RUN WITH ITS RESULT: the result array ends at what region 4's pipeline leaves in its second output array, the
    arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v97_1) = (dat4 (E4 m) c).arrAt 6 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v97_1 (by decide))).trans (W12_arr m c 6),
     (h c _ (mem_uc main_arg0 (by decide))).trans (W12_main_arg0 m c), (h c _ (mem_uc main_arg1 (by decide))).trans (W12_main_arg1 m c),
     (h c _ (mem_uc main_arg2 (by decide))).trans (W12_main_arg2 m c), (h c _ (mem_uc main_arg3 (by decide))).trans (W12_main_arg3 m c),
     (h c _ (mem_uc main_arg4 (by decide))).trans (W12_main_arg4 m c), (h c _ (mem_uc main_arg5 (by decide))).trans (W12_main_arg5 m c)⟩)
    (run_all m ρ)

end Cert.Kernel.Hand

end
-- ==== Proof.KI.Region0.lean ====
/-
  Region 0 of the program: the per-node combine kernel on a grid of 20 points. At a point the body reads a 5000x1 mask
  block, three 5000x128 blocks (the scattered rows, the previous features, the previous result) and the 1x1 layer weight,
  and stores two 5000x128 blocks: the new features  mask * scattered + (1 - mask) * previous  (the mask spread along
  the lanes), and the new result  previous result + weight * new features.
  Here: each window's block at a point as a function of the region's entry contents, what the body leaves in each output
  buffer, the body's triple, the pipeline's proof data and the body obligation at every point — at any float model.
-/
import proofs.«119003_j2834678415702_1_alg».proof.Proof.Gen.KernelIdeal.Launch
import proofs.«119003_j2834678415702_1_alg».proof.Proof.Gen.KernelIdeal.Skeleton
import proofs.«119003_j2834678415702_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is the entry contents' and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is the entry contents' and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and both stores take the whole buffer -/

abbrev r0_col : Rect S5000x1 := Rect.unit (s := S5000x1) ![0, 0] S5000x1.size inb_S5000x1_S5000x1_0_0
abbrev r0_row : Rect S5000x128 := Rect.unit (s := S5000x128) ![0, 0] S5000x128.size inb_S5000x128_S5000x128_0_0
abbrev r0_one : Rect S1x1 := Rect.unit (s := S1x1) ![0, 0] S1x1.size inb_S1x1_S1x1_0_0

/-- The new-features buffer after the body, from the input blocks. -/
def out0_5 (x0 : Vec F S5000x1 .f32) (x1 x2 : Vec F S5000x128 .f32) : Vec F S5000x128 .f32 :=
  View.canon [⟨r0_row, k0_pay1 (View.ld x0 r0_col) (View.ld x1 r0_row) (View.ld x2 r0_row)⟩]

/-- The new-result buffer after the body, from the input blocks. -/
def out0_6 (x0 : Vec F S5000x1 .f32) (x1 x2 x3 : Vec F S5000x128 .f32) (x4 : Vec F S1x1 .f32) : Vec F S5000x128 .f32 :=
  View.canon [⟨r0_row, k0_pay2 (View.ld x0 r0_col) (View.ld x1 r0_row) (View.ld x2 r0_row) (View.ld x3 r0_row) (View.ld x4 r0_one)⟩]

/-- A store of the whole buffer covers it. -/
theorem cover0 (p0 : Vec F S5000x128 .f32) (y : S5000x128.Idx) :
    ∃ pc ∈ ([⟨r0_row, p0⟩] : List (View.Piece (Elt F) S5000x128 .f32)), y ∈ pc.1.set :=
  View.cover_of_tiled [⟨r0_row, p0⟩] S5000x128.size (by rfl) y

/-! ## The body's triple -/

set_option maxHeartbeats 1000000 in
/-- The body on whole staging memrefs, the inputs' at contents `x0 … x4` and the outputs' at anything, runs to the
    continuation with the inputs' as they were and the outputs' at `out0_5`, `out0_6` of the inputs'. -/
theorem sound_kernel0 (c : Dev nD) (E : Set ℕ) (i : grid0.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1 .f32) (harg5 : arg5.IsWhole) (arg6 : Memref sig .tc .vmem S5000x128 .f32) (harg6 : arg6.IsWhole)
    (arg7 : Memref sig .tc .vmem S5000x128 .f32) (harg7 : arg7.IsWhole)
    (x0 : Vec F S5000x1 .f32) (x1 x2 x3 : Vec F S5000x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- Region 0 is handed the features array through two input windows (the scattered rows and the previous features are both
    the features at the first call): each of the two holds it at one half of the full share; every other input is held whole. -/
def q0 : Fin cfg0.W → PosShare TreeShare
  | ⟨1, _⟩ => fullShare.left
  | ⟨2, _⟩ => fullShare.right
  | _ => fullShare

/-- The proof data on core `c`: the arrays as the region finds them; after the body at point `t` each input's buffer at
    its block and each output's at its function of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the per-edge message kernel on a grid of 250 points. At a point the body reads three
  6400x1 column blocks (the row factor, the edge value, the column factor) and one 6400x128 block of gathered rows,
  and stores the product (row factor * edge value * column factor), spread along the lanes, times the gathered rows.
  Here: each window's block at a point as a function of the region's entry contents, what the body leaves in the output
  buffer, the body's triple, the pipeline's proof data and the body obligation at every point — at any float model.
-/
import proofs.«119003_j2834678415702_1_alg».proof.Proof.Gen.KernelIdeal.Launch
import proofs.«119003_j2834678415702_1_alg».proof.Proof.Gen.KernelIdeal.Skeleton
import proofs.«119003_j2834678415702_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the entry
    contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for any proof data whose array is the entry
    contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for any proof data whose array is the entry
    contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for any proof data whose array is the entry
    contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_col : Rect S6400x1 := Rect.unit (s := S6400x1) ![0, 0] S6400x1.size inb_S6400x1_S6400x1_0_0
abbrev r1_row : Rect S6400x128 := Rect.unit (s := S6400x128) ![0, 0] S6400x128.size inb_S6400x128_S6400x128_0_0

/-- The output buffer after the body, from the input blocks: the one store's payload over the whole buffer. -/
def out1_4 (x0 x1 x2 : Vec F S6400x1 .f32) (x3 : Vec F S6400x128 .f32) : Vec F S6400x128 .f32 :=
  View.canon [⟨r1_row, k1_pay1 (View.ld x0 r1_col) (View.ld x1 r1_col) (View.ld x2 r1_col) (View.ld x3 r1_row)⟩]

/-- The store covers the buffer. -/
theorem cover1_4 (p0 : Vec F S6400x128 .f32) (y : S6400x128.Idx) :
    ∃ pc ∈ ([⟨r1_row, p0⟩] : List (View.Piece (Elt F) S6400x128 .f32)), y ∈ pc.1.set :=
  View.cover_of_tiled [⟨r1_row, p0⟩] S6400x128.size (by rfl) y

/-! ## The body's triple -/

set_option maxHeartbeats 1000000 in
/-- The body on whole staging memrefs, the inputs' at contents `x0 … x3` and the output's at anything, runs to the
    continuation with the inputs' as they were and the output's at `out1_4` of the inputs'. -/
theorem sound_kernel1 (c : Dev nD) (E : Set ℕ) (i : grid1.Coords)
    (arg1 : Memref sig .tc .vmem S6400x1 .f32) (harg1 : arg1.IsWhole) (arg2 : Memref sig .tc .vmem S6400x1 .f32) (harg2 : arg2.IsWhole)
    (arg3 : Memref sig .tc .vmem S6400x1 .f32) (harg3 : arg3.IsWhole) (arg4 : Memref sig .tc .vmem S6400x128 .f32) (harg4 : arg4.IsWhole)
    (arg5 : Memref sig .tc .vmem S6400x128 .f32) (harg5 : arg5.IsWhole)
    (x0 x1 x2 : Vec F S6400x1 .f32) (x3 : Vec F S6400x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__msg_kernel i arg1 harg1 arg2 harg2 arg3 harg3 arg4 harg4 arg5 harg5) K := by
  simp only [cc1__msg_kernel_eq_skeleton]; unfold cc1__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data on core `c`: the arrays as the region finds them; after the body at point `t` each input's buffer at
    its block and the output's at `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program: the per-node combine kernel on a grid of 20 points. At a point the body reads a 5000x1 mask
  block, three 5000x128 blocks (the scattered rows, the previous features, the previous result) and the 1x1 layer weight,
  and stores two 5000x128 blocks: the new features  mask * scattered + (1 - mask) * previous  (the mask spread along
  the lanes), and the new result  previous result + weight * new features.
  Here: each window's block at a point as a function of the region's entry contents, what the body leaves in each output
  buffer, the body's triple, the pipeline's proof data and the body obligation at every point — at any float model.
-/
import proofs.«119003_j2834678415702_1_alg».proof.Proof.Gen.KernelIdeal.Launch
import proofs.«119003_j2834678415702_1_alg».proof.Proof.Gen.KernelIdeal.Skeleton
import proofs.«119003_j2834678415702_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents' and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is the entry contents' and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is the entry contents' and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is the entry contents' and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is the entry contents' and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and both stores take the whole buffer -/

abbrev r2_col : Rect S5000x1 := Rect.unit (s := S5000x1) ![0, 0] S5000x1.size inb_S5000x1_S5000x1_0_0
abbrev r2_row : Rect S5000x128 := Rect.unit (s := S5000x128) ![0, 0] S5000x128.size inb_S5000x128_S5000x128_0_0
abbrev r2_one : Rect S1x1 := Rect.unit (s := S1x1) ![0, 0] S1x1.size inb_S1x1_S1x1_0_0

/-- The new-features buffer after the body, from the input blocks. -/
def out2_5 (x0 : Vec F S5000x1 .f32) (x1 x2 : Vec F S5000x128 .f32) : Vec F S5000x128 .f32 :=
  View.canon [⟨r2_row, k2_pay1 (View.ld x0 r2_col) (View.ld x1 r2_row) (View.ld x2 r2_row)⟩]

/-- The new-result buffer after the body, from the input blocks. -/
def out2_6 (x0 : Vec F S5000x1 .f32) (x1 x2 x3 : Vec F S5000x128 .f32) (x4 : Vec F S1x1 .f32) : Vec F S5000x128 .f32 :=
  View.canon [⟨r2_row, k2_pay2 (View.ld x0 r2_col) (View.ld x1 r2_row) (View.ld x2 r2_row) (View.ld x3 r2_row) (View.ld x4 r2_one)⟩]

/-- A store of the whole buffer covers it. -/
theorem cover2 (p0 : Vec F S5000x128 .f32) (y : S5000x128.Idx) :
    ∃ pc ∈ ([⟨r2_row, p0⟩] : List (View.Piece (Elt F) S5000x128 .f32)), y ∈ pc.1.set :=
  View.cover_of_tiled [⟨r2_row, p0⟩] S5000x128.size (by rfl) y

/-! ## The body's triple -/

set_option maxHeartbeats 1000000 in
/-- The body on whole staging memrefs, the inputs' at contents `x0 … x4` and the outputs' at anything, runs to the
    continuation with the inputs' as they were and the outputs' at `out2_5`, `out2_6` of the inputs'. -/
theorem sound_kernel2 (c : Dev nD) (E : Set ℕ) (i : grid2.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1 .f32) (harg5 : arg5.IsWhole) (arg6 : Memref sig .tc .vmem S5000x128 .f32) (harg6 : arg6.IsWhole)
    (arg7 : Memref sig .tc .vmem S5000x128 .f32) (harg7 : arg7.IsWhole)
    (x0 : Vec F S5000x1 .f32) (x1 x2 x3 : Vec F S5000x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2) ∗ owns (c : Thread nD τ) arg7 fullShare (out2_6 x0 x1 x2 x3 x4)) -∗ K ⟨⟩))
      ⊢ wp frame (wpE (defs₀ (F := F)) Variants.none c none) E
          (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2 _)
  iexists _; isplitr
  swap; · iexact H6
  ipureintro
  exact View.read_writes_eq_canon _ _ _ (cover2 _)

/-! ## The pipeline's proof data -/

/-- The proof data on core `c`: the arrays as the region finds them; after the body at point `t` each input's buffer at
    its block and each output's at its function of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program: the per-edge message kernel on a grid of 250 points. At a point the body reads three
  6400x1 column blocks (the row factor, the edge value, the column factor) and one 6400x128 block of gathered rows,
  and stores the product (row factor * edge value * column factor), spread along the lanes, times the gathered rows.
  Here: each window's block at a point as a function of the region's entry contents, what the body leaves in the output
  buffer, the body's triple, the pipeline's proof data and the body obligation at every point — at any float model.
-/
import proofs.«119003_j2834678415702_1_alg».proof.Proof.Gen.KernelIdeal.Launch
import proofs.«119003_j2834678415702_1_alg».proof.Proof.Gen.KernelIdeal.Skeleton
import proofs.«119003_j2834678415702_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is the entry
    contents' and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, for any proof data whose array is the entry
    contents' and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, for any proof data whose array is the entry
    contents' and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, for any proof data whose array is the entry
    contents' and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole buffer -/

abbrev r3_col : Rect S6400x1 := Rect.unit (s := S6400x1) ![0, 0] S6400x1.size inb_S6400x1_S6400x1_0_0
abbrev r3_row : Rect S6400x128 := Rect.unit (s := S6400x128) ![0, 0] S6400x128.size inb_S6400x128_S6400x128_0_0

/-- The output buffer after the body, from the input blocks: the one store's payload over the whole buffer. -/
def out3_4 (x0 x1 x2 : Vec F S6400x1 .f32) (x3 : Vec F S6400x128 .f32) : Vec F S6400x128 .f32 :=
  View.canon [⟨r3_row, k3_pay1 (View.ld x0 r3_col) (View.ld x1 r3_col) (View.ld x2 r3_col) (View.ld x3 r3_row)⟩]

/-- The store covers the buffer. -/
theorem cover3_4 (p0 : Vec F S6400x128 .f32) (y : S6400x128.Idx) :
    ∃ pc ∈ ([⟨r3_row, p0⟩] : List (View.Piece (Elt F) S6400x128 .f32)), y ∈ pc.1.set :=
  View.cover_of_tiled [⟨r3_row, p0⟩] S6400x128.size (by rfl) y

/-! ## The body's triple -/

set_option maxHeartbeats 1000000 in
/-- The body on whole staging memrefs, the inputs' at contents `x0 … x3` and the output's at anything, runs to the
    continuation with the inputs' as they were and the output's at `out3_4` of the inputs'. -/
theorem sound_kernel3 (c : Dev nD) (E : Set ℕ) (i : grid3.Coords)
    (arg1 : Memref sig .tc .vmem S6400x1 .f32) (harg1 : arg1.IsWhole) (arg2 : Memref sig .tc .vmem S6400x1 .f32) (harg2 : arg2.IsWhole)
    (arg3 : Memref sig .tc .vmem S6400x1 .f32) (harg3 : arg3.IsWhole) (arg4 : Memref sig .tc .vmem S6400x128 .f32) (harg4 : arg4.IsWhole)
    (arg5 : Memref sig .tc .vmem S6400x128 .f32) (harg5 : arg5.IsWhole)
    (x0 x1 x2 : Vec F S6400x1 .f32) (x3 : Vec F S6400x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__msg_kernel i arg1 harg1 arg2 harg2 arg3 harg3 arg4 harg4 arg5 harg5) K := by
  simp only [cc3__msg_kernel_eq_skeleton]; unfold cc3__msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data on core `c`: the arrays as the region finds them; after the body at point `t` each input's buffer at
    its block and the output's at `out3_4` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  Region 4 of the program: the per-node combine kernel on a grid of 20 points. At a point the body reads a 5000x1 mask
  block, three 5000x128 blocks (the scattered rows, the previous features, the previous result) and the 1x1 layer weight,
  and stores two 5000x128 blocks: the new features  mask * scattered + (1 - mask) * previous  (the mask spread along
  the lanes), and the new result  previous result + weight * new features.
  Here: each window's block at a point as a function of the region's entry contents, what the body leaves in each output
  buffer, the body's triple, the pipeline's proof data and the body obligation at every point — at any float model.
-/
import proofs.«119003_j2834678415702_1_alg».proof.Proof.Gen.KernelIdeal.Launch
import proofs.«119003_j2834678415702_1_alg».proof.Proof.Gen.KernelIdeal.Skeleton
import proofs.«119003_j2834678415702_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents' and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof data
    whose array is the entry contents' and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof data
    whose array is the entry contents' and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof data
    whose array is the entry contents' and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof data
    whose array is the entry contents' and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and both stores take the whole buffer -/

abbrev r4_col : Rect S5000x1 := Rect.unit (s := S5000x1) ![0, 0] S5000x1.size inb_S5000x1_S5000x1_0_0
abbrev r4_row : Rect S5000x128 := Rect.unit (s := S5000x128) ![0, 0] S5000x128.size inb_S5000x128_S5000x128_0_0
abbrev r4_one : Rect S1x1 := Rect.unit (s := S1x1) ![0, 0] S1x1.size inb_S1x1_S1x1_0_0

/-- The new-features buffer after the body, from the input blocks. -/
def out4_5 (x0 : Vec F S5000x1 .f32) (x1 x2 : Vec F S5000x128 .f32) : Vec F S5000x128 .f32 :=
  View.canon [⟨r4_row, k4_pay1 (View.ld x0 r4_col) (View.ld x1 r4_row) (View.ld x2 r4_row)⟩]

/-- The new-result buffer after the body, from the input blocks. -/
def out4_6 (x0 : Vec F S5000x1 .f32) (x1 x2 x3 : Vec F S5000x128 .f32) (x4 : Vec F S1x1 .f32) : Vec F S5000x128 .f32 :=
  View.canon [⟨r4_row, k4_pay2 (View.ld x0 r4_col) (View.ld x1 r4_row) (View.ld x2 r4_row) (View.ld x3 r4_row) (View.ld x4 r4_one)⟩]

/-- A store of the whole buffer covers it. -/
theorem cover4 (p0 : Vec F S5000x128 .f32) (y : S5000x128.Idx) :
    ∃ pc ∈ ([⟨r4_row, p0⟩] : List (View.Piece (Elt F) S5000x128 .f32)), y ∈ pc.1.set :=
  View.cover_of_tiled [⟨r4_row, p0⟩] S5000x128.size (by rfl) y

/-! ## The body's triple -/

set_option maxHeartbeats 1000000 in
/-- The body on whole staging memrefs, the inputs' at contents `x0 … x4` and the outputs' at anything, runs to the
    continuation with the inputs' as they were and the outputs' at `out4_5`, `out4_6` of the inputs'. -/
theorem sound_kernel4 (c : Dev nD) (E : Set ℕ) (i : grid4.Coords)
    (arg1 : Memref sig .tc .vmem S5000x1 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x128 .f32) (harg4 : arg4.IsWhole)
    (arg5 : Memref sig .tc .vmem S1x1 .f32) (harg5 : arg5.IsWhole) (arg6 : Memref sig .tc .vmem S5000x128 .f32) (harg6 : arg6.IsWhole)
    (arg7 : Memref sig .tc .vmem S5000x128 .f32) (harg7 : arg7.IsWhole)
    (x0 : Vec F S5000x1 .f32) (x1 x2 x3 : Vec F S5000x128 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2) ∗ owns (c : Thread nD τ) arg7 fullShare (out4_6 x0 x1 x2 x3 x4)) -∗ K ⟨⟩))
      ⊢ wp frame (wpE (defs₀ (F := F)) Variants.none c none) E
          (cc4__combine_kernel i arg1 harg1 arg2 harg2 arg3 harg3 arg4 harg4 arg5 harg5 arg6 harg6 arg7 harg7) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4 _)
  iexists _; isplitr
  swap; · iexact H6
  ipureintro
  exact View.read_writes_eq_canon _ _ _ (cover4 _)

/-! ## The pipeline's proof data -/

/-- The proof data on core `c`: the arrays as the region finds them; after the body at point `t` each input's buffer at
    its block and each output's at its function of the input blocks; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) := by dsimp only [dat4]
theorem after4_6 (c : Dev nD) (t : Fin cfg4.N) :
    (dat4 V c).after 6 t = out4_6 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Share0.lean ====
/-
  Region 0 reads the features array through two of its input windows. The buffers behind its seven windows are six; the
  pipeline holds each window's array at the window's share, so the features' buffer, held whole, is split into its two
  half shares on the way in and joined again on the way out (both windows leave it as they found it).
-/
import proofs.«119003_j2834678415702_1_alg».proof.Proof.KI.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The buffers behind region 0's windows. -/
theorem arrRefs0 : Finset.univ.image (Pipeline.arrRef spec0)
    = ({main_v46, main_arg0, main_v47, main_v50, main_v51_0, main_v51_1} : Finset (Ref sig .tc)) := by decide +kernel

set_option maxHeartbeats 4000000 in
/-- Those six buffers, each held whole at contents `V'`, one by one. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄) = iprop(
      (((c : Thread nD τ).loc main_v46) ↦{fullShare} V' main_v46)
      ∗ (((c : Thread nD τ).loc main_arg0) ↦{fullShare} V' main_arg0)
      ∗ (((c : Thread nD τ).loc main_v47) ↦{fullShare} V' main_v47)
      ∗ (((c : Thread nD τ).loc main_v50) ↦{fullShare} V' main_v50)
      ∗ (((c : Thread nD τ).loc main_v51_0) ↦{fullShare} V' main_v51_0)
      ∗ (((c : Thread nD τ).loc main_v51_1) ↦{fullShare} V' main_v51_1)) := by
  unfold Pipeline.arrBufs
  rw [arrRefs0, BI.bigSep_insert (by decide), BI.bigSep_insert (by decide), BI.bigSep_insert (by decide), BI.bigSep_insert (by decide),
    BI.bigSep_insert (by decide), BI.bigSep_singleton]
  rfl

set_option maxHeartbeats 4000000 in
/-- The windowed arrays of region 0 at contents `G`, window by window: every array whole; the features' at the left half
    share for window 1 and at the right half for window 2, every other at the full share. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_v46) ↦{fullShare} G 0)
      ∗ (((c : Thread nD τ).loc main_arg0) ↦{fullShare.left} G 1)
      ∗ (((c : Thread nD τ).loc main_arg0) ↦{fullShare.right} G 2)
      ∗ (((c : Thread nD τ).loc main_v47) ↦{fullShare} G 3)
      ∗ (((c : Thread nD τ).loc main_v50) ↦{fullShare} G 4)
      ∗ (((c : Thread nD τ).loc main_v51_0) ↦{fullShare} G 5)
      ∗ (((c : Thread nD τ).loc main_v51_1) ↦{fullShare} G 6)) := by
  unfold Dat.arrays
  rw [bigSep_W0]
  rw [(arr_whole0 0).set_eq_univ, (arr_whole0 1).set_eq_univ, (arr_whole0 3).set_eq_univ,
    (arr_whole0 4).set_eq_univ, (arr_whole0 5).set_eq_univ, (arr_whole0 6).set_eq_univ]
  rfl

set_option maxHeartbeats 4000000 in
/-- The six buffers behind region 0's windows, each held whole at contents `V'`, are its windowed arrays at contents `G` — where
    `G` reads `V'` at each window's array —, the features' buffer split into its two half shares; and back. -/
theorem arrays0_iff (c : Dev nD) (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (Pipeline.arrBufs (Ix := Unit) (Name := ℕ) (U := UR sig nD τ) (Lvl := ℕ) spec0 c V' : sProp 𝕄) ⊣⊢ (dat0 V c).arrays G := by
  have h0 : G 0 = V' main_v46 := hG 0
  have h1 : G 1 = V' main_arg0 := hG 1
  have h2 : G 2 = V' main_arg0 := hG 2
  have h3 : G 3 = V' main_v47 := hG 3
  have h4 : G 4 = V' main_v50 := hG 4
  have h5 : G 5 = V' main_v51_0 := hG 5
  have h6 : G 6 = V' main_v51_1 := hG 6
  rw [arrays0_eq, arrBufs0_eq, h0, h1, h2, h3, h4, h5, h6]
  constructor
  · iintro ⟨H0, Ha, H3, H4, H5, H6⟩
    ihave Hs := (pointsTo_share (PosShare.mem_left_op_right fullShare)).1 $$ Ha
    icases Hs with ⟨Hl, Hr⟩
    isplitl [H0]; · iexact H0
    isplitl [Hl]; · iexact Hl
    isplitl [Hr]; · iexact Hr
    isplitl [H3]; · iexact H3
    isplitl [H4]; · iexact H4
    isplitl [H5]; · iexact H5
    iexact H6
  · iintro ⟨H0, Hl, Hr, H3, H4, H5, H6⟩
    ihave Ha := (pointsTo_share (PosShare.mem_left_op_right fullShare)).2 $$ [Hl Hr]
    · isplitl [Hl]; · iexact Hl
      iexact Hr
    isplitl [H0]; · iexact H0
    isplitl [Ha]; · iexact Ha
    isplitl [H3]; · iexact H3
    isplitl [H4]; · iexact H4
    isplitl [H5]; · iexact H5
    iexact H6

end Cert.KernelIdeal.Hand

end
-- ==== Proof.KI.Run.lean ====
/-
  The whole run of the program: @main is twelve segments — three stretches of host operations, then five kernel regions
  each followed (but the last) by a stretch of host operations. Here: the TensorCore's buffer contents at every segment
  boundary as a fold from the launch memory (a stretch applies its operations; a region leaves its output arrays at what its
  pipeline's write-backs add up to and every other buffer as it found it), the pipelines' proof data at their regions' entry
  contents, every region as a segment over the thread state "every unscoped buffer held whole at the boundary's contents", and
  the run: every weakly fair execution terminates, nothing faults, and the final memory holds every unscoped buffer at the
  last boundary's contents — from which the argument arrays read back as launched and the result array as region 4 left it.
  At any float model.
-/
import proofs.«119003_j2834678415702_1_alg».proof.Proof.KI.Region0
import proofs.«119003_j2834678415702_1_alg».proof.Proof.KI.Region1
import proofs.«119003_j2834678415702_1_alg».proof.Proof.KI.Region2
import proofs.«119003_j2834678415702_1_alg».proof.Proof.KI.Region3
import proofs.«119003_j2834678415702_1_alg».proof.Proof.KI.Region4
import proofs.«119003_j2834678415702_1_alg».proof.Proof.KI.Share0
import proofs.«119003_j2834678415702_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- After the three leading stretches: region 0's entry. -/
abbrev W3 : Dev nD → Valuation τ sig (Elt F) := fun c => StableHlo.after hostOps0_2 (W2 m c)
abbrev E0 : (c : Dev nD) → (b : Ref sig .tc) → Buf (Elt F) ((c : Thread nD τ).loc b) := fun c b => W3 m c b

/-- At region 0's exit: its two output arrays at what the pipeline leaves, every other buffer as entered (the features'
    buffer, read through two windows, among them). -/
def W4 (c : Dev nD) : Valuation τ sig (Elt F) :=
  Function.update (Function.update (W3 m c) main_v51_0 ((dat0 (E0 m) c).arrAt 5 cfg0.N)) main_v51_1 ((dat0 (E0 m) c).arrAt 6 cfg0.N)
theorem W4_of (c : Dev nD) (r : Ref sig .tc) (h : r ∉ ([main_v51_0, main_v51_1] : List (Ref sig .tc))) : W4 m c r = W3 m c r := by
  simp only [W4, Function.update_of_ne (StableHlo.devRef_ne_of_ne (List.ne_of_not_mem_cons h) : (Proc.devRef .tc r : DevRef τ sig) ≠ Proc.devRef .tc main_v51_0), Function.update_of_ne (StableHlo.devRef_ne_of_ne (List.ne_of_not_mem_cons (List.not_mem_of_not_mem_cons h)) : (Proc.devRef .tc r : DevRef τ sig) ≠ Proc.devRef .tc main_v51_1)]
theorem W4_5 (c : Dev nD) : W4 m c main_v51_0 = (dat0 (E0 m) c).arrAt 5 cfg0.N := by
  unfold W4
  rw [Function.update_of_ne (StableHlo.devRef_ne_of_ne (by decide) : (Proc.devRef .tc main_v51_0 : DevRef τ sig) ≠ Proc.devRef .tc main_v51_1), Function.update_self]
theorem W4_6 (c : Dev nD) : W4 m c main_v51_1 = (dat0 (E0 m) c).arrAt 6 cfg0.N := by
  unfold W4; rw [Function.update_self]
abbrev X0 : (c : Dev nD) → (b : Ref sig .tc) → Buf (Elt F) ((c : Thread nD τ).loc b) := fun c b => W4 m c b
set_option maxHeartbeats 4000000 in
/-- At region 0's exit each of its arrays holds what the pipeline leaves: an input as entered, an output its write-backs. -/
theorem hF0 (c : Dev nD) : ∀ w : Fin cfg0.W, (dat0 (E0 m) c).arrAt w cfg0.N = X0 m c (Pipeline.arrRef spec0 w)
  | ⟨0, _⟩ => ((dat0 (E0 m) c).arrAt_in 0 rfl _).trans ((A_eq0 (E0 m) c 0).trans (W4_of m c main_v46 (by decide)).symm)
  | ⟨1, _⟩ => ((dat0 (E0 m) c).arrAt_in 1 rfl _).trans ((A_eq0 (E0 m) c 1).trans (W4_of m c main_arg0 (by decide)).symm)
  | ⟨2, _⟩ => ((dat0 (E0 m) c).arrAt_in 2 rfl _).trans ((A_eq0 (E0 m) c 2).trans (W4_of m c main_arg0 (by decide)).symm)
  | ⟨3, _⟩ => ((dat0 (E0 m) c).arrAt_in 3 rfl _).trans ((A_eq0 (E0 m) c 3).trans (W4_of m c main_v47 (by decide)).symm)
  | ⟨4, _⟩ => ((dat0 (E0 m) c).arrAt_in 4 rfl _).trans ((A_eq0 (E0 m) c 4).trans (W4_of m c main_v50 (by decide)).symm)
  | ⟨5, _⟩ => (W4_5 m c).symm
  | ⟨6, _⟩ => (W4_6 m c).symm
set_option maxHeartbeats 4000000 in
theorem hrest0 (c : Dev nD) : ∀ b, b ∉ Finset.univ.image (Pipeline.arrRef spec0) → X0 m c b = E0 m c b := fun b hb =>
  W4_of m c b fun h => hb (by
    rw [arrRefs0]
    rcases List.mem_cons.mp h with rfl | h
    · exact Finset.mem_insert_of_mem (Finset.mem_insert_of_mem (Finset.mem_insert_of_mem (Finset.mem_insert_of_mem (Finset.mem_insert_self _ _))))
    · rcases List.mem_cons.mp h with rfl | h
      · exact Finset.mem_insert_of_mem (Finset.mem_insert_of_mem (Finset.mem_insert_of_mem (Finset.mem_insert_of_mem (Finset.mem_insert_of_mem (Finset.mem_singleton_self _)))))
      · exact absurd h List.not_mem_nil)

abbrev W5 : Dev nD → Valuation τ sig (Elt F) := fun c => StableHlo.after hostOps1 (W4 m c)
abbrev E1 : (c : Dev nD) → (b : Ref sig .tc) → Buf (Elt F) ((c : Thread nD τ).loc b) := fun c b => W5 m c b

/-- At region 1's exit: its arrays at what the pipeline leaves (the inputs as entered, each output's write-backs folded),
    every other buffer as entered. -/
def W6 (c : Dev nD) : Valuation τ sig (Elt F) :=
  Pipeline.withArrays spec1 c (W5 m c) fun w => (dat1 (E1 m) c).arrAt w cfg1.N
theorem W6_arr (c : Dev nD) (w : Fin cfg1.W) :
    W6 m c (Proc.devRef .tc (Pipeline.arrRef spec1 w)) = (dat1 (E1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev X1 : (c : Dev nD) → (b : Ref sig .tc) → Buf (Elt F) ((c : Thread nD τ).loc b) := fun c b => W6 m c b
theorem hF1 (c : Dev nD) (w : Fin cfg1.W) : (dat1 (E1 m) c).arrAt w cfg1.N = X1 m c (Pipeline.arrRef spec1 w) :=
  (W6_arr m c w).symm
theorem hrest1 (c : Dev nD) : ∀ b, b ∉ Finset.univ.image (Pipeline.arrRef spec1) → X1 m c b = E1 m c b :=
  fun b hb => W6_of_ne m c b fun w e => hb (Finset.mem_image.mpr ⟨w, Finset.mem_univ _, e⟩)

abbrev W7 : Dev nD → Valuation τ sig (Elt F) := fun c => StableHlo.after hostOps2 (W6 m c)
abbrev E2 : (c : Dev nD) → (b : Ref sig .tc) → Buf (Elt F) ((c : Thread nD τ).loc b) := fun c b => W7 m c b

/-- At region 2's exit: its arrays at what the pipeline leaves (the inputs as entered, each output's write-backs folded),
    every other buffer as entered. -/
def W8 (c : Dev nD) : Valuation τ sig (Elt F) :=
  Pipeline.withArrays spec2 c (W7 m c) fun w => (dat2 (E2 m) c).arrAt w cfg2.N
theorem W8_arr (c : Dev nD) (w : Fin cfg2.W) :
    W8 m c (Proc.devRef .tc (Pipeline.arrRef spec2 w)) = (dat2 (E2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev X2 : (c : Dev nD) → (b : Ref sig .tc) → Buf (Elt F) ((c : Thread nD τ).loc b) := fun c b => W8 m c b
theorem hF2 (c : Dev nD) (w : Fin cfg2.W) : (dat2 (E2 m) c).arrAt w cfg2.N = X2 m c (Pipeline.arrRef spec2 w) :=
  (W8_arr m c w).symm
theorem hrest2 (c : Dev nD) : ∀ b, b ∉ Finset.univ.image (Pipeline.arrRef spec2) → X2 m c b = E2 m c b :=
  fun b hb => W8_of_ne m c b fun w e => hb (Finset.mem_image.mpr ⟨w, Finset.mem_univ _, e⟩)

abbrev W9 : Dev nD → Valuation τ sig (Elt F) := fun c => StableHlo.after hostOps3 (W8 m c)
abbrev E3 : (c : Dev nD) → (b : Ref sig .tc) → Buf (Elt F) ((c : Thread nD τ).loc b) := fun c b => W9 m c b

/-- At region 3's exit: its arrays at what the pipeline leaves (the inputs as entered, each output's write-backs folded),
    every other buffer as entered. -/
def W10 (c : Dev nD) : Valuation τ sig (Elt F) :=
  Pipeline.withArrays spec3 c (W9 m c) fun w => (dat3 (E3 m) c).arrAt w cfg3.N
theorem W10_arr (c : Dev nD) (w : Fin cfg3.W) :
    W10 m c (Proc.devRef .tc (Pipeline.arrRef spec3 w)) = (dat3 (E3 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same read at the TensorCore's references. -/
abbrev X3 : (c : Dev nD) → (b : Ref sig .tc) → Buf (Elt F) ((c : Thread nD τ).loc b) := fun c b => W10 m c b
theorem hF3 (c : Dev nD) (w : Fin cfg3.W) : (dat3 (E3 m) c).arrAt w cfg3.N = X3 m c (Pipeline.arrRef spec3 w) :=
  (W10_arr m c w).symm
theorem hrest3 (c : Dev nD) : ∀ b, b ∉ Finset.univ.image (Pipeline.arrRef spec3) → X3 m c b = E3 m c b :=
  fun b hb => W10_of_ne m c b fun w e => hb (Finset.mem_image.mpr ⟨w, Finset.mem_univ _, e⟩)

abbrev W11 : Dev nD → Valuation τ sig (Elt F) := fun c => StableHlo.after hostOps4 (W10 m c)
abbrev E4 : (c : Dev nD) → (b : Ref sig .tc) → Buf (Elt F) ((c : Thread nD τ).loc b) := fun c b => W11 m c b

/-- At region 4's exit: its arrays at what the pipeline leaves (the inputs as entered, each output's write-backs folded),
    every other buffer as entered. -/
def W12 (c : Dev nD) : Valuation τ sig (Elt F) :=
  Pipeline.withArrays spec4 c (W11 m c) fun w => (dat4 (E4 m) c).arrAt w cfg4.N
theorem W12_arr (c : Dev nD) (w : Fin cfg4.W) :
    W12 m c (Proc.devRef .tc (Pipeline.arrRef spec4 w)) = (dat4 (E4 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- The same read at the TensorCore's references. -/
abbrev X4 : (c : Dev nD) → (b : Ref sig .tc) → Buf (Elt F) ((c : Thread nD τ).loc b) := fun c b => W12 m c b
theorem hF4 (c : Dev nD) (w : Fin cfg4.W) : (dat4 (E4 m) c).arrAt w cfg4.N = X4 m c (Pipeline.arrRef spec4 w) :=
  (W12_arr m c w).symm
theorem hrest4 (c : Dev nD) : ∀ b, b ∉ Finset.univ.image (Pipeline.arrRef spec4) → X4 m c b = E4 m c b :=
  fun b hb => W12_of_ne m c b fun w e => hb (Finset.mem_image.mpr ⟨w, Finset.mem_univ _, e⟩)

/-! ### What a stretch of host operations leaves alone -/

theorem W1_of (c : Dev nD) (r : Ref sig .tc) (h : r ∉ hostOps0_W) : W1 m c r = W0 m c r := StableHlo.after_of_writes_sub hostOps0 _ hostOps0_writes h
theorem W2_of (c : Dev nD) (r : Ref sig .tc) (h : r ∉ hostOps0_1_W) : W2 m c r = W1 m c r := StableHlo.after_of_writes_sub hostOps0_1 _ hostOps0_1_writes h
theorem W3_of (c : Dev nD) (r : Ref sig .tc) (h : r ∉ hostOps0_2_W) : W3 m c r = W2 m c r := StableHlo.after_of_writes_sub hostOps0_2 _ hostOps0_2_writes h
theorem W5_of (c : Dev nD) (r : Ref sig .tc) (h : r ∉ hostOps1_W) : W5 m c r = W4 m c r := StableHlo.after_of_writes_sub hostOps1 _ hostOps1_writes h
theorem W7_of (c : Dev nD) (r : Ref sig .tc) (h : r ∉ hostOps2_W) : W7 m c r = W6 m c r := StableHlo.after_of_writes_sub hostOps2 _ hostOps2_writes h
theorem W9_of (c : Dev nD) (r : Ref sig .tc) (h : r ∉ hostOps3_W) : W9 m c r = W8 m c r := StableHlo.after_of_writes_sub hostOps3 _ hostOps3_writes h
theorem W11_of (c : Dev nD) (r : Ref sig .tc) (h : r ∉ hostOps4_W) : W11 m c r = W10 m c r := StableHlo.after_of_writes_sub hostOps4 _ hostOps4_writes h

/-! ### The arguments end as launched: no host operation writes one and no region has one among its output arrays -/

theorem W12_main_arg0 (c : Dev nD) : W12 m c main_arg0 = m ((c : Thread nD τ).loc main_arg0) :=
  (W12_of_ne m c main_arg0 (by decide)).trans <| (W11_of m c main_arg0 (by decide)).trans <| (W10_of_ne m c main_arg0 (by decide)).trans <|
  (W9_of m c main_arg0 (by decide)).trans <| (W8_of_ne m c main_arg0 (by decide)).trans <| (W7_of m c main_arg0 (by decide)).trans <|
  (W6_of_ne m c main_arg0 (by decide)).trans <| (W5_of m c main_arg0 (by decide)).trans <| (W4_of m c main_arg0 (by decide)).trans <|
  (W3_of m c main_arg0 (by decide)).trans <| (W2_of m c main_arg0 (by decide)).trans <| (W1_of m c main_arg0 (by decide)).trans rfl
theorem W12_main_arg1 (c : Dev nD) : W12 m c main_arg1 = m ((c : Thread nD τ).loc main_arg1) :=
  (W12_of_ne m c main_arg1 (by decide)).trans <| (W11_of m c main_arg1 (by decide)).trans <| (W10_of_ne m c main_arg1 (by decide)).trans <|
  (W9_of m c main_arg1 (by decide)).trans <| (W8_of_ne m c main_arg1 (by decide)).trans <| (W7_of m c main_arg1 (by decide)).trans <|
  (W6_of_ne m c main_arg1 (by decide)).trans <| (W5_of m c main_arg1 (by decide)).trans <| (W4_of m c main_arg1 (by decide)).trans <|
  (W3_of m c main_arg1 (by decide)).trans <| (W2_of m c main_arg1 (by decide)).trans <| (W1_of m c main_arg1 (by decide)).trans rfl
theorem W12_main_arg2 (c : Dev nD) : W12 m c main_arg2 = m ((c : Thread nD τ).loc main_arg2) :=
  (W12_of_ne m c main_arg2 (by decide)).trans <| (W11_of m c main_arg2 (by decide)).trans <| (W10_of_ne m c main_arg2 (by decide)).trans <|
  (W9_of m c main_arg2 (by decide)).trans <| (W8_of_ne m c main_arg2 (by decide)).trans <| (W7_of m c main_arg2 (by decide)).trans <|
  (W6_of_ne m c main_arg2 (by decide)).trans <| (W5_of m c main_arg2 (by decide)).trans <| (W4_of m c main_arg2 (by decide)).trans <|
  (W3_of m c main_arg2 (by decide)).trans <| (W2_of m c main_arg2 (by decide)).trans <| (W1_of m c main_arg2 (by decide)).trans rfl
theorem W12_main_arg3 (c : Dev nD) : W12 m c main_arg3 = m ((c : Thread nD τ).loc main_arg3) :=
  (W12_of_ne m c main_arg3 (by decide)).trans <| (W11_of m c main_arg3 (by decide)).trans <| (W10_of_ne m c main_arg3 (by decide)).trans <|
  (W9_of m c main_arg3 (by decide)).trans <| (W8_of_ne m c main_arg3 (by decide)).trans <| (W7_of m c main_arg3 (by decide)).trans <|
  (W6_of_ne m c main_arg3 (by decide)).trans <| (W5_of m c main_arg3 (by decide)).trans <| (W4_of m c main_arg3 (by decide)).trans <|
  (W3_of m c main_arg3 (by decide)).trans <| (W2_of m c main_arg3 (by decide)).trans <| (W1_of m c main_arg3 (by decide)).trans rfl
theorem W12_main_arg4 (c : Dev nD) : W12 m c main_arg4 = m ((c : Thread nD τ).loc main_arg4) :=
  (W12_of_ne m c main_arg4 (by decide)).trans <| (W11_of m c main_arg4 (by decide)).trans <| (W10_of_ne m c main_arg4 (by decide)).trans <|
  (W9_of m c main_arg4 (by decide)).trans <| (W8_of_ne m c main_arg4 (by decide)).trans <| (W7_of m c main_arg4 (by decide)).trans <|
  (W6_of_ne m c main_arg4 (by decide)).trans <| (W5_of m c main_arg4 (by decide)).trans <| (W4_of m c main_arg4 (by decide)).trans <|
  (W3_of m c main_arg4 (by decide)).trans <| (W2_of m c main_arg4 (by decide)).trans <| (W1_of m c main_arg4 (by decide)).trans rfl
theorem W12_main_arg5 (c : Dev nD) : W12 m c main_arg5 = m ((c : Thread nD τ).loc main_arg5) :=
  (W12_of_ne m c main_arg5 (by decide)).trans <| (W11_of m c main_arg5 (by decide)).trans <| (W10_of_ne m c main_arg5 (by decide)).trans <|
  (W9_of m c main_arg5 (by decide)).trans <| (W8_of_ne m c main_arg5 (by decide)).trans <| (W7_of m c main_arg5 (by decide)).trans <|
  (W6_of_ne m c main_arg5 (by decide)).trans <| (W5_of m c main_arg5 (by decide)).trans <| (W4_of m c main_arg5 (by decide)).trans <|
  (W3_of m c main_arg5 (by decide)).trans <| (W2_of m c main_arg5 (by decide)).trans <| (W1_of m c main_arg5 (by decide)).trans rfl

/-! ## The proof data family and the thread state -/

/-- No pipeline has a prefetched table. -/
abbrev admT : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) admT p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: entered from every unscoped buffer at `W3`, left at `W4`. The buffers behind its windows
    are taken out of the unscoped buffers, the features' split between the two windows that read it, and put back at the exit
    contents; the generator register goes into the pipeline's invariant and comes back; nothing is owed. -/
def reg0 : Pipeline.RegionSeg (pcfgs (F := F)) admT (pdats m) () defs₀ 𝒱₀ L lv 0 where
  win := winFacts₀0
  block_pos := block_pos0
  stage_whole := stage_whole0
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit : (unscopedBufs (Ix := Unit) (Name := ℕ) (U := UR sig nD τ) (Lvl := ℕ) c (E0 m c) : sProp 𝕄)
        ⊢ iprop((dat0 (E0 m) c).arrays ((dat0 (E0 m) c).arrAt · 0) ∗ Pipeline.unscopedRest spec0 c (E0 m c)) := by
      rw [Pipeline.unscopedBufs_split₀ cfgs 0 winFacts₀0.arr_unscoped c (E0 m c)]
      exact sep_mono (arrays0_iff (E0 m) c (E0 m c) _ fun w => A_eq0 (E0 m) c w).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (E0 m) c).arrays ((dat0 (E0 m) c).arrAt · cfg0.N) ∗ Pipeline.unscopedRest spec0 c (E0 m c))
        ⊢ (unscopedBufs (Ix := Unit) (Name := ℕ) (U := UR sig nD τ) (Lvl := ℕ) c (X0 m c) : sProp 𝕄) := by
      rw [Pipeline.unscopedBufs_split₀ cfgs 0 winFacts₀0.arr_unscoped c (X0 m c)]
      refine sep_mono (arrays0_iff (E0 m) c (X0 m c) _ (hF0 m c)).2 (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the pipeline's invariant and
    comes back; nothing is owed; the kernel has no semaphore of its own. -/
def reg1 : Pipeline.RegionSeg (pcfgs (F := F)) admT (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split out
    of the unscoped buffers and put back at the exit contents; the generator register goes into the pipeline's invariant and
    comes back; nothing is owed; the kernel has no semaphore of its own. -/
def reg2 : Pipeline.RegionSeg (pcfgs (F := F)) admT (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) admT (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m) ((pdats m 2 c).share_full fun _ => rfl)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its arrays are split out
    of the unscoped buffers and put back at the exit contents; the generator register goes into the pipeline's invariant and
    comes back; nothing is owed; the kernel has no semaphore of its own. -/
def reg3 : Pipeline.RegionSeg (pcfgs (F := F)) admT (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) admT (pdats m) launch3.win launch3.arr_whole c
      ((pdats m 3 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admT (Ix := Unit) (Name := ℕ) (U := UR sig nD τ) (Lvl := ℕ)
      launch3.win launch3.arr_whole c (pdats m) ((pdats m 3 c).share_full fun _ => rfl)
      (E3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`. Its arrays are split out
    of the unscoped buffers and put back at the exit contents; the generator register goes into the pipeline's invariant and
    comes back; nothing is owed; the kernel has no semaphore of its own. -/
def reg4 : Pipeline.RegionSeg (pcfgs (F := F)) admT (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) admT (pdats m) launch4.win launch4.arr_whole c
      ((pdats m 4 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admT (Ix := Unit) (Name := ℕ) (U := UR sig nD τ) (Lvl := ℕ)
      launch4.win launch4.arr_whole c (pdats m) ((pdats m 4 c).share_full fun _ => rfl)
      (E4 m c) (X4 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's twelve segments in order. -/
abbrev segsT : List (Pipeline.Seg (pcfgs (F := F)) admT (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]
/-- @main is the run of the segments. -/
theorem main_run (c : Dev nD) : main (F := F) c = Pipeline.Seg.run (segsT m) := (main_chain c).trans (by chain_rfl)

set_option backward.isDefEq.respectTransparency.types false in
/-- THE RUN. From any memory with zero counters, every weakly fair execution of @main on the TensorCores terminates, nothing
    faulting, and the final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) admT (pdats m) () cellOf_inj emb₁ defs₀ 𝒱₀ L lv m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W12_main_arg0 m c), (h c _ (mem_uc main_arg1 (by decide))).trans (W12_main_arg1 m c),
     (h c _ (mem_uc main_arg2 (by decide))).trans (W12_main_arg2 m c), (h c _ (mem_uc main_arg3 (by decide))).trans (W12_main_arg3 m c),
     (h c _ (mem_uc main_arg4 (by decide))).trans (W12_main_arg4 m c), (h c _ (mem_uc main_arg5 (by decide))).trans (W12_main_arg5 m c)⟩)
    (run_all m ρ)

/-- THE RUN WITH ITS RESULT: the result array ends at what region 4's pipeline leaves in its second output array, the
    arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v97_1) = (dat4 (E4 m) c).arrAt 6 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v97_1 (by decide))).trans (W12_arr m c 6),
     (h c _ (mem_uc main_arg0 (by decide))).trans (W12_main_arg0 m c), (h c _ (mem_uc main_arg1 (by decide))).trans (W12_main_arg1 m c),
     (h c _ (mem_uc main_arg2 (by decide))).trans (W12_main_arg2 m c), (h c _ (mem_uc main_arg3 (by decide))).trans (W12_main_arg3 m c),
     (h c _ (mem_uc main_arg4 (by decide))).trans (W12_main_arg4 m c), (h c _ (mem_uc main_arg5 (by decide))).trans (W12_main_arg5 m c)⟩)
    (run_all m ρ)

end Cert.KernelIdeal.Hand

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.RefStages.lean ====
/-
  The reference program's value, in stages.

  The reference computes, from features h₀ : [N, D], an edge list (rows, cols, values) of E edges, an index vector and
  three raw weights:
    * the softmax a = exp(x - max x) / Σ exp(x - max x) of the three raw weights;
    * the degree vector deg = Σ_{e : row e = r} val e, its power dinv = deg^(-1/2) where deg > 0 and 0 elsewhere, and
      the normalized edge values vals e = dinv (row e) · val e · dinv (col e);
    * the mask of the rows the index vector names;
    * twice, one layer h ↦ keep (scatter by index (segment-sum by row (vals e · h (col e)))) h: the masked rows take
      the scattered message sums, the others keep h;
    * the weighted sum a₀ · h₀ + a₁ · h₁ + a₂ · h₂.
  Each of these is a definition below, a small term in the operations the program itself uses.
-/
import proofs.«119003_j2834678415702_1_alg».proof.Proof.RefRun
import proofs.«119003_j2834678415702_1_alg».proof.Proof.LibFoldStretch

noncomputable section

namespace Cert.ReferenceIdeal.Staged

open Cert.ReferenceIdeal Cert.ReferenceIdeal.Gen Cert.ReferenceIdeal.ValueP Cert.LibFoldStretch Idealize.ShloMosaic Idealize.ShloMosaic.TcCoe Idealize.SL.Sem Idealize.ShloMosaic.StableHlo

variable {F : FTy → Type} [FloatOps F]

/-- The contents of a buffer of shape S and element type e. -/
abbrev Arr (F : FTy → Type) (S : Shape) (e : EltTy) : Type := (⟨S, e⟩ : BufTy).Contents (Elt F)

/-! ## The stages -/

/-- exp (x - max x): the softmax's numerators (the maximum taken against -∞ once more, as the program does). -/
def aExp (a_in : Arr F S3 .f32) : Arr F S3 .f32 :=
  Host.exp (subf a_in (broadcastInDim S3 ![0] bcast_S1_S3_0 (broadcastInDim S1 ![] bcast_S_S1
    (maximumf (constant S_ .f32 0xFF800000#32)
      (Host.reduce FloatOps.maximumf a_in (constant S_ .f32 0xFF800000#32) reducesTo_S3_S_d0 h_S_)))))

/-- The softmax weights: the numerators over their sum. -/
def aW (a_in : Arr F S3 .f32) : Arr F S3 .f32 :=
  Host.divf (aExp a_in) (broadcastInDim S3 ![0] bcast_S1_S3_0 (broadcastInDim S1 ![] bcast_S_S1
    (Host.reduceAdd (aExp a_in) (constant S_ .f32 0x00000000#32) reducesTo_S3_S_d0 h_S_)))

/-- An edge-length index vector with negative entries wrapped around (i < 0 ↦ i + N). -/
def wrapE (ix : Arr F S1600000 .i32) : Arr F S1600000 .i32 :=
  select (cmpi .slt ix (broadcastInDim S1600000 ![] bcast_S_S1600000 (constantI S_ 32 0#32)))
    (addi ix (broadcastInDim S1600000 ![] bcast_S_S1600000 (constantI S_ 32 100000#32))) ix

/-- A node-length index vector with negative entries wrapped around (i < 0 ↦ i + N). -/
def wrapN (ix : Arr F S100000 .i32) : Arr F S100000 .i32 :=
  select (cmpi .slt ix (broadcastInDim S100000 ![] bcast_S_S100000 (constantI S_ 32 0#32)))
    (addi ix (broadcastInDim S100000 ![] bcast_S_S100000 (constantI S_ 32 100000#32))) ix

/-- The degree vector: the edge values summed by row. -/
def degree (er : Arr F S1600000 .i32) (ev : Arr F S1600000 .f32) : Arr F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 er) ev

/-- degree^(-1/2) where the degree is positive, 0 elsewhere. -/
def dinv (er : Arr F S1600000 .i32) (ev : Arr F S1600000 .f32) : Arr F S100000 .f32 :=
  select (cmpf .ogt (degree er ev) (broadcastInDim S100000 ![] bcast_S_S100000 (constant S_ .f32 0x00000000#32)))
    (Host.powf (degree er ev) (broadcastInDim S100000 ![] bcast_S_S100000 (constant S_ .f32 0xBF000000#32)))
    (broadcastInDim S100000 ![] bcast_S_S100000 (constant S_ .f32 0x00000000#32))

/-- A node vector read at each edge's (wrapped) index. -/
def gatherVec (d : Arr F S100000 .f32) (ix : Arr F S1600000 .i32) : Arr F S1600000 .f32 :=
  Host.gather gather_S100000_S1600000x1_S1600000_n_0_n_n_0_1_1 d
    (broadcastInDim S1600000x1 ![0] bcast_S1600000_S1600000x1_0 (wrapE ix))

/-- The normalized edge values from a given dinv vector: (d (row e) · val e) · d (col e). -/
def valsOf (d : Arr F S100000 .f32) (er ec : Arr F S1600000 .i32) (ev : Arr F S1600000 .f32) : Arr F S1600000 .f32 :=
  mulf (mulf (gatherVec d er) ev) (gatherVec d ec)

/-- The normalized edge values. -/
def vals (er ec : Arr F S1600000 .i32) (ev : Arr F S1600000 .f32) : Arr F S1600000 .f32 :=
  valsOf (dinv er ev) er ec ev

/-- The mask of the rows the index vector names. -/
def covered (ix : Arr F S100000 .i32) : Arr F S100000 .i1 :=
  Host.scatter scatter_S100000_S100000x1_S100000_n_0_0_1 (fun _ b => b)
    (broadcastInDim S100000 ![] bcast_S_S100000 (constantI S_ 1 0#1))
    (broadcastInDim S100000x1 ![0] bcast_S100000_S100000x1_0 (wrapN ix))
    (broadcastInDim S100000 ![] bcast_S_S100000 (constantI S_ 1 1#1))

/-- The feature rows read at each edge's (wrapped) column. -/
def gatherRows (ec : Arr F S1600000 .i32) (h : Arr F S100000x128 .f32) : Arr F S1600000x128 .f32 :=
  Host.gather gather_S100000x128_S1600000x1_S1600000x128_1_0_n_n_0_1_1128 h
    (broadcastInDim S1600000x1 ![0] bcast_S1600000_S1600000x1_0 (wrapE ec))

/-- Each edge's message: its value times the gathered row. -/
def edgeMsg (v : Arr F S1600000 .f32) (hg : Arr F S1600000x128 .f32) : Arr F S1600000x128 .f32 :=
  mulf (broadcastInDim S1600000x128 ![0, 1] bcast_S1600000x1_S1600000x128_0_1
    (broadcastInDim S1600000x1 ![0] bcast_S1600000_S1600000x1_0 v)) hg

/-- The messages summed by row. -/
def segSum (er : Arr F S1600000 .i32) (msg : Arr F S1600000x128 .f32) : Arr F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 er) msg

/-- Row i of out written to row (index i) of a zero array. -/
def scatRows (ix : Arr F S100000 .i32) (out : Arr F S100000x128 .f32) : Arr F S100000x128 .f32 :=
  Host.scatter scatter_S100000x128_S100000x1_S100000x128_1_0_0_1 (fun _ b => b)
    (broadcastInDim S100000x128 ![] bcast_S_S100000x128 (constant S_ .f32 0x00000000#32))
    (broadcastInDim S100000x1 ![0] bcast_S100000_S100000x1_0 (wrapN ix)) out

/-- Under a given row mask: the masked rows from sc, the others from h. -/
def keepOf (cov : Arr F S100000 .i1) (sc h : Arr F S100000x128 .f32) : Arr F S100000x128 .f32 :=
  select (broadcastInDim S100000x128 ![0, 1] bcast_S100000x1_S100000x128_0_1
    (broadcastInDim S100000x1 ![0] bcast_S100000_S100000x1_0 cov)) sc h

/-- The rows the index vector names from sc, the others from h. -/
def keep (ix : Arr F S100000 .i32) (sc h : Arr F S100000x128 .f32) : Arr F S100000x128 .f32 :=
  keepOf (covered ix) sc h

/-- The first weight spread over the array. -/
def wgt0 (a : Arr F S3 .f32) : Arr F S100000x128 .f32 :=
  broadcastInDim S100000x128 ![] bcast_S_S100000x128
    (shapeCast S_ (extractStridedSlice S1 ![0] a slices_S3_S1_0) shapeCasts_S1_S_)

/-- The second weight spread over the array. -/
def wgt1 (a : Arr F S3 .f32) : Arr F S100000x128 .f32 :=
  broadcastInDim S100000x128 ![] bcast_S_S100000x128
    (shapeCast S_ (extractStridedSlice S1 ![1] a slices_S3_S1_1) shapeCasts_S1_S_)

/-- The third weight spread over the array. -/
def wgt2 (a : Arr F S3 .f32) : Arr F S100000x128 .f32 :=
  broadcastInDim S100000x128 ![] bcast_S_S100000x128
    (shapeCast S_ (extractStridedSlice S1 ![2] a slices_S3_S1_2) shapeCasts_S1_S_)

/-- One layer under a given row mask. -/
def layerOf (cov : Arr F S100000 .i1) (er ec : Arr F S1600000 .i32) (ix : Arr F S100000 .i32) (v : Arr F S1600000 .f32)
    (h : Arr F S100000x128 .f32) : Arr F S100000x128 .f32 :=
  keepOf cov (scatRows ix (segSum er (edgeMsg v (gatherRows ec h)))) h

/-- One layer: message passing along the edges, scattered by the index vector, kept on the rows it names. -/
def layer (er ec : Arr F S1600000 .i32) (ix : Arr F S100000 .i32) (v : Arr F S1600000 .f32)
    (h : Arr F S100000x128 .f32) : Arr F S100000x128 .f32 :=
  keep ix (scatRows ix (segSum er (edgeMsg v (gatherRows ec h)))) h

theorem layer_eq (er ec : Arr F S1600000 .i32) (ix : Arr F S100000 .i32) (v : Arr F S1600000 .f32)
    (h : Arr F S100000x128 .f32) : layer er ec ix v h = layerOf (covered ix) er ec ix v h := rfl

/-- The reference's value: the weighted sum of the features and the two layers' outputs. -/
def result (feat : Arr F S100000x128 .f32) (er ec : Arr F S1600000 .i32) (ev : Arr F S1600000 .f32)
    (ix : Arr F S100000 .i32) (a_in : Arr F S3 .f32) : Arr F S100000x128 .f32 :=
  addf (addf (mulf (wgt0 (aW a_in)) feat)
      (mulf (wgt1 (aW a_in)) (layer er ec ix (vals er ec ev) feat)))
    (mulf (wgt2 (aW a_in)) (layer er ec ix (vals er ec ev) (layer er ec ix (vals er ec ev) feat)))

end Cert.ReferenceIdeal.Staged

end
-- ==== Proof.RefStaged.lean ====
/-
  The reference program's run, read in stages.

  The stage functions (the softmax weights, the normalized edge values, the row mask, one message-passing layer, the
  weighted sum result) are the definitions of the module imported first below, each a small term in the operations the
  program itself uses. Here the program's run (a straight line of 134 host operations) is shown to leave exactly
  result in its output buffer, and its arguments unchanged. The line is read stretch by stretch: each stretch for
  arbitrary earlier buffer contents, as one stage function of the few buffers it reads; buffers a stretch does not
  write keep their contents; the stretches are chained along the concatenation.
-/
import proofs.«119003_j2834678415702_1_alg».proof.Proof.RefStages
import proofs.«119003_j2834678415702_1_alg».proof.Proof.RefRun
import proofs.«119003_j2834678415702_1_alg».proof.Proof.LibFoldStretch

noncomputable section

namespace Cert.ReferenceIdeal.Staged

open Cert.ReferenceIdeal Cert.ReferenceIdeal.Gen Cert.ReferenceIdeal.ValueP Cert.LibFoldStretch Idealize.ShloMosaic Idealize.ShloMosaic.TcCoe Idealize.SL.Sem Idealize.ShloMosaic.StableHlo

variable {F : FTy → Type} [FloatOps F]

/-! ## The stretches

The program's line of operations, cut into eleven consecutive stretches. -/

/-- The edge values summed by row, and that degree vector's power -1/2 (0 where the degree is not positive). -/
def sA : List (HloOp τ sig (Elt F)) :=
  [ nullary main_cst (constant S_ .f32 0x00000000#32),
    unary main_cst main_v0 (broadcastInDim S100000 ![] bcast_S_S100000 : (⟨S_, .f32⟩ : BufTy).Contents (Elt F) → (⟨S100000, .f32⟩ : BufTy).Contents (Elt F)),
    unary main_arg1 main_v1 (broadcastInDim S1600000x1 ![0] bcast_S1600000_S1600000x1_0 : (⟨S1600000, .i32⟩ : BufTy).Contents (Elt F) → (⟨S1600000x1, .i32⟩ : BufTy).Contents (Elt F)),
    ternary main_v0 main_v1 main_arg3 main_v2 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v3 (broadcastInDim S100000 ![] bcast_S_S100000 : (⟨S_, .f32⟩ : BufTy).Contents (Elt F) → (⟨S100000, .f32⟩ : BufTy).Contents (Elt F)),
    binary main_v2 main_v3 main_v4 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0xBF000000#32),
    unary main_cst_1 main_v5 (broadcastInDim S100000 ![] bcast_S_S100000 : (⟨S_, .f32⟩ : BufTy).Contents (Elt F) → (⟨S100000, .f32⟩ : BufTy).Contents (Elt F)),
    binary main_v2 main_v5 main_v6 (Host.powf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v4) (TRef.of (T := ⟨S100000, .f32⟩) main_v6) (TRef.of (T := ⟨S100000, .f32⟩) main_call0_v1) (TRef.of (T := ⟨S100000, .f32⟩) main_v7) select ]

/-- The normalized edge values: both index vectors wrapped, the inverse square roots read at rows and columns, the two products. -/
def sB : List (HloOp τ sig (Elt F)) :=
  [ nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_arg1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v10 (broadcastInDim S1600000 ![] bcast_S_S1600000 : (⟨S_, .i32⟩ : BufTy).Contents (Elt F) → (⟨S1600000, .i32⟩ : BufTy).Contents (Elt F)),
    binary main_arg1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_arg1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_v7 main_v13 main_v14 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v14 main_arg3 main_v15 (mulf : (⟨S1600000, .f32⟩ : BufTy).Contents (Elt F) → (⟨S1600000, .f32⟩ : BufTy).Contents (Elt F) → (⟨S1600000, .f32⟩ : BufTy).Contents (Elt F)),
    nullary main_c_4 (constantI S_ 32 0#32),
    unary main_c_4 main_v16 (broadcastInDim S1600000 ![] bcast_S_S1600000 : (⟨S_, .i32⟩ : BufTy).Contents (Elt F) → (⟨S1600000, .i32⟩ : BufTy).Contents (Elt F)),
    binary main_arg2 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v18 (broadcastInDim S1600000 ![] bcast_S_S1600000 : (⟨S_, .i32⟩ : BufTy).Contents (Elt F) → (⟨S1600000, .i32⟩ : BufTy).Contents (Elt F)),
    binary main_arg2 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_arg2 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_v7 main_v21 main_v22 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v15 main_v22 main_v23 (mulf : (⟨S1600000, .f32⟩ : BufTy).Contents (Elt F) → (⟨S1600000, .f32⟩ : BufTy).Contents (Elt F) → (⟨S1600000, .f32⟩ : BufTy).Contents (Elt F)) ]

/-- The softmax of the three raw weights. -/
def sC : List (HloOp τ sig (Elt F)) :=
  [ nullary main_cst_6 (constant S_ .f32 0xFF800000#32),
    binary main_arg5 main_cst_6 main_v24 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_7 (constant S_ .f32 0xFF800000#32),
    binary main_cst_7 main_v24 main_v25 (maximumf : (⟨S_, .f32⟩ : BufTy).Contents (Elt F) → (⟨S_, .f32⟩ : BufTy).Contents (Elt F) → (⟨S_, .f32⟩ : BufTy).Contents (Elt F)),
    unary main_v25 main_v26 (broadcastInDim S1 ![] bcast_S_S1 : (⟨S_, .f32⟩ : BufTy).Contents (Elt F) → (⟨S1, .f32⟩ : BufTy).Contents (Elt F)),
    unary main_v26 main_v27 (broadcastInDim S3 ![0] bcast_S1_S3_0 : (⟨S1, .f32⟩ : BufTy).Contents (Elt F) → (⟨S3, .f32⟩ : BufTy).Contents (Elt F)),
    binary main_arg5 main_v27 main_v28 (subf : (⟨S3, .f32⟩ : BufTy).Contents (Elt F) → (⟨S3, .f32⟩ : BufTy).Contents (Elt F) → (⟨S3, .f32⟩ : BufTy).Contents (Elt F)),
    unary main_v28 main_v29 (Host.exp : (⟨S3, .f32⟩ : BufTy).Contents (Elt F) → (⟨S3, .f32⟩ : BufTy).Contents (Elt F)),
    nullary main_cst_8 (constant S_ .f32 0x00000000#32),
    binary main_v29 main_cst_8 main_v30 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v30 main_v31 (broadcastInDim S1 ![] bcast_S_S1 : (⟨S_, .f32⟩ : BufTy).Contents (Elt F) → (⟨S1, .f32⟩ : BufTy).Contents (Elt F)),
    unary main_v31 main_v32 (broadcastInDim S3 ![0] bcast_S1_S3_0 : (⟨S1, .f32⟩ : BufTy).Contents (Elt F) → (⟨S3, .f32⟩ : BufTy).Contents (Elt F)),
    binary main_v29 main_v32 main_v33 (Host.divf : (⟨S3, .f32⟩ : BufTy).Contents (Elt F) → (⟨S3, .f32⟩ : BufTy).Contents (Elt F) → (⟨S3, .f32⟩ : BufTy).Contents (Elt F)) ]

/-- The mask of the rows the index vector names. -/
def sD : List (HloOp τ sig (Elt F)) :=
  [ nullary main_c_9 (constantI S_ 1 0#1),
    unary main_c_9 main_v34 (broadcastInDim S100000 ![] bcast_S_S100000 : (⟨S_, .i1⟩ : BufTy).Contents (Elt F) → (⟨S100000, .i1⟩ : BufTy).Contents (Elt F)),
    nullary main_c_10 (constantI S_ 32 0#32),
    unary main_c_10 main_v35 (broadcastInDim S100000 ![] bcast_S_S100000 : (⟨S_, .i32⟩ : BufTy).Contents (Elt F) → (⟨S100000, .i32⟩ : BufTy).Contents (Elt F)),
    binary main_arg4 main_v35 main_v36 (cmpi .slt : (⟨S100000, .i32⟩ : BufTy).Contents (Elt F) → (⟨S100000, .i32⟩ : BufTy).Contents (Elt F) → (⟨S100000, .i1⟩ : BufTy).Contents (Elt F)),
    nullary main_c_11 (constantI S_ 32 100000#32),
    unary main_c_11 main_v37 (broadcastInDim S100000 ![] bcast_S_S100000 : (⟨S_, .i32⟩ : BufTy).Contents (Elt F) → (⟨S100000, .i32⟩ : BufTy).Contents (Elt F)),
    binary main_arg4 main_v37 main_v38 (addi : (⟨S100000, .i32⟩ : BufTy).Contents (Elt F) → (⟨S100000, .i32⟩ : BufTy).Contents (Elt F) → (⟨S100000, .i32⟩ : BufTy).Contents (Elt F)),
    ternary main_v36 main_v38 main_arg4 main_v39 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v39 main_v40 (broadcastInDim S100000x1 ![0] bcast_S100000_S100000x1_0 : (⟨S100000, .i32⟩ : BufTy).Contents (Elt F) → (⟨S100000x1, .i32⟩ : BufTy).Contents (Elt F)),
    nullary main_c_12 (constantI S_ 1 1#1),
    unary main_c_12 main_v41 (broadcastInDim S100000 ![] bcast_S_S100000 : (⟨S_, .i1⟩ : BufTy).Contents (Elt F) → (⟨S100000, .i1⟩ : BufTy).Contents (Elt F)),
    ternary main_v34 main_v40 main_v41 main_v42 ((fun x i u => Host.scatter scatter_S100000_S100000x1_S100000_n_0_0_1 (fun _ b => b) x i u) : (⟨S100000, .i1⟩ : BufTy).Contents (Elt F) → (⟨S100000x1, .i32⟩ : BufTy).Contents (Elt F) → (⟨S100000, .i1⟩ : BufTy).Contents (Elt F) → (⟨S100000, .i1⟩ : BufTy).Contents (Elt F)) ]

/-- The first weight times the features. -/
def sE : List (HloOp τ sig (Elt F)) :=
  [ unary main_v33 main_v43 ((extractStridedSlice S1 ![0] · slices_S3_S1_0) : (⟨S3, .f32⟩ : BufTy).Contents (Elt F) → (⟨S1, .f32⟩ : BufTy).Contents (Elt F)),
    reshape main_v43 main_v44 rfl shapeCasts_S1_S_,
    unary main_v44 main_v45 (broadcastInDim S100000x128 ![] bcast_S_S100000x128 : (⟨S_, .f32⟩ : BufTy).Contents (Elt F) → (⟨S100000x128, .f32⟩ : BufTy).Contents (Elt F)),
    binary main_v45 main_arg0 main_v46 (mulf : (⟨S100000x128, .f32⟩ : BufTy).Contents (Elt F) → (⟨S100000x128, .f32⟩ : BufTy).Contents (Elt F) → (⟨S100000x128, .f32⟩ : BufTy).Contents (Elt F)) ]

/-- The first layer's scattered message sums, from the features, and the mask as a column. -/
def sF : List (HloOp τ sig (Elt F)) :=
  [ unary main_v23 main_v47 (broadcastInDim S1600000x1 ![0] bcast_S1600000_S1600000x1_0 : (⟨S1600000, .f32⟩ : BufTy).Contents (Elt F) → (⟨S1600000x1, .f32⟩ : BufTy).Contents (Elt F)),
    nullary main_c_13 (constantI S_ 32 0#32),
    unary main_c_13 main_v48 (broadcastInDim S1600000 ![] bcast_S_S1600000 : (⟨S_, .i32⟩ : BufTy).Contents (Elt F) → (⟨S1600000, .i32⟩ : BufTy).Contents (Elt F)),
    binary main_arg2 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v50 (broadcastInDim S1600000 ![] bcast_S_S1600000 : (⟨S_, .i32⟩ : BufTy).Contents (Elt F) → (⟨S1600000, .i32⟩ : BufTy).Contents (Elt F)),
    binary main_arg2 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_arg2 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    binary main_arg0 main_v53 main_v54 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v47 main_v55 (broadcastInDim S1600000x128 ![0, 1] bcast_S1600000x1_S1600000x128_0_1 : (⟨S1600000x1, .f32⟩ : BufTy).Contents (Elt F) → (⟨S1600000x128, .f32⟩ : BufTy).Contents (Elt F)),
    binary main_v55 main_v54 main_v56 (mulf : (⟨S1600000x128, .f32⟩ : BufTy).Contents (Elt F) → (⟨S1600000x128, .f32⟩ : BufTy).Contents (Elt F) → (⟨S1600000x128, .f32⟩ : BufTy).Contents (Elt F)),
    nullary main_cst_15 (constant S_ .f32 0x00000000#32),
    unary main_cst_15 main_v57 (broadcastInDim S100000x128 ![] bcast_S_S100000x128 : (⟨S_, .f32⟩ : BufTy).Contents (Elt F) → (⟨S100000x128, .f32⟩ : BufTy).Contents (Elt F)),
    unary main_arg1 main_v58 (broadcastInDim S1600000x1 ![0] bcast_S1600000_S1600000x1_0 : (⟨S1600000, .i32⟩ : BufTy).Contents (Elt F) → (⟨S1600000x1, .i32⟩ : BufTy).Contents (Elt F)),
    ternary main_v57 main_v58 main_v56 main_v59 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_16 (constant S_ .f32 0x00000000#32),
    unary main_cst_16 main_v60 (broadcastInDim S100000x128 ![] bcast_S_S100000x128 : (⟨S_, .f32⟩ : BufTy).Contents (Elt F) → (⟨S100000x128, .f32⟩ : BufTy).Contents (Elt F)),
    nullary main_c_17 (constantI S_ 32 0#32),
    unary main_c_17 main_v61 (broadcastInDim S100000 ![] bcast_S_S100000 : (⟨S_, .i32⟩ : BufTy).Contents (Elt F) → (⟨S100000, .i32⟩ : BufTy).Contents (Elt F)),
    binary main_arg4 main_v61 main_v62 (cmpi .slt : (⟨S100000, .i32⟩ : BufTy).Contents (Elt F) → (⟨S100000, .i32⟩ : BufTy).Contents (Elt F) → (⟨S100000, .i1⟩ : BufTy).Contents (Elt F)),
    nullary main_c_18 (constantI S_ 32 100000#32),
    unary main_c_18 main_v63 (broadcastInDim S100000 ![] bcast_S_S100000 : (⟨S_, .i32⟩ : BufTy).Contents (Elt F) → (⟨S100000, .i32⟩ : BufTy).Contents (Elt F)),
    binary main_arg4 main_v63 main_v64 (addi : (⟨S100000, .i32⟩ : BufTy).Contents (Elt F) → (⟨S100000, .i32⟩ : BufTy).Contents (Elt F) → (⟨S100000, .i32⟩ : BufTy).Contents (Elt F)),
    ternary main_v62 main_v64 main_arg4 main_v65 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v65 main_v66 (broadcastInDim S100000x1 ![0] bcast_S100000_S100000x1_0 : (⟨S100000, .i32⟩ : BufTy).Contents (Elt F) → (⟨S100000x1, .i32⟩ : BufTy).Contents (Elt F)),
    ternary main_v60 main_v66 main_v59 main_v67 ((fun x i u => Host.scatter scatter_S100000x128_S100000x1_S100000x128_1_0_0_1 (fun _ b => b) x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    unary main_v42 main_v68 (broadcastInDim S100000x1 ![0] bcast_S100000_S100000x1_0 : (⟨S100000, .i1⟩ : BufTy).Contents (Elt F) → (⟨S100000x1, .i1⟩ : BufTy).Contents (Elt F)) ]

/-- The first layer's output: the masked rows from the scattered sums, the others from the features. -/
def sF' : List (HloOp τ sig (Elt F)) :=
  [ TRef.unary (TRef.of (T := ⟨S100000x1, .i1⟩) main_v68) (TRef.of (T := ⟨S100000x128, .i1⟩) main_call1_v0) (broadcastInDim S100000x128 ![0, 1] bcast_S100000x1_S100000x128_0_1),
    TRef.ternary (TRef.of (T := ⟨S100000x128, .i1⟩) main_call1_v0) (TRef.of (T := ⟨S100000x128, .f32⟩) main_v67) (TRef.of (T := ⟨S100000x128, .f32⟩) main_arg0) (TRef.of (T := ⟨S100000x128, .f32⟩) main_v69) select ]

/-- The second weight times the first layer's output, added to the sum. -/
def sG : List (HloOp τ sig (Elt F)) :=
  [ unary main_v33 main_v70 ((extractStridedSlice S1 ![1] · slices_S3_S1_1) : (⟨S3, .f32⟩ : BufTy).Contents (Elt F) → (⟨S1, .f32⟩ : BufTy).Contents (Elt F)),
    reshape main_v70 main_v71 rfl shapeCasts_S1_S_,
    unary main_v71 main_v72 (broadcastInDim S100000x128 ![] bcast_S_S100000x128 : (⟨S_, .f32⟩ : BufTy).Contents (Elt F) → (⟨S100000x128, .f32⟩ : BufTy).Contents (Elt F)),
    binary main_v72 main_v69 main_v73 (mulf : (⟨S100000x128, .f32⟩ : BufTy).Contents (Elt F) → (⟨S100000x128, .f32⟩ : BufTy).Contents (Elt F) → (⟨S100000x128, .f32⟩ : BufTy).Contents (Elt F)),
    binary main_v46 main_v73 main_v74 (addf : (⟨S100000x128, .f32⟩ : BufTy).Contents (Elt F) → (⟨S100000x128, .f32⟩ : BufTy).Contents (Elt F) → (⟨S100000x128, .f32⟩ : BufTy).Contents (Elt F)) ]

/-- The second layer's scattered message sums, from the first layer's output, and the mask as a column. -/
def sH : List (HloOp τ sig (Elt F)) :=
  [ unary main_v23 main_v75 (broadcastInDim S1600000x1 ![0] bcast_S1600000_S1600000x1_0 : (⟨S1600000, .f32⟩ : BufTy).Contents (Elt F) → (⟨S1600000x1, .f32⟩ : BufTy).Contents (Elt F)),
    nullary main_c_19 (constantI S_ 32 0#32),
    unary main_c_19 main_v76 (broadcastInDim S1600000 ![] bcast_S_S1600000 : (⟨S_, .i32⟩ : BufTy).Contents (Elt F) → (⟨S1600000, .i32⟩ : BufTy).Contents (Elt F)),
    binary main_arg2 main_v76 main_v77 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v78 (broadcastInDim S1600000 ![] bcast_S_S1600000 : (⟨S_, .i32⟩ : BufTy).Contents (Elt F) → (⟨S1600000, .i32⟩ : BufTy).Contents (Elt F)),
    binary main_arg2 main_v78 main_v79 (addi : (⟨S1600000, .i32⟩ : BufTy).Contents (Elt F) → (⟨S1600000, .i32⟩ : BufTy).Contents (Elt F) → (⟨S1600000, .i32⟩ : BufTy).Contents (Elt F)),
    ternary main_v77 main_v79 main_arg2 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v80 main_v81 (broadcastInDim S1600000x1 ![0] bcast_S1600000_S1600000x1_0 : (⟨S1600000, .i32⟩ : BufTy).Contents (Elt F) → (⟨S1600000x1, .i32⟩ : BufTy).Contents (Elt F)),
    binary main_v69 main_v81 main_v82 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v75 main_v83 (broadcastInDim S1600000x128 ![0, 1] bcast_S1600000x1_S1600000x128_0_1 : (⟨S1600000x1, .f32⟩ : BufTy).Contents (Elt F) → (⟨S1600000x128, .f32⟩ : BufTy).Contents (Elt F)),
    binary main_v83 main_v82 main_v84 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    unary main_cst_21 main_v85 (broadcastInDim S100000x128 ![] bcast_S_S100000x128 : (⟨S_, .f32⟩ : BufTy).Contents (Elt F) → (⟨S100000x128, .f32⟩ : BufTy).Contents (Elt F)),
    unary main_arg1 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_22 (constant S_ .f32 0x00000000#32),
    unary main_cst_22 main_v88 (broadcastInDim S100000x128 ![] bcast_S_S100000x128 : (⟨S_, .f32⟩ : BufTy).Contents (Elt F) → (⟨S100000x128, .f32⟩ : BufTy).Contents (Elt F)),
    nullary main_c_23 (constantI S_ 32 0#32),
    unary main_c_23 main_v89 (broadcastInDim S100000 ![] bcast_S_S100000 : (⟨S_, .i32⟩ : BufTy).Contents (Elt F) → (⟨S100000, .i32⟩ : BufTy).Contents (Elt F)),
    binary main_arg4 main_v89 main_v90 (cmpi .slt : (⟨S100000, .i32⟩ : BufTy).Contents (Elt F) → (⟨S100000, .i32⟩ : BufTy).Contents (Elt F) → (⟨S100000, .i1⟩ : BufTy).Contents (Elt F)),
    nullary main_c_24 (constantI S_ 32 100000#32),
    unary main_c_24 main_v91 (broadcastInDim S100000 ![] bcast_S_S100000 : (⟨S_, .i32⟩ : BufTy).Contents (Elt F) → (⟨S100000, .i32⟩ : BufTy).Contents (Elt F)),
    binary main_arg4 main_v91 main_v92 (addi : (⟨S100000, .i32⟩ : BufTy).Contents (Elt F) → (⟨S100000, .i32⟩ : BufTy).Contents (Elt F) → (⟨S100000, .i32⟩ : BufTy).Contents (Elt F)),
    ternary main_v90 main_v92 main_arg4 main_v93 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v93 main_v94 (broadcastInDim S100000x1 ![0] bcast_S100000_S100000x1_0 : (⟨S100000, .i32⟩ : BufTy).Contents (Elt F) → (⟨S100000x1, .i32⟩ : BufTy).Contents (Elt F)),
    ternary main_v88 main_v94 main_v87 main_v95 ((fun x i u => Host.scatter scatter_S100000x128_S100000x1_S100000x128_1_0_0_1 (fun _ b => b) x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    unary main_v42 main_v96 (broadcastInDim S100000x1 ![0] bcast_S100000_S100000x1_0 : (⟨S100000, .i1⟩ : BufTy).Contents (Elt F) → (⟨S100000x1, .i1⟩ : BufTy).Contents (Elt F)) ]

/-- The second layer's output: the masked rows from the scattered sums, the others from the first layer's output. -/
def sH' : List (HloOp τ sig (Elt F)) :=
  [ TRef.unary (TRef.of (T := ⟨S100000x1, .i1⟩) main_v96) (TRef.of (T := ⟨S100000x128, .i1⟩) main_call2_v0) (broadcastInDim S100000x128 ![0, 1] bcast_S100000x1_S100000x128_0_1),
    TRef.ternary (TRef.of (T := ⟨S100000x128, .i1⟩) main_call2_v0) (TRef.of (T := ⟨S100000x128, .f32⟩) main_v95) (TRef.of (T := ⟨S100000x128, .f32⟩) main_v69) (TRef.of (T := ⟨S100000x128, .f32⟩) main_v97) select ]

/-- The third weight times the second layer's output, added to the sum. -/
def sI : List (HloOp τ sig (Elt F)) :=
  [ unary main_v33 main_v98 ((extractStridedSlice S1 ![2] · slices_S3_S1_2) : (⟨S3, .f32⟩ : BufTy).Contents (Elt F) → (⟨S1, .f32⟩ : BufTy).Contents (Elt F)),
    reshape main_v98 main_v99 rfl shapeCasts_S1_S_,
    unary main_v99 main_v100 (broadcastInDim S100000x128 ![] bcast_S_S100000x128 : (⟨S_, .f32⟩ : BufTy).Contents (Elt F) → (⟨S100000x128, .f32⟩ : BufTy).Contents (Elt F)),
    binary main_v100 main_v97 main_v101 (mulf : (⟨S100000x128, .f32⟩ : BufTy).Contents (Elt F) → (⟨S100000x128, .f32⟩ : BufTy).Contents (Elt F) → (⟨S100000x128, .f32⟩ : BufTy).Contents (Elt F)),
    binary main_v74 main_v101 main_v102 (addf : (⟨S100000x128, .f32⟩ : BufTy).Contents (Elt F) → (⟨S100000x128, .f32⟩ : BufTy).Contents (Elt F) → (⟨S100000x128, .f32⟩ : BufTy).Contents (Elt F)) ]

/-- The line is the eleven stretches, one after the other. -/
theorem ops_eq : (ops : List (HloOp τ sig (Elt F))) =
    sA ++ (sB ++ (sC ++ (sD ++ (sE ++ (sF ++ (sF' ++ (sG ++ (sH ++ (sH' ++ sI))))))))) := rfl

/-! ## What each stretch leaves alone

Each stretch writes only its own result buffers (listed); any other buffer keeps its contents through it. -/

set_option maxRecDepth 8192 in
theorem writesA : (sA (F := F)).Forall fun op => op.writes ⊆ (([main_cst, main_v0, main_v1, main_v2, main_cst_0, main_v3, main_v4, main_cst_1, main_v5, main_v6, main_cst_2, main_call0_v0, main_call0_v1, main_v7] : List (Ref sig .tc)).map (Proc.devRef (τ := τ) .tc)).toFinset := by
  simp only [sA, List.Forall, nullary_writes, unary_writes, binary_writes, ternary_writes, reshape_writes,
    Finset.singleton_subset_iff, List.mem_toFinset, List.map, List.mem_cons, true_or, or_true, and_self]

theorem frameA (W : Valuation τ sig (Elt F)) {b : Ref sig .tc} (hb : b ∉ ([main_cst, main_v0, main_v1, main_v2, main_cst_0, main_v3, main_v4, main_cst_1, main_v5, main_v6, main_cst_2, main_call0_v0, main_call0_v1, main_v7] : List (Ref sig .tc))) :
    after sA W (Proc.devRef .tc b) = W (Proc.devRef .tc b) :=
  after_of_writes_sub sA W writesA hb

set_option maxRecDepth 8192 in
theorem writesB : (sB (F := F)).Forall fun op => op.writes ⊆ (([main_c, main_v8, main_v9, main_c_3, main_v10, main_v11, main_v12, main_v13, main_v14, main_v15, main_c_4, main_v16, main_v17, main_c_5, main_v18, main_v19, main_v20, main_v21, main_v22, main_v23] : List (Ref sig .tc)).map (Proc.devRef (τ := τ) .tc)).toFinset := by
  simp only [sB, List.Forall, nullary_writes, unary_writes, binary_writes, ternary_writes, reshape_writes,
    Finset.singleton_subset_iff, List.mem_toFinset, List.map, List.mem_cons, true_or, or_true, and_self]

theorem frameB (W : Valuation τ sig (Elt F)) {b : Ref sig .tc} (hb : b ∉ ([main_c, main_v8, main_v9, main_c_3, main_v10, main_v11, main_v12, main_v13, main_v14, main_v15, main_c_4, main_v16, main_v17, main_c_5, main_v18, main_v19, main_v20, main_v21, main_v22, main_v23] : List (Ref sig .tc))) :
    after sB W (Proc.devRef .tc b) = W (Proc.devRef .tc b) :=
  after_of_writes_sub sB W writesB hb

set_option maxRecDepth 8192 in
theorem writesC : (sC (F := F)).Forall fun op => op.writes ⊆ (([main_cst_6, main_v24, main_cst_7, main_v25, main_v26, main_v27, main_v28, main_v29, main_cst_8, main_v30, main_v31, main_v32, main_v33] : List (Ref sig .tc)).map (Proc.devRef (τ := τ) .tc)).toFinset := by
  simp only [sC, List.Forall, nullary_writes, unary_writes, binary_writes, ternary_writes, reshape_writes,
    Finset.singleton_subset_iff, List.mem_toFinset, List.map, List.mem_cons, true_or, or_true, and_self]

theorem frameC (W : Valuation τ sig (Elt F)) {b : Ref sig .tc} (hb : b ∉ ([main_cst_6, main_v24, main_cst_7, main_v25, main_v26, main_v27, main_v28, main_v29, main_cst_8, main_v30, main_v31, main_v32, main_v33] : List (Ref sig .tc))) :
    after sC W (Proc.devRef .tc b) = W (Proc.devRef .tc b) :=
  after_of_writes_sub sC W writesC hb

set_option maxRecDepth 8192 in
theorem writesD : (sD (F := F)).Forall fun op => op.writes ⊆ (([main_c_9, main_v34, main_c_10, main_v35, main_v36, main_c_11, main_v37, main_v38, main_v39, main_v40, main_c_12, main_v41, main_v42] : List (Ref sig .tc)).map (Proc.devRef (τ := τ) .tc)).toFinset := by
  simp only [sD, List.Forall, nullary_writes, unary_writes, binary_writes, ternary_writes, reshape_writes,
    Finset.singleton_subset_iff, List.mem_toFinset, List.map, List.mem_cons, true_or, or_true, and_self]

theorem frameD (W : Valuation τ sig (Elt F)) {b : Ref sig .tc} (hb : b ∉ ([main_c_9, main_v34, main_c_10, main_v35, main_v36, main_c_11, main_v37, main_v38, main_v39, main_v40, main_c_12, main_v41, main_v42] : List (Ref sig .tc))) :
    after sD W (Proc.devRef .tc b) = W (Proc.devRef .tc b) :=
  after_of_writes_sub sD W writesD hb

set_option maxRecDepth 8192 in
theorem writesE : (sE (F := F)).Forall fun op => op.writes ⊆ (([main_v43, main_v44, main_v45, main_v46] : List (Ref sig .tc)).map (Proc.devRef (τ := τ) .tc)).toFinset := by
  simp only [sE, List.Forall, nullary_writes, unary_writes, binary_writes, ternary_writes, reshape_writes,
    Finset.singleton_subset_iff, List.mem_toFinset, List.map, List.mem_cons, true_or, or_true, and_self]

theorem frameE (W : Valuation τ sig (Elt F)) {b : Ref sig .tc} (hb : b ∉ ([main_v43, main_v44, main_v45, main_v46] : List (Ref sig .tc))) :
    after sE W (Proc.devRef .tc b) = W (Proc.devRef .tc b) :=
  after_of_writes_sub sE W writesE hb

set_option maxRecDepth 8192 in
theorem writesF : (sF (F := F)).Forall fun op => op.writes ⊆ (([main_v47, main_c_13, main_v48, main_v49, main_c_14, main_v50, main_v51, main_v52, main_v53, main_v54, main_v55, main_v56, main_cst_15, main_v57, main_v58, main_v59, main_cst_16, main_v60, main_c_17, main_v61, main_v62, main_c_18, main_v63, main_v64, main_v65, main_v66, main_v67, main_v68] : List (Ref sig .tc)).map (Proc.devRef (τ := τ) .tc)).toFinset := by
  simp only [sF, List.Forall, nullary_writes, unary_writes, binary_writes, ternary_writes, reshape_writes,
    Finset.singleton_subset_iff, List.mem_toFinset, List.map, List.mem_cons, true_or, or_true, and_self]

theorem frameF (W : Valuation τ sig (Elt F)) {b : Ref sig .tc} (hb : b ∉ ([main_v47, main_c_13, main_v48, main_v49, main_c_14, main_v50, main_v51, main_v52, main_v53, main_v54, main_v55, main_v56, main_cst_15, main_v57, main_v58, main_v59, main_cst_16, main_v60, main_c_17, main_v61, main_v62, main_c_18, main_v63, main_v64, main_v65, main_v66, main_v67, main_v68] : List (Ref sig .tc))) :
    after sF W (Proc.devRef .tc b) = W (Proc.devRef .tc b) :=
  after_of_writes_sub sF W writesF hb

set_option maxRecDepth 8192 in
theorem writesF' : (sF' (F := F)).Forall fun op => op.writes ⊆ (([main_call1_v0, main_v69] : List (Ref sig .tc)).map (Proc.devRef (τ := τ) .tc)).toFinset := by
  simp only [sF', List.Forall, nullary_writes, unary_writes, binary_writes, ternary_writes, reshape_writes,
    Finset.singleton_subset_iff, List.mem_toFinset, List.map, List.mem_cons, true_or, or_true, and_self]

theorem frameF' (W : Valuation τ sig (Elt F)) {b : Ref sig .tc} (hb : b ∉ ([main_call1_v0, main_v69] : List (Ref sig .tc))) :
    after sF' W (Proc.devRef .tc b) = W (Proc.devRef .tc b) :=
  after_of_writes_sub sF' W writesF' hb

set_option maxRecDepth 8192 in
theorem writesG : (sG (F := F)).Forall fun op => op.writes ⊆ (([main_v70, main_v71, main_v72, main_v73, main_v74] : List (Ref sig .tc)).map (Proc.devRef (τ := τ) .tc)).toFinset := by
  simp only [sG, List.Forall, nullary_writes, unary_writes, binary_writes, ternary_writes, reshape_writes,
    Finset.singleton_subset_iff, List.mem_toFinset, List.map, List.mem_cons, true_or, or_true, and_self]

theorem frameG (W : Valuation τ sig (Elt F)) {b : Ref sig .tc} (hb : b ∉ ([main_v70, main_v71, main_v72, main_v73, main_v74] : List (Ref sig .tc))) :
    after sG W (Proc.devRef .tc b) = W (Proc.devRef .tc b) :=
  after_of_writes_sub sG W writesG hb

set_option maxRecDepth 8192 in
theorem writesH : (sH (F := F)).Forall fun op => op.writes ⊆ (([main_v75, main_c_19, main_v76, main_v77, main_c_20, main_v78, main_v79, main_v80, main_v81, main_v82, main_v83, main_v84, main_cst_21, main_v85, main_v86, main_v87, main_cst_22, main_v88, main_c_23, main_v89, main_v90, main_c_24, main_v91, main_v92, main_v93, main_v94, main_v95, main_v96] : List (Ref sig .tc)).map (Proc.devRef (τ := τ) .tc)).toFinset := by
  simp only [sH, List.Forall, nullary_writes, unary_writes, binary_writes, ternary_writes, reshape_writes,
    Finset.singleton_subset_iff, List.mem_toFinset, List.map, List.mem_cons, true_or, or_true, and_self]

theorem frameH (W : Valuation τ sig (Elt F)) {b : Ref sig .tc} (hb : b ∉ ([main_v75, main_c_19, main_v76, main_v77, main_c_20, main_v78, main_v79, main_v80, main_v81, main_v82, main_v83, main_v84, main_cst_21, main_v85, main_v86, main_v87, main_cst_22, main_v88, main_c_23, main_v89, main_v90, main_c_24, main_v91, main_v92, main_v93, main_v94, main_v95, main_v96] : List (Ref sig .tc))) :
    after sH W (Proc.devRef .tc b) = W (Proc.devRef .tc b) :=
  after_of_writes_sub sH W writesH hb

set_option maxRecDepth 8192 in
theorem writesH' : (sH' (F := F)).Forall fun op => op.writes ⊆ (([main_call2_v0, main_v97] : List (Ref sig .tc)).map (Proc.devRef (τ := τ) .tc)).toFinset := by
  simp only [sH', List.Forall, nullary_writes, unary_writes, binary_writes, ternary_writes, reshape_writes,
    Finset.singleton_subset_iff, List.mem_toFinset, List.map, List.mem_cons, true_or, or_true, and_self]

theorem frameH' (W : Valuation τ sig (Elt F)) {b : Ref sig .tc} (hb : b ∉ ([main_call2_v0, main_v97] : List (Ref sig .tc))) :
    after sH' W (Proc.devRef .tc b) = W (Proc.devRef .tc b) :=
  after_of_writes_sub sH' W writesH' hb

set_option maxRecDepth 8192 in
theorem writesI : (sI (F := F)).Forall fun op => op.writes ⊆ (([main_v98, main_v99, main_v100, main_v101, main_v102] : List (Ref sig .tc)).map (Proc.devRef (τ := τ) .tc)).toFinset := by
  simp only [sI, List.Forall, nullary_writes, unary_writes, binary_writes, ternary_writes, reshape_writes,
    Finset.singleton_subset_iff, List.mem_toFinset, List.map, List.mem_cons, true_or, or_true, and_self]

theorem frameI (W : Valuation τ sig (Elt F)) {b : Ref sig .tc} (hb : b ∉ ([main_v98, main_v99, main_v100, main_v101, main_v102] : List (Ref sig .tc))) :
    after sI W (Proc.devRef .tc b) = W (Proc.devRef .tc b) :=
  after_of_writes_sub sI W writesI hb

/-! ## What each stretch computes

For ARBITRARY earlier contents W: the stretch's result buffer ends at the stage function of the few buffers the stretch
reads. The operations' results are rewritten out, the transports along the buffers' type equations cancel in pairs, and
the small term left is the stage function by unfolding. The two operations that close a layer (the mask spread over
the columns, the selection) are a stretch of their own: they are read over variables, and the
transports that are left then sit on variables only. -/

set_option maxRecDepth 8192 in
theorem stageA (W : Valuation τ sig (Elt F)) :
    after sA W (Proc.devRef .tc main_v7) = dinv (W (Proc.devRef .tc main_arg1)) (W (Proc.devRef .tc main_arg3)) := by
  unfold sA
  after_results_simp
  simp only [ofBuf_toBuf]
  rfl

set_option maxRecDepth 8192 in
theorem stageB (W : Valuation τ sig (Elt F)) :
    after sB W (Proc.devRef .tc main_v23) = valsOf (W (Proc.devRef .tc main_v7)) (W (Proc.devRef .tc main_arg1)) (W (Proc.devRef .tc main_arg2)) (W (Proc.devRef .tc main_arg3)) := by
  unfold sB
  after_results_simp
  rfl

set_option maxRecDepth 8192 in
theorem stageC (W : Valuation τ sig (Elt F)) :
    after sC W (Proc.devRef .tc main_v33) = aW (W (Proc.devRef .tc main_arg5)) := by
  unfold sC
  after_results_simp
  rfl

set_option maxRecDepth 8192 in
theorem stageD (W : Valuation τ sig (Elt F)) :
    after sD W (Proc.devRef .tc main_v42) = covered (W (Proc.devRef .tc main_arg4)) := by
  unfold sD
  after_results_simp
  rfl

set_option maxRecDepth 8192 in
theorem stageE (W : Valuation τ sig (Elt F)) :
    after sE W (Proc.devRef .tc main_v46) = mulf (wgt0 (W (Proc.devRef .tc main_v33))) (W (Proc.devRef .tc main_arg0)) := by
  unfold sE
  after_results_simp
  rfl

set_option maxRecDepth 8192 in
theorem stageF_1 (W : Valuation τ sig (Elt F)) :
    after sF W (Proc.devRef .tc main_v67) = scatRows (W (Proc.devRef .tc main_arg4)) (segSum (W (Proc.devRef .tc main_arg1)) (edgeMsg (W (Proc.devRef .tc main_v23)) (gatherRows (W (Proc.devRef .tc main_arg2)) (W (Proc.devRef .tc main_arg0))))) := by
  unfold sF
  after_results_simp
  rfl

set_option maxRecDepth 8192 in
theorem stageF_2 (W : Valuation τ sig (Elt F)) :
    after sF W (Proc.devRef .tc main_v68) = broadcastInDim S100000x1 ![0] bcast_S100000_S100000x1_0 (W (Proc.devRef .tc main_v42)) := by
  unfold sF
  after_results_simp

set_option maxRecDepth 8192 in
theorem stageF' (W : Valuation τ sig (Elt F)) :
    after sF' W (Proc.devRef .tc main_v69) = select (broadcastInDim S100000x128 ![0, 1] bcast_S100000x1_S100000x128_0_1 (W (Proc.devRef .tc main_v68))) (W (Proc.devRef .tc main_v67)) (W (Proc.devRef .tc main_arg0)) := by
  unfold sF'
  after_results_simp
  simp only [ofBuf_toBuf]
  rfl

set_option maxRecDepth 8192 in
theorem stageG (W : Valuation τ sig (Elt F)) :
    after sG W (Proc.devRef .tc main_v74) = addf (W (Proc.devRef .tc main_v46)) (mulf (wgt1 (W (Proc.devRef .tc main_v33))) (W (Proc.devRef .tc main_v69))) := by
  unfold sG
  after_results_simp
  rfl

set_option maxRecDepth 8192 in
theorem stageH_1 (W : Valuation τ sig (Elt F)) :
    after sH W (Proc.devRef .tc main_v95) = scatRows (W (Proc.devRef .tc main_arg4)) (segSum (W (Proc.devRef .tc main_arg1)) (edgeMsg (W (Proc.devRef .tc main_v23)) (gatherRows (W (Proc.devRef .tc main_arg2)) (W (Proc.devRef .tc main_v69))))) := by
  unfold sH
  after_results_simp
  rfl

set_option maxRecDepth 8192 in
theorem stageH_2 (W : Valuation τ sig (Elt F)) :
    after sH W (Proc.devRef .tc main_v96) = broadcastInDim S100000x1 ![0] bcast_S100000_S100000x1_0 (W (Proc.devRef .tc main_v42)) := by
  unfold sH
  after_results_simp

set_option maxRecDepth 8192 in
theorem stageH' (W : Valuation τ sig (Elt F)) :
    after sH' W (Proc.devRef .tc main_v97) = select (broadcastInDim S100000x128 ![0, 1] bcast_S100000x1_S100000x128_0_1 (W (Proc.devRef .tc main_v96))) (W (Proc.devRef .tc main_v95)) (W (Proc.devRef .tc main_v69)) := by
  unfold sH'
  after_results_simp
  simp only [ofBuf_toBuf]
  rfl

set_option maxRecDepth 8192 in
theorem stageI (W : Valuation τ sig (Elt F)) :
    after sI W (Proc.devRef .tc main_v102) = addf (W (Proc.devRef .tc main_v74)) (mulf (wgt2 (W (Proc.devRef .tc main_v33))) (W (Proc.devRef .tc main_v97))) := by
  unfold sI
  after_results_simp
  rfl

/-! ## The chain -/

/-- The output buffer after the whole line, from any contents: the stages composed, last stretch first; at each stretch
    its own result is the stage function and every other buffer read later is what the earlier stretches left. -/
theorem out_eq (V : Valuation τ sig (Elt F)) :
    after ops V (Proc.devRef .tc main_v102)
      = result (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_eq]
  simp only [after_append]
  rw [stageI]
  rw [stageH', frameH' (b := main_v74) _ (by decide), frameH' (b := main_v33) _ (by decide)]
  rw [stageH_1, stageH_2, frameH (b := main_v69) _ (by decide), frameH (b := main_v74) _ (by decide), frameH (b := main_v33) _ (by decide)]
  rw [stageG, frameG (b := main_arg4) _ (by decide), frameG (b := main_arg1) _ (by decide), frameG (b := main_v23) _ (by decide), frameG (b := main_arg2) _ (by decide), frameG (b := main_v69) _ (by decide), frameG (b := main_v42) _ (by decide), frameG (b := main_v33) _ (by decide)]
  rw [stageF', frameF' (b := main_v46) _ (by decide), frameF' (b := main_v33) _ (by decide), frameF' (b := main_arg4) _ (by decide), frameF' (b := main_arg1) _ (by decide), frameF' (b := main_v23) _ (by decide), frameF' (b := main_arg2) _ (by decide), frameF' (b := main_v42) _ (by decide)]
  rw [stageF_1, stageF_2, frameF (b := main_arg0) _ (by decide), frameF (b := main_v46) _ (by decide), frameF (b := main_v33) _ (by decide), frameF (b := main_arg4) _ (by decide), frameF (b := main_arg1) _ (by decide), frameF (b := main_v23) _ (by decide), frameF (b := main_arg2) _ (by decide), frameF (b := main_v42) _ (by decide)]
  rw [stageE, frameE (b := main_arg4) _ (by decide), frameE (b := main_arg1) _ (by decide), frameE (b := main_v23) _ (by decide), frameE (b := main_arg2) _ (by decide), frameE (b := main_arg0) _ (by decide), frameE (b := main_v42) _ (by decide), frameE (b := main_v33) _ (by decide)]
  rw [stageD, frameD (b := main_v33) _ (by decide), frameD (b := main_arg0) _ (by decide), frameD (b := main_arg1) _ (by decide), frameD (b := main_arg2) _ (by decide), frameD (b := main_arg4) _ (by decide), frameD (b := main_v23) _ (by decide)]
  rw [stageC, frameC (b := main_arg4) _ (by decide), frameC (b := main_arg0) _ (by decide), frameC (b := main_arg1) _ (by decide), frameC (b := main_arg2) _ (by decide), frameC (b := main_v23) _ (by decide)]
  rw [stageB, frameB (b := main_arg5) _ (by decide), frameB (b := main_arg4) _ (by decide), frameB (b := main_arg0) _ (by decide), frameB (b := main_arg1) _ (by decide), frameB (b := main_arg2) _ (by decide)]
  rw [stageA, frameA (b := main_arg0) _ (by decide), frameA (b := main_arg1) _ (by decide), frameA (b := main_arg2) _ (by decide), frameA (b := main_arg3) _ (by decide), frameA (b := main_arg4) _ (by decide), frameA (b := main_arg5) _ (by decide)]
  simp only [result, layer, keep, keepOf, vals]

/-- No stretch writes an argument's buffer. -/
theorem arg_eq (V : Valuation τ sig (Elt F)) {b : Ref sig .tc}
    (hb : b ∈ ([main_arg0, main_arg1, main_arg2, main_arg3, main_arg4, main_arg5] : List (Ref sig .tc))) :
    after ops V (Proc.devRef .tc b) = V (Proc.devRef .tc b) := by
  rw [ops_eq]
  simp only [after_append]
  simp only [List.mem_cons, List.mem_nil_iff, or_false] at hb
  rcases hb with rfl | rfl | rfl | rfl | rfl | rfl <;>
    (rw [frameI, frameH', frameH, frameG, frameF', frameF, frameE, frameD, frameC, frameB, frameA] <;> decide)
/-! ## The run -/

/-- On every device, for any float values, from any memory with zero counters: every weakly fair execution of the
    reference program terminates with its output buffer at result of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v102).trans (out_eq (launchContents m c)),
      (h c main_arg0).trans (arg_eq (launchContents m c) (by decide)),
      (h c main_arg1).trans (arg_eq (launchContents m c) (by decide)),
      (h c main_arg2).trans (arg_eq (launchContents m c) (by decide)),
      (h c main_arg3).trans (arg_eq (launchContents m c) (by decide)),
      (h c main_arg4).trans (arg_eq (launchContents m c) (by decide)),
      (h c main_arg5).trans (arg_eq (launchContents m c) (by decide))⟩)
    (run_seq scopedRefs_eq scopedSems_eq defs main (fun _ => ops) main_eq (fun _ => ops_sub) m ρ)

end Cert.ReferenceIdeal.Staged

end
-- ==== Proof.KI.Host.lean ====
/-
  What the stretches of host operations between the kernel regions compute, in the reference's own stage functions: the
  two programs spell the softmax weights, the degree power, the wrapped index vectors, the gathers, the segment sum and
  the scatter by index with the very same operations, so each buffer a region reads is one of those functions of the
  arguments and of what the regions before it left.
-/
import proofs.«119003_j2834678415702_1_alg».proof.Proof.KI.Run
import proofs.«119003_j2834678415702_1_alg».proof.Proof.RefStages
import proofs.«119003_j2834678415702_1_alg».proof.Proof.LibFoldStretch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibFoldStretch
variable (m : (ℓ : Loc nD τ sig) → Buf (Elt F) ℓ)

/-! ## The three leading stretches: everything region 0 and the later regions read of the arguments alone -/

set_option maxHeartbeats 4000000 in
theorem W3_v34 (c : Dev nD) : W3 m c main_v34 = Cert.ReferenceIdeal.Staged.aW (F := F) (m ((c : Thread nD τ).loc main_arg5)) := by
  show StableHlo.after hostOps0_2 (StableHlo.after hostOps0_1 (StableHlo.after hostOps0 (W0 m c))) main_v34 = _
  rw [← after_append, ← after_append]
  simp only [hostOps0, hostOps0_1, hostOps0_2, List.cons_append, List.nil_append]
  after_results_simp
  rfl

set_option maxHeartbeats 4000000 in
theorem W3_v22 (c : Dev nD) : W3 m c main_v22 = shapeCast S1600000x1 (Cert.ReferenceIdeal.Staged.gatherVec (F := F) (Cert.ReferenceIdeal.Staged.dinv (m ((c : Thread nD τ).loc main_arg1)) (m ((c : Thread nD τ).loc main_arg3))) (m ((c : Thread nD τ).loc main_arg1))) shapeCasts_S1600000_S1600000x1 := by
  show StableHlo.after hostOps0_2 (StableHlo.after hostOps0_1 (StableHlo.after hostOps0 (W0 m c))) main_v22 = _
  rw [← after_append, ← after_append]
  simp only [hostOps0, hostOps0_1, hostOps0_2, List.cons_append, List.nil_append]
  after_results_simp
  simp only [ofBuf_toBuf, toBuf_ofBuf]
  rfl

set_option maxHeartbeats 4000000 in
theorem W3_v23 (c : Dev nD) : W3 m c main_v23 = shapeCast S1600000x1 (Cert.ReferenceIdeal.Staged.gatherVec (F := F) (Cert.ReferenceIdeal.Staged.dinv (m ((c : Thread nD τ).loc main_arg1)) (m ((c : Thread nD τ).loc main_arg3))) (m ((c : Thread nD τ).loc main_arg2))) shapeCasts_S1600000_S1600000x1 := by
  show StableHlo.after hostOps0_2 (StableHlo.after hostOps0_1 (StableHlo.after hostOps0 (W0 m c))) main_v23 = _
  rw [← after_append, ← after_append]
  simp only [hostOps0, hostOps0_1, hostOps0_2, List.cons_append, List.nil_append]
  after_results_simp
  simp only [ofBuf_toBuf, toBuf_ofBuf]
  rfl

set_option maxHeartbeats 4000000 in
theorem W3_v24 (c : Dev nD) : W3 m c main_v24 = shapeCast S1600000x1 (m ((c : Thread nD τ).loc main_arg3)) shapeCasts_S1600000_S1600000x1 := by
  show StableHlo.after hostOps0_2 (StableHlo.after hostOps0_1 (StableHlo.after hostOps0 (W0 m c))) main_v24 = _
  rw [← after_append, ← after_append]
  simp only [hostOps0, hostOps0_1, hostOps0_2, List.cons_append, List.nil_append]
  after_results_simp
  rfl

set_option maxHeartbeats 4000000 in
theorem W3_v45 (c : Dev nD) : W3 m c main_v45 = broadcastInDim S100000x1 ![0] bcast_S100000_S100000x1_0 (uitofp .f32 (Cert.ReferenceIdeal.Staged.covered (F := F) (m ((c : Thread nD τ).loc main_arg4)))) := by
  show StableHlo.after hostOps0_2 (StableHlo.after hostOps0_1 (StableHlo.after hostOps0 (W0 m c))) main_v45 = _
  rw [← after_append, ← after_append]
  simp only [hostOps0, hostOps0_1, hostOps0_2, List.cons_append, List.nil_append]
  after_results_simp
  rfl

set_option maxHeartbeats 4000000 in
theorem W3_v46 (c : Dev nD) : W3 m c main_v46 = broadcastInDim S100000x1 ![] bcast_S_S100000x1 (constant (F := F) S_ .f32 0x3F800000#32) := by
  show StableHlo.after hostOps0_2 (StableHlo.after hostOps0_1 (StableHlo.after hostOps0 (W0 m c))) main_v46 = _
  rw [← after_append, ← after_append]
  simp only [hostOps0, hostOps0_1, hostOps0_2, List.cons_append, List.nil_append]
  after_results_simp

set_option maxHeartbeats 4000000 in
theorem W3_v47 (c : Dev nD) : W3 m c main_v47 = broadcastInDim S100000x128 ![] bcast_S_S100000x128 (constant (F := F) S_ .f32 0x00000000#32) := by
  show StableHlo.after hostOps0_2 (StableHlo.after hostOps0_1 (StableHlo.after hostOps0 (W0 m c))) main_v47 = _
  rw [← after_append, ← after_append]
  simp only [hostOps0, hostOps0_1, hostOps0_2, List.cons_append, List.nil_append]
  after_results_simp

set_option maxHeartbeats 4000000 in
theorem W3_v50 (c : Dev nD) : W3 m c main_v50 = shapeCast S1x1 (shapeCast S_ (extractStridedSlice S1 ![0] (Cert.ReferenceIdeal.Staged.aW (F := F) (m ((c : Thread nD τ).loc main_arg5))) slices_S3_S1_0) shapeCasts_S1_S_) shapeCasts_S_S1x1 := by
  show StableHlo.after hostOps0_2 (StableHlo.after hostOps0_1 (StableHlo.after hostOps0 (W0 m c))) main_v50 = _
  rw [← after_append, ← after_append]
  simp only [hostOps0, hostOps0_1, hostOps0_2, List.cons_append, List.nil_append]
  after_results_simp
  rfl

/-! ## The later stretches, for arbitrary earlier contents -/

variable (Vv : Valuation τ sig (Elt F))

set_option maxHeartbeats 4000000 in
/-- Before region 1: the rows region 0 left, gathered at the edges' columns. -/
theorem ops1_v58 : StableHlo.after hostOps1 Vv main_v58 = Cert.ReferenceIdeal.Staged.gatherRows (F := F) (Vv main_arg2) (Vv main_v51_0) := by
  after_results_simp
  rfl
set_option maxHeartbeats 4000000 in
/-- Before region 3: the rows region 2 left, gathered at the edges' columns. -/
theorem ops3_v81 : StableHlo.after hostOps3 Vv main_v81 = Cert.ReferenceIdeal.Staged.gatherRows (F := F) (Vv main_arg2) (Vv main_v74_0) := by
  after_results_simp
  rfl
set_option maxHeartbeats 4000000 in
/-- Before region 2: region 1's messages summed by row and scattered by the index vector. -/
theorem ops2_v70 : StableHlo.after hostOps2 Vv main_v70 = Cert.ReferenceIdeal.Staged.scatRows (F := F) (Vv main_arg4) (Cert.ReferenceIdeal.Staged.segSum (Vv main_arg1) (Vv main_v59)) := by
  after_results_simp
  rfl
set_option maxHeartbeats 4000000 in
/-- Before region 2: the second layer weight as a 1x1 array. -/
theorem ops2_v73 : StableHlo.after hostOps2 Vv main_v73
    = shapeCast S1x1 (shapeCast S_ (extractStridedSlice S1 ![1] (Vv main_v34) slices_S3_S1_1) shapeCasts_S1_S_) shapeCasts_S_S1x1 := by
  after_results_simp
  rfl
set_option maxHeartbeats 4000000 in
/-- Before region 4: region 3's messages summed by row and scattered by the index vector. -/
theorem ops4_v93 : StableHlo.after hostOps4 Vv main_v93 = Cert.ReferenceIdeal.Staged.scatRows (F := F) (Vv main_arg4) (Cert.ReferenceIdeal.Staged.segSum (Vv main_arg1) (Vv main_v82)) := by
  after_results_simp
  rfl
set_option maxHeartbeats 4000000 in
/-- Before region 4: the third layer weight as a 1x1 array. -/
theorem ops4_v96 : StableHlo.after hostOps4 Vv main_v96
    = shapeCast S1x1 (shapeCast S_ (extractStridedSlice S1 ![2] (Vv main_v34) slices_S3_S1_2) shapeCasts_S1_S_) shapeCasts_S_S1x1 := by
  after_results_simp
  rfl

end Cert.KernelIdeal.Hand

end
-- ==== Proof.KI.Entries.lean ====
/-
  What each kernel region finds in the arrays its windows stand on, as functions of the arguments and of what the regions
  before it left: a buffer written by the leading stretches of host operations is still there when a later region reads it (no
  later stretch and no region writes it), and each later stretch's new buffers are the reference's stage functions of earlier
  buffers.
-/
import proofs.«119003_j2834678415702_1_alg».proof.Proof.KI.Host

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibFoldStretch
variable (m : (ℓ : Loc nD τ sig) → Buf (Elt F) ℓ)

/-! ## A buffer that only the leading stretches write, at the later boundaries -/

theorem W5_W3 (c : Dev nD) (r : Ref sig .tc) (h1 : r ∉ hostOps1_W) (h0 : r ∉ ([main_v51_0, main_v51_1] : List (Ref sig .tc))) :
    W5 m c r = W3 m c r := (W5_of m c r h1).trans (W4_of m c r h0)
theorem W7_W3 (c : Dev nD) (r : Ref sig .tc) (h2 : r ∉ hostOps2_W) (hr1 : ∀ w, Pipeline.arrRef spec1 w ≠ r) (h1 : r ∉ hostOps1_W)
    (h0 : r ∉ ([main_v51_0, main_v51_1] : List (Ref sig .tc))) : W7 m c r = W3 m c r :=
  (W7_of m c r h2).trans ((W6_of_ne m c r hr1).trans (W5_W3 m c r h1 h0))
theorem W9_W3 (c : Dev nD) (r : Ref sig .tc) (h3 : r ∉ hostOps3_W) (hr2 : ∀ w, Pipeline.arrRef spec2 w ≠ r) (h2 : r ∉ hostOps2_W)
    (hr1 : ∀ w, Pipeline.arrRef spec1 w ≠ r) (h1 : r ∉ hostOps1_W) (h0 : r ∉ ([main_v51_0, main_v51_1] : List (Ref sig .tc))) :
    W9 m c r = W3 m c r :=
  (W9_of m c r h3).trans ((W8_of_ne m c r hr2).trans (W7_W3 m c r h2 hr1 h1 h0))
theorem W11_W3 (c : Dev nD) (r : Ref sig .tc) (h4 : r ∉ hostOps4_W) (hr3 : ∀ w, Pipeline.arrRef spec3 w ≠ r) (h3 : r ∉ hostOps3_W)
    (hr2 : ∀ w, Pipeline.arrRef spec2 w ≠ r) (h2 : r ∉ hostOps2_W) (hr1 : ∀ w, Pipeline.arrRef spec1 w ≠ r) (h1 : r ∉ hostOps1_W)
    (h0 : r ∉ ([main_v51_0, main_v51_1] : List (Ref sig .tc))) : W11 m c r = W3 m c r :=
  (W11_of m c r h4).trans ((W10_of_ne m c r hr3).trans (W9_W3 m c r h3 hr2 h2 hr1 h1 h0))
/-- An argument is as launched at the leading stretches' end. -/
theorem W3_arg (c : Dev nD) (r : Ref sig .tc) (h2 : r ∉ hostOps0_2_W) (h1 : r ∉ hostOps0_1_W) (h0 : r ∉ hostOps0_W) :
    W3 m c r = m ((c : Thread nD τ).loc r) := (W3_of m c r h2).trans ((W2_of m c r h1).trans ((W1_of m c r h0).trans rfl))

/-! ## What regions 0 and 2 left, where the later regions read it -/

/-- Region 0's new features, where region 1's stretch and region 2 read them. -/
theorem W6_v51_0 (c : Dev nD) : W6 m c main_v51_0 = (dat0 (E0 m) c).arrAt 5 cfg0.N :=
  (W6_of_ne m c main_v51_0 (by decide)).trans ((W5_of m c main_v51_0 (by decide)).trans (W4_5 m c))
theorem W7_v51_0 (c : Dev nD) : W7 m c main_v51_0 = (dat0 (E0 m) c).arrAt 5 cfg0.N := (W7_of m c main_v51_0 (by decide)).trans (W6_v51_0 m c)
theorem W7_v51_1 (c : Dev nD) : W7 m c main_v51_1 = (dat0 (E0 m) c).arrAt 6 cfg0.N :=
  (W7_of m c main_v51_1 (by decide)).trans ((W6_of_ne m c main_v51_1 (by decide)).trans ((W5_of m c main_v51_1 (by decide)).trans (W4_6 m c)))
/-- Region 2's new features and new result, where region 3's stretch and region 4 read them. -/
theorem W8_v74_0 (c : Dev nD) : W8 m c main_v74_0 = (dat2 (E2 m) c).arrAt 5 cfg2.N := W8_arr m c 5
theorem W8_v74_1 (c : Dev nD) : W8 m c main_v74_1 = (dat2 (E2 m) c).arrAt 6 cfg2.N := W8_arr m c 6
theorem W11_v74_0 (c : Dev nD) : W11 m c main_v74_0 = (dat2 (E2 m) c).arrAt 5 cfg2.N :=
  (W11_of m c main_v74_0 (by decide)).trans ((W10_of_ne m c main_v74_0 (by decide)).trans ((W9_of m c main_v74_0 (by decide)).trans (W8_v74_0 m c)))
theorem W11_v74_1 (c : Dev nD) : W11 m c main_v74_1 = (dat2 (E2 m) c).arrAt 6 cfg2.N :=
  (W11_of m c main_v74_1 (by decide)).trans ((W10_of_ne m c main_v74_1 (by decide)).trans ((W9_of m c main_v74_1 (by decide)).trans (W8_v74_1 m c)))

/-! ## An input array of a region is still there after it -/

/-- Region 1 leaves the arrays behind its input windows as it found them. -/
theorem W6_in (c : Dev nD) (w : Fin cfg1.W) (h : (cfg1.win w).isOut = false) :
    W6 m c (Pipeline.arrRef spec1 w) = W5 m c (Pipeline.arrRef spec1 w) :=
  (W6_arr m c w).trans (((dat1 (E1 m) c).arrAt_in w h _).trans (A_eq1 (E1 m) c w))
/-- Region 2 leaves the arrays behind its input windows as it found them. -/
theorem W8_in (c : Dev nD) (w : Fin cfg2.W) (h : (cfg2.win w).isOut = false) :
    W8 m c (Pipeline.arrRef spec2 w) = W7 m c (Pipeline.arrRef spec2 w) :=
  (W8_arr m c w).trans (((dat2 (E2 m) c).arrAt_in w h _).trans (A_eq2 (E2 m) c w))
/-- The three per-edge columns, which region 1 has read, as region 3 finds them. -/
theorem W9_v22 (c : Dev nD) : W9 m c main_v22 = W3 m c main_v22 :=
  (W9_of m c main_v22 (by decide)).trans ((W8_of_ne m c main_v22 (by decide)).trans ((W7_of m c main_v22 (by decide)).trans ((W6_in m c 0 rfl).trans (W5_W3 m c main_v22 (by decide) (by decide)))))
theorem W9_v24 (c : Dev nD) : W9 m c main_v24 = W3 m c main_v24 :=
  (W9_of m c main_v24 (by decide)).trans ((W8_of_ne m c main_v24 (by decide)).trans ((W7_of m c main_v24 (by decide)).trans ((W6_in m c 1 rfl).trans (W5_W3 m c main_v24 (by decide) (by decide)))))
theorem W9_v23 (c : Dev nD) : W9 m c main_v23 = W3 m c main_v23 :=
  (W9_of m c main_v23 (by decide)).trans ((W8_of_ne m c main_v23 (by decide)).trans ((W7_of m c main_v23 (by decide)).trans ((W6_in m c 2 rfl).trans (W5_W3 m c main_v23 (by decide) (by decide)))))
/-- The mask column, which region 2 has read, as region 4 finds it. -/
theorem W11_v45 (c : Dev nD) : W11 m c main_v45 = W3 m c main_v45 :=
  (W11_of m c main_v45 (by decide)).trans ((W10_of_ne m c main_v45 (by decide)).trans ((W9_of m c main_v45 (by decide)).trans ((W8_in m c 0 rfl).trans (W7_W3 m c main_v45 (by decide) (by decide) (by decide) (by decide)))))

/-! ## The regions' entry arrays -/

/-- Region 1 reads the rows region 0 left, gathered at the edges' columns. -/
theorem E1_v58 (c : Dev nD) : W5 m c main_v58 = Cert.ReferenceIdeal.Staged.gatherRows (F := F) (m ((c : Thread nD τ).loc main_arg2)) ((dat0 (E0 m) c).arrAt 5 cfg0.N) := by
  show StableHlo.after hostOps1 (W4 m c) main_v58 = _
  rw [ops1_v58 (W4 m c), W4_5 m c, W4_of m c main_arg2 (by decide), W3_arg m c main_arg2 (by decide) (by decide) (by decide)]
/-- Region 2 reads region 1's messages summed by row and scattered by the index vector, -/
theorem E2_v70 (c : Dev nD) : W7 m c main_v70 = Cert.ReferenceIdeal.Staged.scatRows (F := F) (m ((c : Thread nD τ).loc main_arg4))
    (Cert.ReferenceIdeal.Staged.segSum (m ((c : Thread nD τ).loc main_arg1)) ((dat1 (E1 m) c).arrAt 4 cfg1.N)) := by
  show StableHlo.after hostOps2 (W6 m c) main_v70 = _
  rw [ops2_v70 (W6 m c), W6_arr m c 4, W6_of_ne m c main_arg4 (by decide), W5_W3 m c main_arg4 (by decide) (by decide), W3_arg m c main_arg4 (by decide) (by decide) (by decide),
    W6_of_ne m c main_arg1 (by decide), W5_W3 m c main_arg1 (by decide) (by decide), W3_arg m c main_arg1 (by decide) (by decide) (by decide)]
/-- and the second layer weight. -/
theorem E2_v73 (c : Dev nD) : W7 m c main_v73 = shapeCast S1x1 (shapeCast S_ (extractStridedSlice S1 ![1]
    (Cert.ReferenceIdeal.Staged.aW (F := F) (m ((c : Thread nD τ).loc main_arg5))) slices_S3_S1_1) shapeCasts_S1_S_) shapeCasts_S_S1x1 := by
  show StableHlo.after hostOps2 (W6 m c) main_v73 = _
  rw [ops2_v73 (W6 m c), W6_of_ne m c main_v34 (by decide), W5_W3 m c main_v34 (by decide) (by decide), W3_v34 m c]
/-- Region 3 reads the rows region 2 left, gathered at the edges' columns. -/
theorem E3_v81 (c : Dev nD) : W9 m c main_v81 = Cert.ReferenceIdeal.Staged.gatherRows (F := F) (m ((c : Thread nD τ).loc main_arg2)) ((dat2 (E2 m) c).arrAt 5 cfg2.N) := by
  show StableHlo.after hostOps3 (W8 m c) main_v81 = _
  rw [ops3_v81 (W8 m c), W8_v74_0 m c, W8_of_ne m c main_arg2 (by decide), W7_W3 m c main_arg2 (by decide) (by decide) (by decide) (by decide), W3_arg m c main_arg2 (by decide) (by decide) (by decide)]
/-- Region 4 reads region 3's messages summed by row and scattered by the index vector, -/
theorem E4_v93 (c : Dev nD) : W11 m c main_v93 = Cert.ReferenceIdeal.Staged.scatRows (F := F) (m ((c : Thread nD τ).loc main_arg4))
    (Cert.ReferenceIdeal.Staged.segSum (m ((c : Thread nD τ).loc main_arg1)) ((dat3 (E3 m) c).arrAt 4 cfg3.N)) := by
  show StableHlo.after hostOps4 (W10 m c) main_v93 = _
  rw [ops4_v93 (W10 m c), W10_arr m c 4, W10_of_ne m c main_arg4 (by decide), W9_W3 m c main_arg4 (by decide) (by decide) (by decide) (by decide) (by decide) (by decide), W3_arg m c main_arg4 (by decide) (by decide) (by decide),
    W10_of_ne m c main_arg1 (by decide), W9_W3 m c main_arg1 (by decide) (by decide) (by decide) (by decide) (by decide) (by decide), W3_arg m c main_arg1 (by decide) (by decide) (by decide)]
/-- and the third layer weight. -/
theorem E4_v96 (c : Dev nD) : W11 m c main_v96 = shapeCast S1x1 (shapeCast S_ (extractStridedSlice S1 ![2]
    (Cert.ReferenceIdeal.Staged.aW (F := F) (m ((c : Thread nD τ).loc main_arg5))) slices_S3_S1_2) shapeCasts_S1_S_) shapeCasts_S_S1x1 := by
  show StableHlo.after hostOps4 (W10 m c) main_v96 = _
  rw [ops4_v96 (W10 m c), W10_of_ne m c main_v34 (by decide), W9_W3 m c main_v34 (by decide) (by decide) (by decide) (by decide) (by decide) (by decide), W3_v34 m c]

end Cert.KernelIdeal.Hand

end
-- ==== Proof.KI.Closed.lean ====
/-
  From blocks to whole arrays, at the extended reals. Each region of the program writes its output arrays block by
  block, one block per grid point; here every output array after the region is read entry by entry as one function of
  the arrays the region finds on entry. For the per-edge message kernel (region 1): the entry at edge `p`, lane `q` is
  the product of the row factor, the edge value and the column factor of edge `p` times the gathered row's entry. For
  the per-node combine kernel (region 0): the new features at node `p`, lane `q` are the mask entry of node `p` times the
  scattered row's entry plus one minus the mask entry times the previous features' entry, and the new result is the
  previous result plus the layer weight times the new features. The steps, per output: the body's result at a row and
  a lane of a block; the index maps decided over the grid (block row = the point, block column = 0); what a point
  writes back is its block of one whole-array function; the blocks cover the array (row `p` lies in the block of point
  `p / rows per block`); hence the array is that function.
-/
import proofs.«119003_j2834678415702_1_alg».proof.Proof.KI.Region0
import proofs.«119003_j2834678415702_1_alg».proof.Proof.KI.Region1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Closed

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when a region is entered
variable (V : (c : Dev nD) → (b : Ref sig .tc) → Buf (Elt Ideal) ((c : Thread nD τ).loc b))

-- An entry of one of the signature's arrays has a type that only unfolds to the extended reals; these are the extended
-- reals' product, sum and difference with that type named, so that such entries can be their operands as they stand.
local notation:70 a:70 " *ᵉ " b:71 => @HMul.hMul EReal EReal EReal _ a b
local notation:65 a:65 " +ᵉ " b:66 => @HAdd.hAdd EReal EReal EReal _ a b
local notation:65 a:65 " -ᵉ " b:66 => @HSub.hSub EReal EReal EReal _ a b

/-! ## Shared: zero offsets, a column spread along the lanes, the literal one -/

theorem hz : (![0, 0] : Fin 2 → Nat) = fun _ => 0 := funext fun a => by fin_cases a <;> rfl

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The literal `0x3F800000` is the real number one. -/
theorem one_eq : Ideal.ofBits .f32 0x3F800000#32 = (1 : EReal) := by
  simp [Ideal.ofBits, Ideal.ieee, -EReal.coe_mul]; norm_num

/-! ## Region 1: the per-edge message kernel -/

section Region1

/-- The body's result at a row `r` and lane `q` of the block: the three column entries of the row, multiplied in
    order, times the gathered row's entry at the lane. -/
theorem out1_4_at (x0 x1 x2 : Vec Ideal S6400x1 .f32) (x3 : Vec Ideal S6400x128 .f32) (r : Fin 6400) (q : Fin 128) :
    Hand.out1_4 x0 x1 x2 x3 (ix2 r q)
      = ((x0 (ix2 r (0 : Fin 1)) * x1 (ix2 r (0 : Fin 1))) * x2 (ix2 r (0 : Fin 1))) * x3 (ix2 r q) := by
  unfold Hand.out1_4
  rw [View.canon_unit_zero hz]
  simp only [View.ld_unit_zero (S := S6400x1) hz, View.ld_unit_zero (S := S6400x128) hz]
  unfold k1_pay1
  simp only [shapeCast_self]
  rw [mulf_apply, broadcastTo_a1_ab_apply, mulf_apply, mulf_apply]

/-- The index maps, decided over the grid: at point `t` every window's block is block row `t`, block column `0`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Every block row of the output is some point's. -/
theorem idx_onto1 : ∀ q0 : Fin 250, ∃ t : Fin cfg1.N, win1_4.index t = ![q0.val, 0] :=
  (by decide +kernel : ∀ q0 : Fin 250, ∃ t : Fin grid1.N, win1_4.index t = ![q0.val, 0])

/-- The whole output array as one function of the region's entry arrays: at row `p`, lane `q`, the three columns'
    entries of row `p`, multiplied in order, times the gathered rows' entry. -/
abbrev G1 (a0 a1 a2 : S1600000x1.Idx → Elt Ideal .f32) (a3 : S1600000x128.Idx → Elt Ideal .f32) :
    S1600000x128.Idx → Elt Ideal .f32 :=
  fun i => ((a0 (ix2 (n0 := 1600000) (i 0) (0 : Fin 1)) * a1 (ix2 (n0 := 1600000) (i 0) (0 : Fin 1)))
    * a2 (ix2 (n0 := 1600000) (i 0) (0 : Fin 1))) * a3 i

set_option maxHeartbeats 2000000 in
/-- What point `t` writes back is block `t` of `G1` of the entry arrays. -/
theorem flushed1_eq (c : Dev nD) (t : Fin cfg1.N) :
    (Hand.dat1 V c).flushed 4 t = ((cfg1.win 4).blk t).view.read (Elt Ideal)
      (G1 (V c (Pipeline.arrRef spec1 0)) (V c (Pipeline.arrRef spec1 1)) (V c (Pipeline.arrRef spec1 2)) (V c (Pipeline.arrRef spec1 3))) := by
  show (cfg1.win 4).cut (grid1.coords t) ((Hand.dat1 V c).after 4 t) = _
  rw [Hand.after1_4]
  obtain ⟨e00, e01, e10, e11, e20, e21, e30, e31, e40, e41⟩ := idx_facts1 t
  funext j
  have hj0 : (j 0).val < 6400 := (j 0).isLt
  have hj1 : (j 1).val < 128 := (j 1).isLt
  have ej : j = ix2 (⟨(j 0).val, hj0⟩ : Fin 6400) (⟨(j 1).val, hj1⟩ : Fin 128) := by
    funext a; match a with | ⟨0, _⟩ => rfl | ⟨1, _⟩ => rfl
  refine (congrArg (Hand.out1_4 (Hand.iblk1 V c 0 t) (Hand.iblk1 V c 1 t) (Hand.iblk1 V c 2 t) (Hand.iblk1 V c 3 t)) ej).trans ?_
  refine (out1_4_at (Hand.iblk1 V c 0 t) (Hand.iblk1 V c 1 t) (Hand.iblk1 V c 2 t) (Hand.iblk1 V c 3 t) ⟨(j 0).val, hj0⟩ ⟨(j 1).val, hj1⟩).trans ?_
  show ((V c (Pipeline.arrRef spec1 0) (((cfg1.win 0).blk t).view.emb (ix2 (⟨(j 0).val, hj0⟩ : Fin 6400) (0 : Fin 1))) *ᵉ V c (Pipeline.arrRef spec1 1) (((cfg1.win 1).blk t).view.emb (ix2 (⟨(j 0).val, hj0⟩ : Fin 6400) (0 : Fin 1)))) *ᵉ V c (Pipeline.arrRef spec1 2) (((cfg1.win 2).blk t).view.emb (ix2 (⟨(j 0).val, hj0⟩ : Fin 6400) (0 : Fin 1)))) *ᵉ V c (Pipeline.arrRef spec1 3) (((cfg1.win 3).blk t).view.emb (ix2 (⟨(j 0).val, hj0⟩ : Fin 6400) (⟨(j 1).val, hj1⟩ : Fin 128)))
      = ((V c (Pipeline.arrRef spec1 0) (ix2 (n0 := 1600000) ((((cfg1.win 4).blk t).view.emb j) 0) (0 : Fin 1)) *ᵉ V c (Pipeline.arrRef spec1 1) (ix2 (n0 := 1600000) ((((cfg1.win 4).blk t).view.emb j) 0) (0 : Fin 1))) *ᵉ V c (Pipeline.arrRef spec1 2) (ix2 (n0 := 1600000) ((((cfg1.win 4).blk t).view.emb j) 0) (0 : Fin 1))) *ᵉ V c (Pipeline.arrRef spec1 3) (((cfg1.win 4).blk t).view.emb j)
  have h0 : ((cfg1.win 0).blk t).view.emb (ix2 (⟨(j 0).val, hj0⟩ : Fin 6400) (0 : Fin 1))
      = ix2 (n0 := 1600000) ((((cfg1.win 4).blk t).view.emb j) 0) (0 : Fin 1) := by
    funext a; apply Fin.ext
    match a with
    | ⟨0, _⟩ => show win1_0.index t (0 : Fin 2) * 6400 + 1 * (j 0).val = win1_4.index t (0 : Fin 2) * 6400 + 1 * (j 0).val; omega
    | ⟨1, _⟩ => show win1_0.index t (1 : Fin 2) * 1 + 1 * 0 = 0; omega
  have h1 : ((cfg1.win 1).blk t).view.emb (ix2 (⟨(j 0).val, hj0⟩ : Fin 6400) (0 : Fin 1))
      = ix2 (n0 := 1600000) ((((cfg1.win 4).blk t).view.emb j) 0) (0 : Fin 1) := by
    funext a; apply Fin.ext
    match a with
    | ⟨0, _⟩ => show win1_1.index t (0 : Fin 2) * 6400 + 1 * (j 0).val = win1_4.index t (0 : Fin 2) * 6400 + 1 * (j 0).val; omega
    | ⟨1, _⟩ => show win1_1.index t (1 : Fin 2) * 1 + 1 * 0 = 0; omega
  have h2 : ((cfg1.win 2).blk t).view.emb (ix2 (⟨(j 0).val, hj0⟩ : Fin 6400) (0 : Fin 1))
      = ix2 (n0 := 1600000) ((((cfg1.win 4).blk t).view.emb j) 0) (0 : Fin 1) := by
    funext a; apply Fin.ext
    match a with
    | ⟨0, _⟩ => show win1_2.index t (0 : Fin 2) * 6400 + 1 * (j 0).val = win1_4.index t (0 : Fin 2) * 6400 + 1 * (j 0).val; omega
    | ⟨1, _⟩ => show win1_2.index t (1 : Fin 2) * 1 + 1 * 0 = 0; omega
  have h3 : ((cfg1.win 3).blk t).view.emb (ix2 (⟨(j 0).val, hj0⟩ : Fin 6400) (⟨(j 1).val, hj1⟩ : Fin 128))
      = ((cfg1.win 4).blk t).view.emb j := by
    funext a; apply Fin.ext
    match a with
    | ⟨0, _⟩ => show win1_3.index t (0 : Fin 2) * 6400 + 1 * (j 0).val = win1_4.index t (0 : Fin 2) * 6400 + 1 * (j 0).val; omega
    | ⟨1, _⟩ => show win1_3.index t (1 : Fin 2) * 128 + 1 * (j 1).val = win1_4.index t (1 : Fin 2) * 128 + 1 * (j 1).val; omega
  rw [h0, h1, h2, h3]

/-- An index of the output array is in point `t`'s block iff each coordinate is in the block's range on its axis. -/
theorem mem_blk1 (t : Fin cfg1.N) (i : S1600000x128.Idx) :
    i ∈ ((cfg1.win 4).blk t).view.set ↔ ∀ a : Fin 2, win1_4.index t a * S6400x128.size a ≤ (i a).val ∧ (i a).val < win1_4.index t a * S6400x128.size a + S6400x128.size a := by
  show i ∈ ((View.whole (Pipeline.arrRef spec1 4)).slice (win1_4.rect t)).set ↔ _
  rw [View.set_slice_whole, Rect.mem_set_unit]
  exact Iff.rfl

/-- Every index of the output array is in the block of the point its row falls in. -/
theorem cover1 (i : S1600000x128.Idx) : ∃ t : Fin cfg1.N, (cfg1.win 4).flush t = true ∧ i ∈ ((cfg1.win 4).blk t).view.set := by
  have hi0 : (i 0).val < 1600000 := (i 0).isLt
  have hi1 : (i 1).val < 128 := (i 1).isLt
  obtain ⟨t, ht⟩ := idx_onto1 ⟨(i 0).val / 6400, by omega⟩
  have q0 : win1_4.index t (0 : Fin 2) = (i 0).val / 6400 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 6400 ≤ (i 0).val ∧ (i 0).val < win1_4.index t (0 : Fin 2) * 6400 + 6400; omega
  | ⟨1, _⟩ => show win1_4.index t (1 : Fin 2) * 128 ≤ (i 1).val ∧ (i 1).val < win1_4.index t (1 : Fin 2) * 128 + 128; omega

/-- The output array after the run is `G1` of the entry arrays. -/
theorem final1 (c : Dev nD) :
    (Hand.dat1 V c).arrAt 4 cfg1.N
      = G1 (V c (Pipeline.arrRef spec1 0)) (V c (Pipeline.arrRef spec1 1)) (V c (Pipeline.arrRef spec1 2)) (V c (Pipeline.arrRef spec1 3)) :=
  (Hand.dat1 V c).arrAt_eq_of_cover 4 _ (fun t _ => flushed1_eq V c t) cover1

/-- The message array after region 1, entry by entry. -/
theorem msg1_at (c : Dev nD) (p : Fin 1600000) (q : Fin 128) :
    (Hand.dat1 V c).arrAt 4 cfg1.N (ix2 p q)
      = ((V c (Pipeline.arrRef spec1 0) (ix2 p (0 : Fin 1)) *ᵉ V c (Pipeline.arrRef spec1 1) (ix2 p (0 : Fin 1))) *ᵉ V c (Pipeline.arrRef spec1 2) (ix2 p (0 : Fin 1))) *ᵉ V c (Pipeline.arrRef spec1 3) (ix2 p q) := by
  rw [final1]

end Region1

/-! ## Region 0: the per-node combine kernel -/

section Region0

/-- The first payload at a row `r` and lane `q`: the row's mask entry times the scattered row's entry, plus one minus
    the mask entry times the previous features' entry. -/
theorem k0_pay1_at (v0 : Vec Ideal S5000x1 .f32) (v2 v7 : Vec Ideal S5000x128 .f32) (r : Fin 5000) (q : Fin 128) :
    k0_pay1 v0 v2 v7 (ix2 r q)
      = v0 (ix2 r (0 : Fin 1)) * v2 (ix2 r q) + (Ideal.ofBits .f32 0x3F800000#32 - v0 (ix2 r (0 : Fin 1))) * v7 (ix2 r q) := by
  unfold k0_pay1
  simp only [shapeCast_self]
  rw [addf_apply, mulf_apply, mulf_apply, broadcastTo_a1_ab_apply, broadcastTo_a1_ab_apply, subf_apply, broadcast_apply]
  rfl

/-- The new-features buffer after the body, at a row and a lane. -/
theorem out0_5_at (x0 : Vec Ideal S5000x1 .f32) (x1 x2 : Vec Ideal S5000x128 .f32) (r : Fin 5000) (q : Fin 128) :
    Hand.out0_5 x0 x1 x2 (ix2 r q)
      = x0 (ix2 r (0 : Fin 1)) * x1 (ix2 r q) + (Ideal.ofBits .f32 0x3F800000#32 - x0 (ix2 r (0 : Fin 1))) * x2 (ix2 r q) := by
  unfold Hand.out0_5
  rw [View.canon_unit_zero hz]
  simp only [View.ld_unit_zero (S := S5000x1) hz, View.ld_unit_zero (S := S5000x128) hz]
  exact k0_pay1_at x0 x1 x2 r q

/-- The new-result buffer after the body, at a row and a lane: the previous result plus the layer weight times the new
    features. -/
theorem out0_6_at (x0 : Vec Ideal S5000x1 .f32) (x1 x2 x3 : Vec Ideal S5000x128 .f32) (x4 : Vec Ideal S1x1 .f32) (r : Fin 5000) (q : Fin 128) :
    Hand.out0_6 x0 x1 x2 x3 x4 (ix2 r q)
      = x3 (ix2 r q) + x4 (ix2 (0 : Fin 1) (0 : Fin 1))
          * (x0 (ix2 r (0 : Fin 1)) * x1 (ix2 r q) + (Ideal.ofBits .f32 0x3F800000#32 - x0 (ix2 r (0 : Fin 1))) * x2 (ix2 r q)) := by
  unfold Hand.out0_6
  rw [View.canon_unit_zero hz]
  simp only [View.ld_unit_zero (S := S5000x1) hz, View.ld_unit_zero (S := S5000x128) hz, View.ld_unit_zero (S := S1x1) hz]
  unfold k0_pay2
  simp only [shapeCast_self]
  rw [addf_apply, mulf_apply, broadcast_apply, k0_pay1_at]
  have e : extractAt ![0, 0] x4 inpos_S1x1_p0_0 = x4 (ix2 (0 : Fin 1) (0 : Fin 1)) := by
    unfold extractAt
    refine congrArg x4 (funext fun a => Fin.ext ?_)
    match a with
    | ⟨0, _⟩ => rfl
    | ⟨1, _⟩ => rfl
  rw [e]

/-- The index maps, decided over the grid: at point `t` every row window's block is block row `t`, block column `0`,
    and the layer weight's block is the one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Every block row of the new features is some point's. -/
theorem idx_onto0_5 : ∀ q0 : Fin 20, ∃ t : Fin cfg0.N, win0_5.index t = ![q0.val, 0] :=
  (by decide +kernel : ∀ q0 : Fin 20, ∃ t : Fin grid0.N, win0_5.index t = ![q0.val, 0])

/-- Every block row of the new result is some point's. -/
theorem idx_onto0_6 : ∀ q0 : Fin 20, ∃ t : Fin cfg0.N, win0_6.index t = ![q0.val, 0] :=
  (by decide +kernel : ∀ q0 : Fin 20, ∃ t : Fin grid0.N, win0_6.index t = ![q0.val, 0])

/-- The whole new-features array as one function of the region's entry arrays. -/
abbrev G0_5 (a0 : S100000x1.Idx → Elt Ideal .f32) (a1 a2 : S100000x128.Idx → Elt Ideal .f32) :
    S100000x128.Idx → Elt Ideal .f32 :=
  fun i => a0 (ix2 (n0 := 100000) (i 0) (0 : Fin 1)) * a1 i
    + (Ideal.ofBits .f32 0x3F800000#32 - a0 (ix2 (n0 := 100000) (i 0) (0 : Fin 1))) * a2 i

/-- The whole new-result array as one function of the region's entry arrays. -/
abbrev G0_6 (a0 : S100000x1.Idx → Elt Ideal .f32) (a1 a2 a3 : S100000x128.Idx → Elt Ideal .f32) (a4 : S1x1.Idx → Elt Ideal .f32) :
    S100000x128.Idx → Elt Ideal .f32 :=
  fun i => a3 i + a4 (ix2 (0 : Fin 1) (0 : Fin 1)) * G0_5 a0 a1 a2 i

set_option maxHeartbeats 2000000 in
/-- What point `t` writes back to the new features is block `t` of `G0_5` of the entry arrays. -/
theorem flushed0_5_eq (c : Dev nD) (t : Fin cfg0.N) :
    (Hand.dat0 V c).flushed 5 t = ((cfg0.win 5).blk t).view.read (Elt Ideal) (G0_5 (V c (Pipeline.arrRef spec0 0)) (V c (Pipeline.arrRef spec0 1)) (V c (Pipeline.arrRef spec0 2))) := by
  show (cfg0.win 5).cut (grid0.coords t) ((Hand.dat0 V c).after 5 t) = _
  rw [Hand.after0_5]
  obtain ⟨e00, e01, e10, e11, e20, e21, e30, e31, e40, e41, e50, e51, e60, e61⟩ := idx_facts0 t
  funext j
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  refine (congrArg (Hand.out0_5 (Hand.iblk0 V c 0 t) (Hand.iblk0 V c 1 t) (Hand.iblk0 V c 2 t)) ej).trans ?_
  refine (out0_5_at (Hand.iblk0 V c 0 t) (Hand.iblk0 V c 1 t) (Hand.iblk0 V c 2 t) ⟨(j 0).val, hj0⟩ ⟨(j 1).val, hj1⟩).trans ?_
  show ((V c (Pipeline.arrRef spec0 0) (((cfg0.win 0).blk t).view.emb (ix2 (⟨(j 0).val, hj0⟩ : Fin 5000) (0 : Fin 1))) *ᵉ V c (Pipeline.arrRef spec0 1) (((cfg0.win 1).blk t).view.emb (ix2 (⟨(j 0).val, hj0⟩ : Fin 5000) (⟨(j 1).val, hj1⟩ : Fin 128)))) +ᵉ ((Ideal.ofBits .f32 0x3F800000#32 -ᵉ V c (Pipeline.arrRef spec0 0) (((cfg0.win 0).blk t).view.emb (ix2 (⟨(j 0).val, hj0⟩ : Fin 5000) (0 : Fin 1)))) *ᵉ V c (Pipeline.arrRef spec0 2) (((cfg0.win 2).blk t).view.emb (ix2 (⟨(j 0).val, hj0⟩ : Fin 5000) (⟨(j 1).val, hj1⟩ : Fin 128)))))
      = ((V c (Pipeline.arrRef spec0 0) (ix2 (n0 := 100000) ((((cfg0.win 5).blk t).view.emb j) 0) (0 : Fin 1)) *ᵉ V c (Pipeline.arrRef spec0 1) (((cfg0.win 5).blk t).view.emb j)) +ᵉ ((Ideal.ofBits .f32 0x3F800000#32 -ᵉ V c (Pipeline.arrRef spec0 0) (ix2 (n0 := 100000) ((((cfg0.win 5).blk t).view.emb j) 0) (0 : Fin 1))) *ᵉ V c (Pipeline.arrRef spec0 2) (((cfg0.win 5).blk t).view.emb j)))
  have h0 : ((cfg0.win 0).blk t).view.emb (ix2 (⟨(j 0).val, hj0⟩ : Fin 5000) (0 : Fin 1))
      = ix2 (n0 := 100000) ((((cfg0.win 5).blk t).view.emb j) 0) (0 : Fin 1) := by
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 1 + 1 * 0 = 0; omega
  have h1 : ((cfg0.win 1).blk t).view.emb (ix2 (⟨(j 0).val, hj0⟩ : Fin 5000) (⟨(j 1).val, hj1⟩ : Fin 128))
      = ((cfg0.win 5).blk t).view.emb j := by
    funext a; apply Fin.ext
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * (j 1).val = win0_5.index t (1 : Fin 2) * 128 + 1 * (j 1).val; omega
  have h2 : ((cfg0.win 2).blk t).view.emb (ix2 (⟨(j 0).val, hj0⟩ : Fin 5000) (⟨(j 1).val, hj1⟩ : Fin 128))
      = ((cfg0.win 5).blk t).view.emb j := by
    funext a; apply Fin.ext
    match a with
    | ⟨0, _⟩ => show win0_2.index t (0 : Fin 2) * 5000 + 1 * (j 0).val = win0_5.index t (0 : Fin 2) * 5000 + 1 * (j 0).val; omega
    | ⟨1, _⟩ => show win0_2.index t (1 : Fin 2) * 128 + 1 * (j 1).val = win0_5.index t (1 : Fin 2) * 128 + 1 * (j 1).val; omega
  rw [h0, h1, h2]

set_option maxHeartbeats 2000000 in
/-- What point `t` writes back to the new result is block `t` of `G0_6` of the entry arrays. -/
theorem flushed0_6_eq (c : Dev nD) (t : Fin cfg0.N) :
    (Hand.dat0 V c).flushed 6 t = ((cfg0.win 6).blk t).view.read (Elt Ideal) (G0_6 (V c (Pipeline.arrRef spec0 0)) (V c (Pipeline.arrRef spec0 1)) (V c (Pipeline.arrRef spec0 2)) (V c (Pipeline.arrRef spec0 3)) (V c (Pipeline.arrRef spec0 4))) := by
  show (cfg0.win 6).cut (grid0.coords t) ((Hand.dat0 V c).after 6 t) = _
  rw [Hand.after0_6]
  obtain ⟨e00, e01, e10, e11, e20, e21, e30, e31, e40, e41, e50, e51, e60, e61⟩ := idx_facts0 t
  funext j
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  refine (congrArg (Hand.out0_6 (Hand.iblk0 V c 0 t) (Hand.iblk0 V c 1 t) (Hand.iblk0 V c 2 t) (Hand.iblk0 V c 3 t) (Hand.iblk0 V c 4 t)) ej).trans ?_
  refine (out0_6_at (Hand.iblk0 V c 0 t) (Hand.iblk0 V c 1 t) (Hand.iblk0 V c 2 t) (Hand.iblk0 V c 3 t) (Hand.iblk0 V c 4 t) ⟨(j 0).val, hj0⟩ ⟨(j 1).val, hj1⟩).trans ?_
  show V c (Pipeline.arrRef spec0 3) (((cfg0.win 3).blk t).view.emb (ix2 (⟨(j 0).val, hj0⟩ : Fin 5000) (⟨(j 1).val, hj1⟩ : Fin 128))) +ᵉ (V c (Pipeline.arrRef spec0 4) (((cfg0.win 4).blk t).view.emb (ix2 (0 : Fin 1) (0 : Fin 1))) *ᵉ ((V c (Pipeline.arrRef spec0 0) (((cfg0.win 0).blk t).view.emb (ix2 (⟨(j 0).val, hj0⟩ : Fin 5000) (0 : Fin 1))) *ᵉ V c (Pipeline.arrRef spec0 1) (((cfg0.win 1).blk t).view.emb (ix2 (⟨(j 0).val, hj0⟩ : Fin 5000) (⟨(j 1).val, hj1⟩ : Fin 128)))) +ᵉ ((Ideal.ofBits .f32 0x3F800000#32 -ᵉ V c (Pipeline.arrRef spec0 0) (((cfg0.win 0).blk t).view.emb (ix2 (⟨(j 0).val, hj0⟩ : Fin 5000) (0 : Fin 1)))) *ᵉ V c (Pipeline.arrRef spec0 2) (((cfg0.win 2).blk t).view.emb (ix2 (⟨(j 0).val, hj0⟩ : Fin 5000) (⟨(j 1).val, hj1⟩ : Fin 128))))))
      = V c (Pipeline.arrRef spec0 3) (((cfg0.win 6).blk t).view.emb j) +ᵉ (V c (Pipeline.arrRef spec0 4) (ix2 (0 : Fin 1) (0 : Fin 1)) *ᵉ ((V c (Pipeline.arrRef spec0 0) (ix2 (n0 := 100000) ((((cfg0.win 6).blk t).view.emb j) 0) (0 : Fin 1)) *ᵉ V c (Pipeline.arrRef spec0 1) (((cfg0.win 6).blk t).view.emb j)) +ᵉ ((Ideal.ofBits .f32 0x3F800000#32 -ᵉ V c (Pipeline.arrRef spec0 0) (ix2 (n0 := 100000) ((((cfg0.win 6).blk t).view.emb j) 0) (0 : Fin 1))) *ᵉ V c (Pipeline.arrRef spec0 2) (((cfg0.win 6).blk t).view.emb j))))
  have h0 : ((cfg0.win 0).blk t).view.emb (ix2 (⟨(j 0).val, hj0⟩ : Fin 5000) (0 : Fin 1))
      = ix2 (n0 := 100000) ((((cfg0.win 6).blk t).view.emb j) 0) (0 : Fin 1) := by
    funext a; apply Fin.ext
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 1 + 1 * 0 = 0; omega
  have h1 : ((cfg0.win 1).blk t).view.emb (ix2 (⟨(j 0).val, hj0⟩ : Fin 5000) (⟨(j 1).val, hj1⟩ : Fin 128))
      = ((cfg0.win 6).blk t).view.emb j := by
    funext a; apply Fin.ext
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * (j 1).val = win0_6.index t (1 : Fin 2) * 128 + 1 * (j 1).val; omega
  have h2 : ((cfg0.win 2).blk t).view.emb (ix2 (⟨(j 0).val, hj0⟩ : Fin 5000) (⟨(j 1).val, hj1⟩ : Fin 128))
      = ((cfg0.win 6).blk t).view.emb j := by
    funext a; apply Fin.ext
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * (j 1).val = win0_6.index t (1 : Fin 2) * 128 + 1 * (j 1).val; omega
  have h3 : ((cfg0.win 3).blk t).view.emb (ix2 (⟨(j 0).val, hj0⟩ : Fin 5000) (⟨(j 1).val, hj1⟩ : Fin 128))
      = ((cfg0.win 6).blk t).view.emb j := by
    funext a; apply Fin.ext
    match a with
    | ⟨0, _⟩ => show win0_3.index t (0 : Fin 2) * 5000 + 1 * (j 0).val = win0_6.index t (0 : Fin 2) * 5000 + 1 * (j 0).val; omega
    | ⟨1, _⟩ => show win0_3.index t (1 : Fin 2) * 128 + 1 * (j 1).val = win0_6.index t (1 : Fin 2) * 128 + 1 * (j 1).val; omega
  have h4 : ((cfg0.win 4).blk t).view.emb (ix2 (0 : Fin 1) (0 : Fin 1)) = ix2 (0 : Fin 1) (0 : Fin 1) := by
    funext a; apply Fin.ext
    match a with
    | ⟨0, _⟩ => show win0_4.index t (0 : Fin 2) * 1 + 1 * 0 = 0; omega
    | ⟨1, _⟩ => show win0_4.index t (1 : Fin 2) * 1 + 1 * 0 = 0; omega
  rw [h0, h1, h2, h3, h4]

/-- An index of output 5's array is in point `t`'s block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Every index of output 5's array is in the block of the point its row falls in. -/
theorem cover0_5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0_5 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- An index of output 6's array is in point `t`'s block iff each coordinate is in the block's range on its axis. -/
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every index of output 6's array is in the block of the point its row falls in. -/
theorem cover0_6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto0_6 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0_6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The new-features array after the run is `G0_5` of the entry arrays. -/
theorem final0_5 (c : Dev nD) : (Hand.dat0 V c).arrAt 5 cfg0.N = G0_5 (V c (Pipeline.arrRef spec0 0)) (V c (Pipeline.arrRef spec0 1)) (V c (Pipeline.arrRef spec0 2)) :=
  (Hand.dat0 V c).arrAt_eq_of_cover 5 _ (fun t _ => flushed0_5_eq V c t) cover0_5

/-- The new-result array after the run is `G0_6` of the entry arrays. -/
theorem final0_6 (c : Dev nD) : (Hand.dat0 V c).arrAt 6 cfg0.N = G0_6 (V c (Pipeline.arrRef spec0 0)) (V c (Pipeline.arrRef spec0 1)) (V c (Pipeline.arrRef spec0 2)) (V c (Pipeline.arrRef spec0 3)) (V c (Pipeline.arrRef spec0 4)) :=
  (Hand.dat0 V c).arrAt_eq_of_cover 6 _ (fun t _ => flushed0_6_eq V c t) cover0_6

/-- The new features after region 0, entry by entry. -/
theorem hnew0_at (c : Dev nD) (p : Fin 100000) (q : Fin 128) :
    (Hand.dat0 V c).arrAt 5 cfg0.N (ix2 p q)
      = ((V c (Pipeline.arrRef spec0 0) (ix2 p (0 : Fin 1)) *ᵉ V c (Pipeline.arrRef spec0 1) (ix2 p q)) +ᵉ ((Ideal.ofBits .f32 0x3F800000#32 -ᵉ V c (Pipeline.arrRef spec0 0) (ix2 p (0 : Fin 1))) *ᵉ V c (Pipeline.arrRef spec0 2) (ix2 p q))) := by
  rw [final0_5]

/-- The new result after region 0, entry by entry. -/
theorem res0_at (c : Dev nD) (p : Fin 100000) (q : Fin 128) :
    (Hand.dat0 V c).arrAt 6 cfg0.N (ix2 p q)
      = V c (Pipeline.arrRef spec0 3) (ix2 p q) +ᵉ (V c (Pipeline.arrRef spec0 4) (ix2 (0 : Fin 1) (0 : Fin 1))
          *ᵉ ((V c (Pipeline.arrRef spec0 0) (ix2 p (0 : Fin 1)) *ᵉ V c (Pipeline.arrRef spec0 1) (ix2 p q)) +ᵉ ((Ideal.ofBits .f32 0x3F800000#32 -ᵉ V c (Pipeline.arrRef spec0 0) (ix2 p (0 : Fin 1))) *ᵉ V c (Pipeline.arrRef spec0 2) (ix2 p q)))) := by
  rw [final0_6]

end Region0

end Cert.KernelIdeal.Closed

end
-- ==== Proof.KI.Closed2.lean ====
/-
  Region 2's output arrays as whole-array functions of the region's entry contents, at the ideal values: the same kernel as
  region 0, on region 2's windows.
-/
import proofs.«119003_j2834678415702_1_alg».proof.Proof.KI.Closed
import proofs.«119003_j2834678415702_1_alg».proof.Proof.KI.Region2

set_option maxRecDepth 16384

noncomputable section

namespace Cert.KernelIdeal.Closed

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

local notation:70 a:70 " *ᵉ " b:71 => @HMul.hMul EReal EReal EReal _ a b
local notation:65 a:65 " +ᵉ " b:66 => @HAdd.hAdd EReal EReal EReal _ a b
local notation:65 a:65 " -ᵉ " b:66 => @HSub.hSub EReal EReal EReal _ a b

section Region2

/-- The first payload at a row `r` and lane `q`: the row's mask entry times the scattered row's entry, plus one minus
    the mask entry times the previous features' entry. -/
theorem k2_pay1_at (v0 : Vec Ideal S5000x1 .f32) (v2 v7 : Vec Ideal S5000x128 .f32) (r : Fin 5000) (q : Fin 128) :
    k2_pay1 v0 v2 v7 (ix2 r q)
      = v0 (ix2 r (0 : Fin 1)) * v2 (ix2 r q) + (Ideal.ofBits .f32 0x3F800000#32 - v0 (ix2 r (0 : Fin 1))) * v7 (ix2 r q) := by
  unfold k2_pay1
  simp only [shapeCast_self]
  rw [addf_apply, mulf_apply, mulf_apply, broadcastTo_a1_ab_apply, broadcastTo_a1_ab_apply, subf_apply, broadcast_apply]
  rfl

/-- The new-features buffer after the body, at a row and a lane. -/
theorem out2_5_at (x0 : Vec Ideal S5000x1 .f32) (x1 x2 : Vec Ideal S5000x128 .f32) (r : Fin 5000) (q : Fin 128) :
    Hand.out2_5 x0 x1 x2 (ix2 r q)
      = x0 (ix2 r (0 : Fin 1)) * x1 (ix2 r q) + (Ideal.ofBits .f32 0x3F800000#32 - x0 (ix2 r (0 : Fin 1))) * x2 (ix2 r q) := by
  unfold Hand.out2_5
  rw [View.canon_unit_zero hz]
  simp only [View.ld_unit_zero (S := S5000x1) hz, View.ld_unit_zero (S := S5000x128) hz]
  exact k2_pay1_at x0 x1 x2 r q

/-- The new-result buffer after the body, at a row and a lane: the previous result plus the layer weight times the new
    features. -/
theorem out2_6_at (x0 : Vec Ideal S5000x1 .f32) (x1 x2 x3 : Vec Ideal S5000x128 .f32) (x4 : Vec Ideal S1x1 .f32) (r : Fin 5000) (q : Fin 128) :
    Hand.out2_6 x0 x1 x2 x3 x4 (ix2 r q)
      = x3 (ix2 r q) + x4 (ix2 (0 : Fin 1) (0 : Fin 1))
          * (x0 (ix2 r (0 : Fin 1)) * x1 (ix2 r q) + (Ideal.ofBits .f32 0x3F800000#32 - x0 (ix2 r (0 : Fin 1))) * x2 (ix2 r q)) := by
  unfold Hand.out2_6
  rw [View.canon_unit_zero hz]
  simp only [View.ld_unit_zero (S := S5000x1) hz, View.ld_unit_zero (S := S5000x128) hz, View.ld_unit_zero (S := S1x1) hz]
  unfold k2_pay2
  simp only [shapeCast_self]
  rw [addf_apply, mulf_apply, broadcast_apply, k2_pay1_at]
  have e : extractAt ![0, 0] x4 inpos_S1x1_p0_0 = x4 (ix2 (0 : Fin 1) (0 : Fin 1)) := by
    unfold extractAt
    refine congrArg x4 (funext fun a => Fin.ext ?_)
    match a with
    | ⟨0, _⟩ => rfl
    | ⟨1, _⟩ => rfl
  rw [e]

/-- The index maps, decided over the grid: at point `t` every row window's block is block row `t`, block column `0`,
    and the layer weight's block is the one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Every block row of the new features is some point's. -/
theorem idx_onto2_5 : ∀ q0 : Fin 20, ∃ t : Fin cfg2.N, win2_5.index t = ![q0.val, 0] :=
  (by decide +kernel : ∀ q0 : Fin 20, ∃ t : Fin grid2.N, win2_5.index t = ![q0.val, 0])

/-- Every block row of the new result is some point's. -/
theorem idx_onto2_6 : ∀ q0 : Fin 20, ∃ t : Fin cfg2.N, win2_6.index t = ![q0.val, 0] :=
  (by decide +kernel : ∀ q0 : Fin 20, ∃ t : Fin grid2.N, win2_6.index t = ![q0.val, 0])

/-- The whole new-features array as one function of the region's entry arrays. -/
abbrev G2_5 (a0 : S100000x1.Idx → Elt Ideal .f32) (a1 a2 : S100000x128.Idx → Elt Ideal .f32) :
    S100000x128.Idx → Elt Ideal .f32 :=
  fun i => a0 (ix2 (n0 := 100000) (i 0) (0 : Fin 1)) * a1 i
    + (Ideal.ofBits .f32 0x3F800000#32 - a0 (ix2 (n0 := 100000) (i 0) (0 : Fin 1))) * a2 i

/-- The whole new-result array as one function of the region's entry arrays. -/
abbrev G2_6 (a0 : S100000x1.Idx → Elt Ideal .f32) (a1 a2 a3 : S100000x128.Idx → Elt Ideal .f32) (a4 : S1x1.Idx → Elt Ideal .f32) :
    S100000x128.Idx → Elt Ideal .f32 :=
  fun i => a3 i + a4 (ix2 (0 : Fin 1) (0 : Fin 1)) * G2_5 a0 a1 a2 i

set_option maxHeartbeats 2000000 in
/-- What point `t` writes back to the new features is block `t` of `G2_5` of the entry arrays. -/
theorem flushed2_5_eq (c : Dev nD) (t : Fin cfg2.N) :
    (Hand.dat2 V c).flushed 5 t = ((cfg2.win 5).blk t).view.read (Elt Ideal) (G2_5 (V c (Pipeline.arrRef spec2 0)) (V c (Pipeline.arrRef spec2 1)) (V c (Pipeline.arrRef spec2 2))) := by
  show (cfg2.win 5).cut (grid2.coords t) ((Hand.dat2 V c).after 5 t) = _
  rw [Hand.after2_5]
  obtain ⟨e00, e01, e10, e11, e20, e21, e30, e31, e40, e41, e50, e51, e60, e61⟩ := idx_facts2 t
  funext j
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  refine (congrArg (Hand.out2_5 (Hand.iblk2 V c 0 t) (Hand.iblk2 V c 1 t) (Hand.iblk2 V c 2 t)) ej).trans ?_
  refine (out2_5_at (Hand.iblk2 V c 0 t) (Hand.iblk2 V c 1 t) (Hand.iblk2 V c 2 t) ⟨(j 0).val, hj0⟩ ⟨(j 1).val, hj1⟩).trans ?_
  show ((V c (Pipeline.arrRef spec2 0) (((cfg2.win 0).blk t).view.emb (ix2 (⟨(j 0).val, hj0⟩ : Fin 5000) (0 : Fin 1))) *ᵉ V c (Pipeline.arrRef spec2 1) (((cfg2.win 1).blk t).view.emb (ix2 (⟨(j 0).val, hj0⟩ : Fin 5000) (⟨(j 1).val, hj1⟩ : Fin 128)))) +ᵉ ((Ideal.ofBits .f32 0x3F800000#32 -ᵉ V c (Pipeline.arrRef spec2 0) (((cfg2.win 0).blk t).view.emb (ix2 (⟨(j 0).val, hj0⟩ : Fin 5000) (0 : Fin 1)))) *ᵉ V c (Pipeline.arrRef spec2 2) (((cfg2.win 2).blk t).view.emb (ix2 (⟨(j 0).val, hj0⟩ : Fin 5000) (⟨(j 1).val, hj1⟩ : Fin 128)))))
      = ((V c (Pipeline.arrRef spec2 0) (ix2 (n0 := 100000) ((((cfg2.win 5).blk t).view.emb j) 0) (0 : Fin 1)) *ᵉ V c (Pipeline.arrRef spec2 1) (((cfg2.win 5).blk t).view.emb j)) +ᵉ ((Ideal.ofBits .f32 0x3F800000#32 -ᵉ V c (Pipeline.arrRef spec2 0) (ix2 (n0 := 100000) ((((cfg2.win 5).blk t).view.emb j) 0) (0 : Fin 1))) *ᵉ V c (Pipeline.arrRef spec2 2) (((cfg2.win 5).blk t).view.emb j)))
  have h0 : ((cfg2.win 0).blk t).view.emb (ix2 (⟨(j 0).val, hj0⟩ : Fin 5000) (0 : Fin 1))
      = ix2 (n0 := 100000) ((((cfg2.win 5).blk t).view.emb j) 0) (0 : Fin 1) := by
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 1 + 1 * 0 = 0; omega
  have h1 : ((cfg2.win 1).blk t).view.emb (ix2 (⟨(j 0).val, hj0⟩ : Fin 5000) (⟨(j 1).val, hj1⟩ : Fin 128))
      = ((cfg2.win 5).blk t).view.emb j := by
    funext a; apply Fin.ext
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * (j 1).val = win2_5.index t (1 : Fin 2) * 128 + 1 * (j 1).val; omega
  have h2 : ((cfg2.win 2).blk t).view.emb (ix2 (⟨(j 0).val, hj0⟩ : Fin 5000) (⟨(j 1).val, hj1⟩ : Fin 128))
      = ((cfg2.win 5).blk t).view.emb j := by
    funext a; apply Fin.ext
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 128 + 1 * (j 1).val = win2_5.index t (1 : Fin 2) * 128 + 1 * (j 1).val; omega
  rw [h0, h1, h2]

set_option maxHeartbeats 2000000 in
/-- What point `t` writes back to the new result is block `t` of `G2_6` of the entry arrays. -/
theorem flushed2_6_eq (c : Dev nD) (t : Fin cfg2.N) :
    (Hand.dat2 V c).flushed 6 t = ((cfg2.win 6).blk t).view.read (Elt Ideal) (G2_6 (V c (Pipeline.arrRef spec2 0)) (V c (Pipeline.arrRef spec2 1)) (V c (Pipeline.arrRef spec2 2)) (V c (Pipeline.arrRef spec2 3)) (V c (Pipeline.arrRef spec2 4))) := by
  show (cfg2.win 6).cut (grid2.coords t) ((Hand.dat2 V c).after 6 t) = _
  rw [Hand.after2_6]
  obtain ⟨e00, e01, e10, e11, e20, e21, e30, e31, e40, e41, e50, e51, e60, e61⟩ := idx_facts2 t
  funext j
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  refine (congrArg (Hand.out2_6 (Hand.iblk2 V c 0 t) (Hand.iblk2 V c 1 t) (Hand.iblk2 V c 2 t) (Hand.iblk2 V c 3 t) (Hand.iblk2 V c 4 t)) ej).trans ?_
  refine (out2_6_at (Hand.iblk2 V c 0 t) (Hand.iblk2 V c 1 t) (Hand.iblk2 V c 2 t) (Hand.iblk2 V c 3 t) (Hand.iblk2 V c 4 t) ⟨(j 0).val, hj0⟩ ⟨(j 1).val, hj1⟩).trans ?_
  show V c (Pipeline.arrRef spec2 3) (((cfg2.win 3).blk t).view.emb (ix2 (⟨(j 0).val, hj0⟩ : Fin 5000) (⟨(j 1).val, hj1⟩ : Fin 128))) +ᵉ (V c (Pipeline.arrRef spec2 4) (((cfg2.win 4).blk t).view.emb (ix2 (0 : Fin 1) (0 : Fin 1))) *ᵉ ((V c (Pipeline.arrRef spec2 0) (((cfg2.win 0).blk t).view.emb (ix2 (⟨(j 0).val, hj0⟩ : Fin 5000) (0 : Fin 1))) *ᵉ V c (Pipeline.arrRef spec2 1) (((cfg2.win 1).blk t).view.emb (ix2 (⟨(j 0).val, hj0⟩ : Fin 5000) (⟨(j 1).val, hj1⟩ : Fin 128)))) +ᵉ ((Ideal.ofBits .f32 0x3F800000#32 -ᵉ V c (Pipeline.arrRef spec2 0) (((cfg2.win 0).blk t).view.emb (ix2 (⟨(j 0).val, hj0⟩ : Fin 5000) (0 : Fin 1)))) *ᵉ V c (Pipeline.arrRef spec2 2) (((cfg2.win 2).blk t).view.emb (ix2 (⟨(j 0).val, hj0⟩ : Fin 5000) (⟨(j 1).val, hj1⟩ : Fin 128))))))
      = V c (Pipeline.arrRef spec2 3) (((cfg2.win 6).blk t).view.emb j) +ᵉ (V c (Pipeline.arrRef spec2 4) (ix2 (0 : Fin 1) (0 : Fin 1)) *ᵉ ((V c (Pipeline.arrRef spec2 0) (ix2 (n0 := 100000) ((((cfg2.win 6).blk t).view.emb j) 0) (0 : Fin 1)) *ᵉ V c (Pipeline.arrRef spec2 1) (((cfg2.win 6).blk t).view.emb j)) +ᵉ ((Ideal.ofBits .f32 0x3F800000#32 -ᵉ V c (Pipeline.arrRef spec2 0) (ix2 (n0 := 100000) ((((cfg2.win 6).blk t).view.emb j) 0) (0 : Fin 1))) *ᵉ V c (Pipeline.arrRef spec2 2) (((cfg2.win 6).blk t).view.emb j))))
  have h0 : ((cfg2.win 0).blk t).view.emb (ix2 (⟨(j 0).val, hj0⟩ : Fin 5000) (0 : Fin 1))
      = ix2 (n0 := 100000) ((((cfg2.win 6).blk t).view.emb j) 0) (0 : Fin 1) := by
    funext a; apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 1 + 1 * 0 = 0; omega
  have h1 : ((cfg2.win 1).blk t).view.emb (ix2 (⟨(j 0).val, hj0⟩ : Fin 5000) (⟨(j 1).val, hj1⟩ : Fin 128))
      = ((cfg2.win 6).blk t).view.emb j := by
    funext a; apply Fin.ext
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 128 + 1 * (j 1).val = win2_6.index t (1 : Fin 2) * 128 + 1 * (j 1).val; omega
  have h2 : ((cfg2.win 2).blk t).view.emb (ix2 (⟨(j 0).val, hj0⟩ : Fin 5000) (⟨(j 1).val, hj1⟩ : Fin 128))
      = ((cfg2.win 6).blk t).view.emb j := by
    funext a; apply Fin.ext
    match a with
    | ⟨0, _⟩ => show win2_2.index t (0 : Fin 2) * 5000 + 1 * (j 0).val = win2_6.index t (0 : Fin 2) * 5000 + 1 * (j 0).val; omega
    | ⟨1, _⟩ => show win2_2.index t (1 : Fin 2) * 128 + 1 * (j 1).val = win2_6.index t (1 : Fin 2) * 128 + 1 * (j 1).val; omega
  have h3 : ((cfg2.win 3).blk t).view.emb (ix2 (⟨(j 0).val, hj0⟩ : Fin 5000) (⟨(j 1).val, hj1⟩ : Fin 128))
      = ((cfg2.win 6).blk t).view.emb j := by
    funext a; apply Fin.ext
    match a with
    | ⟨0, _⟩ => show win2_3.index t (0 : Fin 2) * 5000 + 1 * (j 0).val = win2_6.index t (0 : Fin 2) * 5000 + 1 * (j 0).val; omega
    | ⟨1, _⟩ => show win2_3.index t (1 : Fin 2) * 128 + 1 * (j 1).val = win2_6.index t (1 : Fin 2) * 128 + 1 * (j 1).val; omega
  have h4 : ((cfg2.win 4).blk t).view.emb (ix2 (0 : Fin 1) (0 : Fin 1)) = ix2 (0 : Fin 1) (0 : Fin 1) := by
    funext a; apply Fin.ext
    match a with
    | ⟨0, _⟩ => show win2_4.index t (0 : Fin 2) * 1 + 1 * 0 = 0; omega
    | ⟨1, _⟩ => show win2_4.index t (1 : Fin 2) * 1 + 1 * 0 = 0; omega
  rw [h0, h1, h2, h3, h4]

/-- An index of output 5's array is in point `t`'s block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Every index of output 5's array is in the block of the point its row falls in. -/
theorem cover2_5 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2_5 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- An index of output 6's array is in point `t`'s block iff each coordinate is in the block's range on its axis. -/
theorem mem_blk2_6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every index of output 6's array is in the block of the point its row falls in. -/
theorem cover2_6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := idx_onto2_6 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The new-features array after the run is `G2_5` of the entry arrays. -/
theorem final2_5 (c : Dev nD) : (Hand.dat2 V c).arrAt 5 cfg2.N = G2_5 (V c (Pipeline.arrRef spec2 0)) (V c (Pipeline.arrRef spec2 1)) (V c (Pipeline.arrRef spec2 2)) :=
  (Hand.dat2 V c).arrAt_eq_of_cover 5 _ (fun t _ => flushed2_5_eq V c t) cover2_5

/-- The new-result array after the run is `G2_6` of the entry arrays. -/
theorem final2_6 (c : Dev nD) : (Hand.dat2 V c).arrAt 6 cfg2.N = G2_6 (V c (Pipeline.arrRef spec2 0)) (V c (Pipeline.arrRef spec2 1)) (V c (Pipeline.arrRef spec2 2)) (V c (Pipeline.arrRef spec2 3)) (V c (Pipeline.arrRef spec2 4)) :=
  (Hand.dat2 V c).arrAt_eq_of_cover 6 _ (fun t _ => flushed2_6_eq V c t) cover2_6

/-- The new features after region 0, entry by entry. -/
theorem hnew2_at (c : Dev nD) (p : Fin 100000) (q : Fin 128) :
    (Hand.dat2 V c).arrAt 5 cfg2.N (ix2 p q)
      = ((V c (Pipeline.arrRef spec2 0) (ix2 p (0 : Fin 1)) *ᵉ V c (Pipeline.arrRef spec2 1) (ix2 p q)) +ᵉ ((Ideal.ofBits .f32 0x3F800000#32 -ᵉ V c (Pipeline.arrRef spec2 0) (ix2 p (0 : Fin 1))) *ᵉ V c (Pipeline.arrRef spec2 2) (ix2 p q))) := by
  rw [final2_5]

/-- The new result after region 0, entry by entry. -/
theorem res2_at (c : Dev nD) (p : Fin 100000) (q : Fin 128) :
    (Hand.dat2 V c).arrAt 6 cfg2.N (ix2 p q)
      = V c (Pipeline.arrRef spec2 3) (ix2 p q) +ᵉ (V c (Pipeline.arrRef spec2 4) (ix2 (0 : Fin 1) (0 : Fin 1))
          *ᵉ ((V c (Pipeline.arrRef spec2 0) (ix2 p (0 : Fin 1)) *ᵉ V c (Pipeline.arrRef spec2 1) (ix2 p q)) +ᵉ ((Ideal.ofBits .f32 0x3F800000#32 -ᵉ V c (Pipeline.arrRef spec2 0) (ix2 p (0 : Fin 1))) *ᵉ V c (Pipeline.arrRef spec2 2) (ix2 p q)))) := by
  rw [final2_6]

end Region2
end Cert.KernelIdeal.Closed

end
-- ==== Proof.KI.Closed3.lean ====
/-
  Region 3's output arrays as whole-array functions of the region's entry contents, at the ideal values: the same kernel as
  region 1, on region 3's windows.
-/
import proofs.«119003_j2834678415702_1_alg».proof.Proof.KI.Closed
import proofs.«119003_j2834678415702_1_alg».proof.Proof.KI.Region3

set_option maxRecDepth 16384

noncomputable section

namespace Cert.KernelIdeal.Closed

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

local notation:70 a:70 " *ᵉ " b:71 => @HMul.hMul EReal EReal EReal _ a b
local notation:65 a:65 " +ᵉ " b:66 => @HAdd.hAdd EReal EReal EReal _ a b
local notation:65 a:65 " -ᵉ " b:66 => @HSub.hSub EReal EReal EReal _ a b

section Region3

/-- The body's result at a row `r` and lane `q` of the block: the three column entries of the row, multiplied in
    order, times the gathered row's entry at the lane. -/
theorem out3_4_at (x0 x1 x2 : Vec Ideal S6400x1 .f32) (x3 : Vec Ideal S6400x128 .f32) (r : Fin 6400) (q : Fin 128) :
    Hand.out3_4 x0 x1 x2 x3 (ix2 r q)
      = ((x0 (ix2 r (0 : Fin 1)) * x1 (ix2 r (0 : Fin 1))) * x2 (ix2 r (0 : Fin 1))) * x3 (ix2 r q) := by
  unfold Hand.out3_4
  rw [View.canon_unit_zero hz]
  simp only [View.ld_unit_zero (S := S6400x1) hz, View.ld_unit_zero (S := S6400x128) hz]
  unfold k3_pay1
  simp only [shapeCast_self]
  rw [mulf_apply, broadcastTo_a1_ab_apply, mulf_apply, mulf_apply]

/-- The index maps, decided over the grid: at point `t` every window's block is block row `t`, block column `0`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Every block row of the output is some point's. -/
theorem idx_onto3 : ∀ q0 : Fin 250, ∃ t : Fin cfg3.N, win3_4.index t = ![q0.val, 0] :=
  (by decide +kernel : ∀ q0 : Fin 250, ∃ t : Fin grid3.N, win3_4.index t = ![q0.val, 0])

/-- The whole output array as one function of the region's entry arrays: at row `p`, lane `q`, the three columns'
    entries of row `p`, multiplied in order, times the gathered rows' entry. -/
abbrev G3 (a0 a1 a2 : S1600000x1.Idx → Elt Ideal .f32) (a3 : S1600000x128.Idx → Elt Ideal .f32) :
    S1600000x128.Idx → Elt Ideal .f32 :=
  fun i => ((a0 (ix2 (n0 := 1600000) (i 0) (0 : Fin 1)) * a1 (ix2 (n0 := 1600000) (i 0) (0 : Fin 1)))
    * a2 (ix2 (n0 := 1600000) (i 0) (0 : Fin 1))) * a3 i

set_option maxHeartbeats 2000000 in
/-- What point `t` writes back is block `t` of `G3` of the entry arrays. -/
theorem flushed3_eq (c : Dev nD) (t : Fin cfg3.N) :
    (Hand.dat3 V c).flushed 4 t = ((cfg3.win 4).blk t).view.read (Elt Ideal)
      (G3 (V c (Pipeline.arrRef spec3 0)) (V c (Pipeline.arrRef spec3 1)) (V c (Pipeline.arrRef spec3 2)) (V c (Pipeline.arrRef spec3 3))) := by
  show (cfg3.win 4).cut (grid3.coords t) ((Hand.dat3 V c).after 4 t) = _
  rw [Hand.after3_4]
  obtain ⟨e00, e01, e10, e11, e20, e21, e30, e31, e40, e41⟩ := idx_facts3 t
  funext j
  have hj0 : (j 0).val < 6400 := (j 0).isLt
  have hj1 : (j 1).val < 128 := (j 1).isLt
  have ej : j = ix2 (⟨(j 0).val, hj0⟩ : Fin 6400) (⟨(j 1).val, hj1⟩ : Fin 128) := by
    funext a; match a with | ⟨0, _⟩ => rfl | ⟨1, _⟩ => rfl
  refine (congrArg (Hand.out3_4 (Hand.iblk3 V c 0 t) (Hand.iblk3 V c 1 t) (Hand.iblk3 V c 2 t) (Hand.iblk3 V c 3 t)) ej).trans ?_
  refine (out3_4_at (Hand.iblk3 V c 0 t) (Hand.iblk3 V c 1 t) (Hand.iblk3 V c 2 t) (Hand.iblk3 V c 3 t) ⟨(j 0).val, hj0⟩ ⟨(j 1).val, hj1⟩).trans ?_
  show ((V c (Pipeline.arrRef spec3 0) (((cfg3.win 0).blk t).view.emb (ix2 (⟨(j 0).val, hj0⟩ : Fin 6400) (0 : Fin 1))) *ᵉ V c (Pipeline.arrRef spec3 1) (((cfg3.win 1).blk t).view.emb (ix2 (⟨(j 0).val, hj0⟩ : Fin 6400) (0 : Fin 1)))) *ᵉ V c (Pipeline.arrRef spec3 2) (((cfg3.win 2).blk t).view.emb (ix2 (⟨(j 0).val, hj0⟩ : Fin 6400) (0 : Fin 1)))) *ᵉ V c (Pipeline.arrRef spec3 3) (((cfg3.win 3).blk t).view.emb (ix2 (⟨(j 0).val, hj0⟩ : Fin 6400) (⟨(j 1).val, hj1⟩ : Fin 128)))
      = ((V c (Pipeline.arrRef spec3 0) (ix2 (n0 := 1600000) ((((cfg3.win 4).blk t).view.emb j) 0) (0 : Fin 1)) *ᵉ V c (Pipeline.arrRef spec3 1) (ix2 (n0 := 1600000) ((((cfg3.win 4).blk t).view.emb j) 0) (0 : Fin 1))) *ᵉ V c (Pipeline.arrRef spec3 2) (ix2 (n0 := 1600000) ((((cfg3.win 4).blk t).view.emb j) 0) (0 : Fin 1))) *ᵉ V c (Pipeline.arrRef spec3 3) (((cfg3.win 4).blk t).view.emb j)
  have h0 : ((cfg3.win 0).blk t).view.emb (ix2 (⟨(j 0).val, hj0⟩ : Fin 6400) (0 : Fin 1))
      = ix2 (n0 := 1600000) ((((cfg3.win 4).blk t).view.emb j) 0) (0 : Fin 1) := by
    funext a; apply Fin.ext
    match a with
    | ⟨0, _⟩ => show win3_0.index t (0 : Fin 2) * 6400 + 1 * (j 0).val = win3_4.index t (0 : Fin 2) * 6400 + 1 * (j 0).val; omega
    | ⟨1, _⟩ => show win3_0.index t (1 : Fin 2) * 1 + 1 * 0 = 0; omega
  have h1 : ((cfg3.win 1).blk t).view.emb (ix2 (⟨(j 0).val, hj0⟩ : Fin 6400) (0 : Fin 1))
      = ix2 (n0 := 1600000) ((((cfg3.win 4).blk t).view.emb j) 0) (0 : Fin 1) := by
    funext a; apply Fin.ext
    match a with
    | ⟨0, _⟩ => show win3_1.index t (0 : Fin 2) * 6400 + 1 * (j 0).val = win3_4.index t (0 : Fin 2) * 6400 + 1 * (j 0).val; omega
    | ⟨1, _⟩ => show win3_1.index t (1 : Fin 2) * 1 + 1 * 0 = 0; omega
  have h2 : ((cfg3.win 2).blk t).view.emb (ix2 (⟨(j 0).val, hj0⟩ : Fin 6400) (0 : Fin 1))
      = ix2 (n0 := 1600000) ((((cfg3.win 4).blk t).view.emb j) 0) (0 : Fin 1) := by
    funext a; apply Fin.ext
    match a with
    | ⟨0, _⟩ => show win3_2.index t (0 : Fin 2) * 6400 + 1 * (j 0).val = win3_4.index t (0 : Fin 2) * 6400 + 1 * (j 0).val; omega
    | ⟨1, _⟩ => show win3_2.index t (1 : Fin 2) * 1 + 1 * 0 = 0; omega
  have h3 : ((cfg3.win 3).blk t).view.emb (ix2 (⟨(j 0).val, hj0⟩ : Fin 6400) (⟨(j 1).val, hj1⟩ : Fin 128))
      = ((cfg3.win 4).blk t).view.emb j := by
    funext a; apply Fin.ext
    match a with
    | ⟨0, _⟩ => show win3_3.index t (0 : Fin 2) * 6400 + 1 * (j 0).val = win3_4.index t (0 : Fin 2) * 6400 + 1 * (j 0).val; omega
    | ⟨1, _⟩ => show win3_3.index t (1 : Fin 2) * 128 + 1 * (j 1).val = win3_4.index t (1 : Fin 2) * 128 + 1 * (j 1).val; omega
  rw [h0, h1, h2, h3]

/-- An index of the output array is in point `t`'s block iff each coordinate is in the block's range on its axis. -/
theorem mem_blk3 (t : Fin cfg3.N) (i : S1600000x128.Idx) :
    i ∈ ((cfg3.win 4).blk t).view.set ↔ ∀ a : Fin 2, win3_4.index t a * S6400x128.size a ≤ (i a).val ∧ (i a).val < win3_4.index t a * S6400x128.size a + S6400x128.size a := by
  show i ∈ ((View.whole (Pipeline.arrRef spec3 4)).slice (win3_4.rect t)).set ↔ _
  rw [View.set_slice_whole, Rect.mem_set_unit]
  exact Iff.rfl

/-- Every index of the output array is in the block of the point its row falls in. -/
theorem cover3 (i : S1600000x128.Idx) : ∃ t : Fin cfg3.N, (cfg3.win 4).flush t = true ∧ i ∈ ((cfg3.win 4).blk t).view.set := by
  have hi0 : (i 0).val < 1600000 := (i 0).isLt
  have hi1 : (i 1).val < 128 := (i 1).isLt
  obtain ⟨t, ht⟩ := idx_onto3 ⟨(i 0).val / 6400, by omega⟩
  have q0 : win3_4.index t (0 : Fin 2) = (i 0).val / 6400 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 6400 ≤ (i 0).val ∧ (i 0).val < win3_4.index t (0 : Fin 2) * 6400 + 6400; omega
  | ⟨1, _⟩ => show win3_4.index t (1 : Fin 2) * 128 ≤ (i 1).val ∧ (i 1).val < win3_4.index t (1 : Fin 2) * 128 + 128; omega

/-- The output array after the run is `G3` of the entry arrays. -/
theorem final3 (c : Dev nD) :
    (Hand.dat3 V c).arrAt 4 cfg3.N
      = G3 (V c (Pipeline.arrRef spec3 0)) (V c (Pipeline.arrRef spec3 1)) (V c (Pipeline.arrRef spec3 2)) (V c (Pipeline.arrRef spec3 3)) :=
  (Hand.dat3 V c).arrAt_eq_of_cover 4 _ (fun t _ => flushed3_eq V c t) cover3

/-- The message array after region 1, entry by entry. -/
theorem msg3_at (c : Dev nD) (p : Fin 1600000) (q : Fin 128) :
    (Hand.dat3 V c).arrAt 4 cfg3.N (ix2 p q)
      = ((V c (Pipeline.arrRef spec3 0) (ix2 p (0 : Fin 1)) *ᵉ V c (Pipeline.arrRef spec3 1) (ix2 p (0 : Fin 1))) *ᵉ V c (Pipeline.arrRef spec3 2) (ix2 p (0 : Fin 1))) *ᵉ V c (Pipeline.arrRef spec3 3) (ix2 p q) := by
  rw [final3]

end Region3
end Cert.KernelIdeal.Closed

end
-- ==== Proof.KI.Closed4.lean ====
/-
  Region 4's output arrays as whole-array functions of the region's entry contents, at the ideal values: the same kernel as
  region 0, on region 4's windows.
-/
import proofs.«119003_j2834678415702_1_alg».proof.Proof.KI.Closed
import proofs.«119003_j2834678415702_1_alg».proof.Proof.KI.Region4

set_option maxRecDepth 16384

noncomputable section

namespace Cert.KernelIdeal.Closed

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

local notation:70 a:70 " *ᵉ " b:71 => @HMul.hMul EReal EReal EReal _ a b
local notation:65 a:65 " +ᵉ " b:66 => @HAdd.hAdd EReal EReal EReal _ a b
local notation:65 a:65 " -ᵉ " b:66 => @HSub.hSub EReal EReal EReal _ a b

section Region4

/-- The first payload at a row `r` and lane `q`: the row's mask entry times the scattered row's entry, plus one minus
    the mask entry times the previous features' entry. -/
theorem k4_pay1_at (v0 : Vec Ideal S5000x1 .f32) (v2 v7 : Vec Ideal S5000x128 .f32) (r : Fin 5000) (q : Fin 128) :
    k4_pay1 v0 v2 v7 (ix2 r q)
      = v0 (ix2 r (0 : Fin 1)) * v2 (ix2 r q) + (Ideal.ofBits .f32 0x3F800000#32 - v0 (ix2 r (0 : Fin 1))) * v7 (ix2 r q) := by
  unfold k4_pay1
  simp only [shapeCast_self]
  rw [addf_apply, mulf_apply, mulf_apply, broadcastTo_a1_ab_apply, broadcastTo_a1_ab_apply, subf_apply, broadcast_apply]
  rfl

/-- The new-features buffer after the body, at a row and a lane. -/
theorem out4_5_at (x0 : Vec Ideal S5000x1 .f32) (x1 x2 : Vec Ideal S5000x128 .f32) (r : Fin 5000) (q : Fin 128) :
    Hand.out4_5 x0 x1 x2 (ix2 r q)
      = x0 (ix2 r (0 : Fin 1)) * x1 (ix2 r q) + (Ideal.ofBits .f32 0x3F800000#32 - x0 (ix2 r (0 : Fin 1))) * x2 (ix2 r q) := by
  unfold Hand.out4_5
  rw [View.canon_unit_zero hz]
  simp only [View.ld_unit_zero (S := S5000x1) hz, View.ld_unit_zero (S := S5000x128) hz]
  exact k4_pay1_at x0 x1 x2 r q

/-- The new-result buffer after the body, at a row and a lane: the previous result plus the layer weight times the new
    features. -/
theorem out4_6_at (x0 : Vec Ideal S5000x1 .f32) (x1 x2 x3 : Vec Ideal S5000x128 .f32) (x4 : Vec Ideal S1x1 .f32) (r : Fin 5000) (q : Fin 128) :
    Hand.out4_6 x0 x1 x2 x3 x4 (ix2 r q)
      = x3 (ix2 r q) + x4 (ix2 (0 : Fin 1) (0 : Fin 1))
          * (x0 (ix2 r (0 : Fin 1)) * x1 (ix2 r q) + (Ideal.ofBits .f32 0x3F800000#32 - x0 (ix2 r (0 : Fin 1))) * x2 (ix2 r q)) := by
  unfold Hand.out4_6
  rw [View.canon_unit_zero hz]
  simp only [View.ld_unit_zero (S := S5000x1) hz, View.ld_unit_zero (S := S5000x128) hz, View.ld_unit_zero (S := S1x1) hz]
  unfold k4_pay2
  simp only [shapeCast_self]
  rw [addf_apply, mulf_apply, broadcast_apply, k4_pay1_at]
  have e : extractAt ![0, 0] x4 inpos_S1x1_p0_0 = x4 (ix2 (0 : Fin 1) (0 : Fin 1)) := by
    unfold extractAt
    refine congrArg x4 (funext fun a => Fin.ext ?_)
    match a with
    | ⟨0, _⟩ => rfl
    | ⟨1, _⟩ => rfl
  rw [e]

/-- The index maps, decided over the grid: at point `t` every row window's block is block row `t`, block column `0`,
    and the layer weight's block is the one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- Every block row of the new features is some point's. -/
theorem idx_onto4_5 : ∀ q0 : Fin 20, ∃ t : Fin cfg4.N, win4_5.index t = ![q0.val, 0] :=
  (by decide +kernel : ∀ q0 : Fin 20, ∃ t : Fin grid4.N, win4_5.index t = ![q0.val, 0])

/-- Every block row of the new result is some point's. -/
theorem idx_onto4_6 : ∀ q0 : Fin 20, ∃ t : Fin cfg4.N, win4_6.index t = ![q0.val, 0] :=
  (by decide +kernel : ∀ q0 : Fin 20, ∃ t : Fin grid4.N, win4_6.index t = ![q0.val, 0])

/-- The whole new-features array as one function of the region's entry arrays. -/
abbrev G4_5 (a0 : S100000x1.Idx → Elt Ideal .f32) (a1 a2 : S100000x128.Idx → Elt Ideal .f32) :
    S100000x128.Idx → Elt Ideal .f32 :=
  fun i => a0 (ix2 (n0 := 100000) (i 0) (0 : Fin 1)) * a1 i
    + (Ideal.ofBits .f32 0x3F800000#32 - a0 (ix2 (n0 := 100000) (i 0) (0 : Fin 1))) * a2 i

/-- The whole new-result array as one function of the region's entry arrays. -/
abbrev G4_6 (a0 : S100000x1.Idx → Elt Ideal .f32) (a1 a2 a3 : S100000x128.Idx → Elt Ideal .f32) (a4 : S1x1.Idx → Elt Ideal .f32) :
    S100000x128.Idx → Elt Ideal .f32 :=
  fun i => a3 i + a4 (ix2 (0 : Fin 1) (0 : Fin 1)) * G4_5 a0 a1 a2 i

set_option maxHeartbeats 2000000 in
/-- What point `t` writes back to the new features is block `t` of `G4_5` of the entry arrays. -/
theorem flushed4_5_eq (c : Dev nD) (t : Fin cfg4.N) :
    (Hand.dat4 V c).flushed 5 t = ((cfg4.win 5).blk t).view.read (Elt Ideal) (G4_5 (V c (Pipeline.arrRef spec4 0)) (V c (Pipeline.arrRef spec4 1)) (V c (Pipeline.arrRef spec4 2))) := by
  show (cfg4.win 5).cut (grid4.coords t) ((Hand.dat4 V c).after 5 t) = _
  rw [Hand.after4_5]
  obtain ⟨e00, e01, e10, e11, e20, e21, e30, e31, e40, e41, e50, e51, e60, e61⟩ := idx_facts4 t
  funext j
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  refine (congrArg (Hand.out4_5 (Hand.iblk4 V c 0 t) (Hand.iblk4 V c 1 t) (Hand.iblk4 V c 2 t)) ej).trans ?_
  refine (out4_5_at (Hand.iblk4 V c 0 t) (Hand.iblk4 V c 1 t) (Hand.iblk4 V c 2 t) ⟨(j 0).val, hj0⟩ ⟨(j 1).val, hj1⟩).trans ?_
  show ((V c (Pipeline.arrRef spec4 0) (((cfg4.win 0).blk t).view.emb (ix2 (⟨(j 0).val, hj0⟩ : Fin 5000) (0 : Fin 1))) *ᵉ V c (Pipeline.arrRef spec4 1) (((cfg4.win 1).blk t).view.emb (ix2 (⟨(j 0).val, hj0⟩ : Fin 5000) (⟨(j 1).val, hj1⟩ : Fin 128)))) +ᵉ ((Ideal.ofBits .f32 0x3F800000#32 -ᵉ V c (Pipeline.arrRef spec4 0) (((cfg4.win 0).blk t).view.emb (ix2 (⟨(j 0).val, hj0⟩ : Fin 5000) (0 : Fin 1)))) *ᵉ V c (Pipeline.arrRef spec4 2) (((cfg4.win 2).blk t).view.emb (ix2 (⟨(j 0).val, hj0⟩ : Fin 5000) (⟨(j 1).val, hj1⟩ : Fin 128)))))
      = ((V c (Pipeline.arrRef spec4 0) (ix2 (n0 := 100000) ((((cfg4.win 5).blk t).view.emb j) 0) (0 : Fin 1)) *ᵉ V c (Pipeline.arrRef spec4 1) (((cfg4.win 5).blk t).view.emb j)) +ᵉ ((Ideal.ofBits .f32 0x3F800000#32 -ᵉ V c (Pipeline.arrRef spec4 0) (ix2 (n0 := 100000) ((((cfg4.win 5).blk t).view.emb j) 0) (0 : Fin 1))) *ᵉ V c (Pipeline.arrRef spec4 2) (((cfg4.win 5).blk t).view.emb j)))
  have h0 : ((cfg4.win 0).blk t).view.emb (ix2 (⟨(j 0).val, hj0⟩ : Fin 5000) (0 : Fin 1))
      = ix2 (n0 := 100000) ((((cfg4.win 5).blk t).view.emb j) 0) (0 : Fin 1) := by
    funext a; apply Fin.ext
    match a with
    | ⟨0, _⟩ => show win4_0.index t (0 : Fin 2) * 5000 + 1 * (j 0).val = win4_5.index t (0 : Fin 2) * 5000 + 1 * (j 0).val; omega
    | ⟨1, _⟩ => show win4_0.index t (1 : Fin 2) * 1 + 1 * 0 = 0; omega
  have h1 : ((cfg4.win 1).blk t).view.emb (ix2 (⟨(j 0).val, hj0⟩ : Fin 5000) (⟨(j 1).val, hj1⟩ : Fin 128))
      = ((cfg4.win 5).blk t).view.emb j := by
    funext a; apply Fin.ext
    match a with
    | ⟨0, _⟩ => show win4_1.index t (0 : Fin 2) * 5000 + 1 * (j 0).val = win4_5.index t (0 : Fin 2) * 5000 + 1 * (j 0).val; omega
    | ⟨1, _⟩ => show win4_1.index t (1 : Fin 2) * 128 + 1 * (j 1).val = win4_5.index t (1 : Fin 2) * 128 + 1 * (j 1).val; omega
  have h2 : ((cfg4.win 2).blk t).view.emb (ix2 (⟨(j 0).val, hj0⟩ : Fin 5000) (⟨(j 1).val, hj1⟩ : Fin 128))
      = ((cfg4.win 5).blk t).view.emb j := by
    funext a; apply Fin.ext
    match a with
    | ⟨0, _⟩ => show win4_2.index t (0 : Fin 2) * 5000 + 1 * (j 0).val = win4_5.index t (0 : Fin 2) * 5000 + 1 * (j 0).val; omega
    | ⟨1, _⟩ => show win4_2.index t (1 : Fin 2) * 128 + 1 * (j 1).val = win4_5.index t (1 : Fin 2) * 128 + 1 * (j 1).val; omega
  rw [h0, h1, h2]

set_option maxHeartbeats 2000000 in
/-- What point `t` writes back to the new result is block `t` of `G4_6` of the entry arrays. -/
theorem flushed4_6_eq (c : Dev nD) (t : Fin cfg4.N) :
    (Hand.dat4 V c).flushed 6 t = ((cfg4.win 6).blk t).view.read (Elt Ideal) (G4_6 (V c (Pipeline.arrRef spec4 0)) (V c (Pipeline.arrRef spec4 1)) (V c (Pipeline.arrRef spec4 2)) (V c (Pipeline.arrRef spec4 3)) (V c (Pipeline.arrRef spec4 4))) := by
  show (cfg4.win 6).cut (grid4.coords t) ((Hand.dat4 V c).after 6 t) = _
  rw [Hand.after4_6]
  obtain ⟨e00, e01, e10, e11, e20, e21, e30, e31, e40, e41, e50, e51, e60, e61⟩ := idx_facts4 t
  funext j
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  refine (congrArg (Hand.out4_6 (Hand.iblk4 V c 0 t) (Hand.iblk4 V c 1 t) (Hand.iblk4 V c 2 t) (Hand.iblk4 V c 3 t) (Hand.iblk4 V c 4 t)) ej).trans ?_
  refine (out4_6_at (Hand.iblk4 V c 0 t) (Hand.iblk4 V c 1 t) (Hand.iblk4 V c 2 t) (Hand.iblk4 V c 3 t) (Hand.iblk4 V c 4 t) ⟨(j 0).val, hj0⟩ ⟨(j 1).val, hj1⟩).trans ?_
  show V c (Pipeline.arrRef spec4 3) (((cfg4.win 3).blk t).view.emb (ix2 (⟨(j 0).val, hj0⟩ : Fin 5000) (⟨(j 1).val, hj1⟩ : Fin 128))) +ᵉ (V c (Pipeline.arrRef spec4 4) (((cfg4.win 4).blk t).view.emb (ix2 (0 : Fin 1) (0 : Fin 1))) *ᵉ ((V c (Pipeline.arrRef spec4 0) (((cfg4.win 0).blk t).view.emb (ix2 (⟨(j 0).val, hj0⟩ : Fin 5000) (0 : Fin 1))) *ᵉ V c (Pipeline.arrRef spec4 1) (((cfg4.win 1).blk t).view.emb (ix2 (⟨(j 0).val, hj0⟩ : Fin 5000) (⟨(j 1).val, hj1⟩ : Fin 128)))) +ᵉ ((Ideal.ofBits .f32 0x3F800000#32 -ᵉ V c (Pipeline.arrRef spec4 0) (((cfg4.win 0).blk t).view.emb (ix2 (⟨(j 0).val, hj0⟩ : Fin 5000) (0 : Fin 1)))) *ᵉ V c (Pipeline.arrRef spec4 2) (((cfg4.win 2).blk t).view.emb (ix2 (⟨(j 0).val, hj0⟩ : Fin 5000) (⟨(j 1).val, hj1⟩ : Fin 128))))))
      = V c (Pipeline.arrRef spec4 3) (((cfg4.win 6).blk t).view.emb j) +ᵉ (V c (Pipeline.arrRef spec4 4) (ix2 (0 : Fin 1) (0 : Fin 1)) *ᵉ ((V c (Pipeline.arrRef spec4 0) (ix2 (n0 := 100000) ((((cfg4.win 6).blk t).view.emb j) 0) (0 : Fin 1)) *ᵉ V c (Pipeline.arrRef spec4 1) (((cfg4.win 6).blk t).view.emb j)) +ᵉ ((Ideal.ofBits .f32 0x3F800000#32 -ᵉ V c (Pipeline.arrRef spec4 0) (ix2 (n0 := 100000) ((((cfg4.win 6).blk t).view.emb j) 0) (0 : Fin 1))) *ᵉ V c (Pipeline.arrRef spec4 2) (((cfg4.win 6).blk t).view.emb j))))
  have h0 : ((cfg4.win 0).blk t).view.emb (ix2 (⟨(j 0).val, hj0⟩ : Fin 5000) (0 : Fin 1))
      = ix2 (n0 := 100000) ((((cfg4.win 6).blk t).view.emb j) 0) (0 : Fin 1) := by
    funext a; apply Fin.ext
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 1 + 1 * 0 = 0; omega
  have h1 : ((cfg4.win 1).blk t).view.emb (ix2 (⟨(j 0).val, hj0⟩ : Fin 5000) (⟨(j 1).val, hj1⟩ : Fin 128))
      = ((cfg4.win 6).blk t).view.emb j := by
    funext a; apply Fin.ext
    match a with
    | ⟨0, _⟩ => show win4_1.index t (0 : Fin 2) * 5000 + 1 * (j 0).val = win4_6.index t (0 : Fin 2) * 5000 + 1 * (j 0).val; omega
    | ⟨1, _⟩ => show win4_1.index t (1 : Fin 2) * 128 + 1 * (j 1).val = win4_6.index t (1 : Fin 2) * 128 + 1 * (j 1).val; omega
  have h2 : ((cfg4.win 2).blk t).view.emb (ix2 (⟨(j 0).val, hj0⟩ : Fin 5000) (⟨(j 1).val, hj1⟩ : Fin 128))
      = ((cfg4.win 6).blk t).view.emb j := by
    funext a; apply Fin.ext
    match a with
    | ⟨0, _⟩ => show win4_2.index t (0 : Fin 2) * 5000 + 1 * (j 0).val = win4_6.index t (0 : Fin 2) * 5000 + 1 * (j 0).val; omega
    | ⟨1, _⟩ => show win4_2.index t (1 : Fin 2) * 128 + 1 * (j 1).val = win4_6.index t (1 : Fin 2) * 128 + 1 * (j 1).val; omega
  have h3 : ((cfg4.win 3).blk t).view.emb (ix2 (⟨(j 0).val, hj0⟩ : Fin 5000) (⟨(j 1).val, hj1⟩ : Fin 128))
      = ((cfg4.win 6).blk t).view.emb j := by
    funext a; apply Fin.ext
    match a with
    | ⟨0, _⟩ => show win4_3.index t (0 : Fin 2) * 5000 + 1 * (j 0).val = win4_6.index t (0 : Fin 2) * 5000 + 1 * (j 0).val; omega
    | ⟨1, _⟩ => show win4_3.index t (1 : Fin 2) * 128 + 1 * (j 1).val = win4_6.index t (1 : Fin 2) * 128 + 1 * (j 1).val; omega
  have h4 : ((cfg4.win 4).blk t).view.emb (ix2 (0 : Fin 1) (0 : Fin 1)) = ix2 (0 : Fin 1) (0 : Fin 1) := by
    funext a; apply Fin.ext
    match a with
    | ⟨0, _⟩ => show win4_4.index t (0 : Fin 2) * 1 + 1 * 0 = 0; omega
    | ⟨1, _⟩ => show win4_4.index t (1 : Fin 2) * 1 + 1 * 0 = 0; omega
  rw [h0, h1, h2, h3, h4]

/-- An index of output 5's array is in point `t`'s block iff each coordinate is in the block's range on its axis. -/
theorem mem_blk4_5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole (Pipeline.arrRef spec4 5)).slice (win4_5.rect t)).set ↔ _
  rw [View.set_slice_whole, Rect.mem_set_unit]
  exact Iff.rfl

/-- Every index of output 5's array is in the block of the point its row falls in. -/
theorem cover4_5 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ := idx_onto4_5 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- An index of output 6's array is in point `t`'s block iff each coordinate is in the block's range on its axis. -/
theorem mem_blk4_6 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- Every index of output 6's array is in the block of the point its row falls in. -/
theorem cover4_6 (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  obtain ⟨t, ht⟩ := idx_onto4_6 ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk4_6]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The new-features array after the run is `G4_5` of the entry arrays. -/
theorem final4_5 (c : Dev nD) : (Hand.dat4 V c).arrAt 5 cfg4.N = G4_5 (V c (Pipeline.arrRef spec4 0)) (V c (Pipeline.arrRef spec4 1)) (V c (Pipeline.arrRef spec4 2)) :=
  (Hand.dat4 V c).arrAt_eq_of_cover 5 _ (fun t _ => flushed4_5_eq V c t) cover4_5

/-- The new-result array after the run is `G4_6` of the entry arrays. -/
theorem final4_6 (c : Dev nD) : (Hand.dat4 V c).arrAt 6 cfg4.N = G4_6 (V c (Pipeline.arrRef spec4 0)) (V c (Pipeline.arrRef spec4 1)) (V c (Pipeline.arrRef spec4 2)) (V c (Pipeline.arrRef spec4 3)) (V c (Pipeline.arrRef spec4 4)) :=
  (Hand.dat4 V c).arrAt_eq_of_cover 6 _ (fun t _ => flushed4_6_eq V c t) cover4_6

/-- The new features after region 0, entry by entry. -/
theorem hnew4_at (c : Dev nD) (p : Fin 100000) (q : Fin 128) :
    (Hand.dat4 V c).arrAt 5 cfg4.N (ix2 p q)
      = ((V c (Pipeline.arrRef spec4 0) (ix2 p (0 : Fin 1)) *ᵉ V c (Pipeline.arrRef spec4 1) (ix2 p q)) +ᵉ ((Ideal.ofBits .f32 0x3F800000#32 -ᵉ V c (Pipeline.arrRef spec4 0) (ix2 p (0 : Fin 1))) *ᵉ V c (Pipeline.arrRef spec4 2) (ix2 p q))) := by
  rw [final4_5]

/-- The new result after region 0, entry by entry. -/
theorem res4_at (c : Dev nD) (p : Fin 100000) (q : Fin 128) :
    (Hand.dat4 V c).arrAt 6 cfg4.N (ix2 p q)
      = V c (Pipeline.arrRef spec4 3) (ix2 p q) +ᵉ (V c (Pipeline.arrRef spec4 4) (ix2 (0 : Fin 1) (0 : Fin 1))
          *ᵉ ((V c (Pipeline.arrRef spec4 0) (ix2 p (0 : Fin 1)) *ᵉ V c (Pipeline.arrRef spec4 1) (ix2 p q)) +ᵉ ((Ideal.ofBits .f32 0x3F800000#32 -ᵉ V c (Pipeline.arrRef spec4 0) (ix2 p (0 : Fin 1))) *ᵉ V c (Pipeline.arrRef spec4 2) (ix2 p q)))) := by
  rw [final4_6]

end Region4
end Cert.KernelIdeal.Closed

end
-- ==== Proof.LibColumnsInDim.lean ====
/-
  Column layouts read by coordinates, for any element type: a vector placed as an [a, 1] column (by a broadcast along a
  new unit axis or by a cast), an [a, 1] column spread along the lanes of an [a, b] array, and a scalar cast to a 1x1 array.
-/
import Idealize.ShloMosaic.Lib.Pipeline.Value
import Idealize.ShloMosaic.Lib.ValueIdx

namespace Cert.LibColumnsInDim

open Idealize.ShloMosaic Idealize.ShloMosaic.ValueIdx

variable {α : Type}

/-- A vector of length `a` broadcast in dimension 0 to an `[a, 1]` column reads, at `(p, 0)`, the vector's entry `p`. -/
theorem broadcastInDim_a_a1_apply {a : ℕ} (x : (⟨1, ![a]⟩ : Shape).Idx → α)
    (h : (⟨1, ![a]⟩ : Shape).BroadcastsInDim ⟨2, ![a, 1]⟩ ![0]) (p : Fin a) :
    broadcastInDim ⟨2, ![a, 1]⟩ ![0] h x (ix2 p (0 : Fin 1)) = x (ix1 p) := by
  refine broadcastInDim_apply ![0] h x (ix2 p (0 : Fin 1)) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, q)`, the column's entry of row `p`. -/
theorem broadcastInDim_a1_ab_apply {a b : ℕ} (y : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h y (ix2 p q) = y (ix2 p (0 : Fin 1)) := by
  refine broadcastInDim_apply ![0, 1] h y (ix2 p q) (ix2 p (0 : Fin 1)) fun ax => ?_
  match ax with
  | ⟨0, _⟩ =>
    show p.val = if a = 1 then 0 else p.val
    split
    · have := p.isLt; omega
    · rfl
  | ⟨1, _⟩ => rfl

/-- A vector of length `a` cast to an `[a, 1]` column reads, at `(p, 0)`, the vector's entry `p`. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

/-- A scalar (a rank-0 array) cast to any shape reads the scalar wherever it is read. -/
theorem shapeCast_of_scalar_apply {t : Shape} (s : (⟨0, ![]⟩ : Shape).Idx → α) (h : (⟨0, ![]⟩ : Shape).ShapeCasts t) (j : t.Idx) :
    shapeCast t s h j = s ix0 := by
  unfold shapeCast
  exact congrArg s (eq_ix0 _)

end Cert.LibColumnsInDim
-- ==== Proof.Bridge.lean ====
/-
  The two programs compute one function. At the ideal values (floats are extended reals, operations exact) the kernel
  program's regions compute, entry by entry:
    * region 0:  new features = 1 · x + (1 - 1) · x = x  (the features themselves) and  result = 0 + a₀ · x;
    * the message regions:  (d (row e) · val e) · d (col e) · h (col e), which is the reference's per-edge message
      (the reference multiplies the three per-edge scalars first and spreads the product along the lanes);
    * the combine regions:  μ · s + (1 - μ) · h  with μ the row mask read as the number 0 or 1 — the scattered row s where the
      mask is set, the previous row h elsewhere, which is the reference's selection — and  result + aₖ · (new features).
  On the extended reals 0 · y = 0 and y + 0 = y hold for EVERY y (infinite ones included), so no finiteness of the inputs is
  used. The stretches of host operations between the regions are the reference's own stage functions (gathers, the segment
  sum, the scatter by index, the softmax weights), applied to equal operands.
-/
import proofs.«119003_j2834678415702_1_alg».proof.Proof.KI.Entries
import proofs.«119003_j2834678415702_1_alg».proof.Proof.KI.Closed
import proofs.«119003_j2834678415702_1_alg».proof.Proof.KI.Closed2
import proofs.«119003_j2834678415702_1_alg».proof.Proof.KI.Closed3
import proofs.«119003_j2834678415702_1_alg».proof.Proof.KI.Closed4
import proofs.«119003_j2834678415702_1_alg».proof.Proof.LibColumnsInDim
import Idealize.ShloMosaic.Lib.IdealHost

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.LibColumnsInDim Idealize.ShloMosaic.ValueIdx

local notation:70 a:70 " *ᵉ " b:71 => @HMul.hMul EReal EReal EReal _ a b
local notation:65 a:65 " +ᵉ " b:66 => @HAdd.hAdd EReal EReal EReal _ a b
local notation:65 a:65 " -ᵉ " b:66 => @HSub.hSub EReal EReal EReal _ a b

/-! ## On the extended reals -/

/-- One minus one is zero on the extended reals. -/
theorem one_sub_one : ((1 : EReal) - 1) = 0 := by
  rw [show (1 : EReal) = ((1 : ℝ) : EReal) from rfl, ← EReal.coe_sub, sub_self, EReal.coe_zero]

/-- With the mask at one everywhere the blend returns its first operand: 1 · y + (1 - 1) · y = y, for every extended real y. -/
theorem blend_one (y : EReal) : (1 : EReal) * y + ((1 : EReal) - 1) * y = y := by
  rw [one_sub_one, zero_mul, add_zero, one_mul]

/-- The mask bit read as the number 0 or 1 blends to the selection: b · s + (1 - b) · h is s where the bit is set and h elsewhere,
    for every pair of extended reals. -/
theorem blend_bit (b : BitVec 1) (s h : EReal) :
    (((b.toNat : ℝ) : EReal)) * s + ((1 : EReal) - (((b.toNat : ℝ) : EReal))) * h = Scalar.select b s h := by
  have hb : b = 0#1 ∨ b = 1#1 := by revert b; decide
  rcases hb with rfl | rfl
  · have h0 : (((0#1 : BitVec 1).toNat : ℝ) : EReal) = 0 := by simp
    rw [h0, zero_mul, sub_zero, one_mul, zero_add]; rfl
  · have h1 : (((1#1 : BitVec 1).toNat : ℝ) : EReal) = 1 := by simp
    rw [h1, one_sub_one, zero_mul, add_zero, one_mul]; rfl

/-! ## The regions' arithmetic, entry by entry, against the reference's stage functions -/

/-- Region 0's blend under the all-ones mask column returns the features' entry. -/
theorem ones_pt (y : EReal) (p : Fin 100000) :
    (broadcastInDim S100000x1 ![] bcast_S_S100000x1 (constant (F := Ideal) S_ .f32 0x3F800000#32) (ix2 p (0 : Fin 1)) *ᵉ y)
      +ᵉ ((Ideal.ofBits .f32 0x3F800000#32 -ᵉ broadcastInDim S100000x1 ![] bcast_S_S100000x1 (constant (F := Ideal) S_ .f32 0x3F800000#32) (ix2 p (0 : Fin 1))) *ᵉ y) = y := by
  rw [broadcastInDim_scalar_apply, constant_apply, Closed.one_eq]
  exact blend_one y

/-- Region 0's result: zero plus the first weight times the features' entry is the reference's first term. -/
theorem res0_pt (f : FVec Ideal S100000x128 .f32) (s : FVec Ideal S_ .f32) (p : Fin 100000) (q : Fin 128) :
    broadcastInDim S100000x128 ![] bcast_S_S100000x128 (constant (F := Ideal) S_ .f32 0x00000000#32) (ix2 p q)
      +ᵉ (shapeCast S1x1 s shapeCasts_S_S1x1 (ix2 (0 : Fin 1) (0 : Fin 1)) *ᵉ f (ix2 p q))
    = mulf (broadcastInDim S100000x128 ![] bcast_S_S100000x128 s) f (ix2 p q) := by
  rw [broadcastInDim_scalar_apply, constant_apply, Ideal.ofBits_zero_f32, zero_add, mulf_apply, broadcastInDim_scalar_apply,
    shapeCast_of_scalar_apply]

/-- A later combine region's result: the previous result plus the layer weight times the new features' entry. -/
theorem res_pt (r h' : FVec Ideal S100000x128 .f32) (s : FVec Ideal S_ .f32) (p : Fin 100000) (q : Fin 128) (x : EReal)
    (hx : x = h' (ix2 p q)) :
    r (ix2 p q) +ᵉ (shapeCast S1x1 s shapeCasts_S_S1x1 (ix2 (0 : Fin 1) (0 : Fin 1)) *ᵉ x)
    = addf r (mulf (broadcastInDim S100000x128 ![] bcast_S_S100000x128 s) h') (ix2 p q) := by
  rw [addf_apply, mulf_apply, broadcastInDim_scalar_apply, shapeCast_of_scalar_apply, hx]

/-- A message region's entry is the reference's per-edge message: the three per-edge scalars multiplied in the same order, the
    product spread along the lanes, times the gathered row's entry. -/
theorem msg_pt (g1 ev' g2 : FVec Ideal S1600000 .f32) (hg : FVec Ideal S1600000x128 .f32) (p : Fin 1600000) (q : Fin 128) :
    ((shapeCast S1600000x1 g1 shapeCasts_S1600000_S1600000x1 (ix2 p (0 : Fin 1))
        *ᵉ shapeCast S1600000x1 ev' shapeCasts_S1600000_S1600000x1 (ix2 p (0 : Fin 1)))
      *ᵉ shapeCast S1600000x1 g2 shapeCasts_S1600000_S1600000x1 (ix2 p (0 : Fin 1))) *ᵉ hg (ix2 p q)
    = Cert.ReferenceIdeal.Staged.edgeMsg (F := Ideal) (mulf (mulf g1 ev') g2) hg (ix2 p q) := by
  unfold Cert.ReferenceIdeal.Staged.edgeMsg
  rw [mulf_apply, broadcastInDim_a1_ab_apply, broadcastInDim_a_a1_apply, mulf_apply, mulf_apply,
    shapeCast_a_a1_apply, shapeCast_a_a1_apply, shapeCast_a_a1_apply]

/-- A later combine region's blend under the row mask read as a number is the reference's selection by the mask. -/
theorem keep_pt (cov : IVec S100000 1) (sc h : FVec Ideal S100000x128 .f32) (p : Fin 100000) (q : Fin 128) :
    (broadcastInDim S100000x1 ![0] bcast_S100000_S100000x1_0 (uitofp (F := Ideal) .f32 cov) (ix2 p (0 : Fin 1)) *ᵉ sc (ix2 p q))
      +ᵉ ((Ideal.ofBits .f32 0x3F800000#32 -ᵉ broadcastInDim S100000x1 ![0] bcast_S100000_S100000x1_0 (uitofp (F := Ideal) .f32 cov) (ix2 p (0 : Fin 1))) *ᵉ h (ix2 p q))
    = Cert.ReferenceIdeal.Staged.keepOf (F := Ideal) cov sc h (ix2 p q) := by
  unfold Cert.ReferenceIdeal.Staged.keepOf
  rw [broadcastInDim_a_a1_apply, Closed.one_eq, select_apply, broadcastInDim_a1_ab_apply, broadcastInDim_a_a1_apply]
  exact blend_bit (cov (ix1 p)) (sc (ix2 p q)) (h (ix2 p q))

/-! ## The chain through the five regions -/

variable (m : (ℓ : Loc nD τ sig) → Buf (Elt Ideal) ℓ) (c : Dev nD)

/-- Region 0 leaves the features as its new features, -/
theorem h0_eq : (dat0 (E0 m) c).arrAt 5 cfg0.N = (m ((c : Thread nD τ).loc main_arg0)) := by
  funext j
  obtain ⟨p, q, rfl⟩ : ∃ (p : Fin 100000) (q : Fin 128), j = ix2 p q := ⟨j 0, j 1, eq_ix2 j⟩
  have e0 : E0 m c (Pipeline.arrRef spec0 0) = _ := W3_v46 m c
  have e1 : E0 m c (Pipeline.arrRef spec0 1) = (m ((c : Thread nD τ).loc main_arg0)) := W3_arg m c main_arg0 (by decide) (by decide) (by decide)
  rw [Closed.hnew0_at (E0 m) c p q, e0, e1]
  exact ones_pt _ p

/-- and the first weight times the features as its new result. -/
theorem r0_eq : (dat0 (E0 m) c).arrAt 6 cfg0.N = mulf (Cert.ReferenceIdeal.Staged.wgt0 (Cert.ReferenceIdeal.Staged.aW (F := Ideal) (m ((c : Thread nD τ).loc main_arg5)))) (m ((c : Thread nD τ).loc main_arg0)) := by
  funext j
  obtain ⟨p, q, rfl⟩ : ∃ (p : Fin 100000) (q : Fin 128), j = ix2 p q := ⟨j 0, j 1, eq_ix2 j⟩
  have e0 : E0 m c (Pipeline.arrRef spec0 0) = _ := W3_v46 m c
  have e1 : E0 m c (Pipeline.arrRef spec0 1) = (m ((c : Thread nD τ).loc main_arg0)) := W3_arg m c main_arg0 (by decide) (by decide) (by decide)
  have e3 : E0 m c (Pipeline.arrRef spec0 3) = _ := W3_v47 m c
  have e4 : E0 m c (Pipeline.arrRef spec0 4) = _ := W3_v50 m c
  rw [Closed.res0_at (E0 m) c p q, e0, e1, e3, e4, ones_pt _ p]
  exact res0_pt _ _ p q

/-- Region 1 leaves the reference's per-edge messages of the features. -/
theorem msg1_eq : (dat1 (E1 m) c).arrAt 4 cfg1.N = Cert.ReferenceIdeal.Staged.edgeMsg (F := Ideal) (Cert.ReferenceIdeal.Staged.vals (F := Ideal) (m ((c : Thread nD τ).loc main_arg1)) (m ((c : Thread nD τ).loc main_arg2)) (m ((c : Thread nD τ).loc main_arg3))) (Cert.ReferenceIdeal.Staged.gatherRows (m ((c : Thread nD τ).loc main_arg2)) (m ((c : Thread nD τ).loc main_arg0))) := by
  funext j
  obtain ⟨p, q, rfl⟩ : ∃ (p : Fin 1600000) (q : Fin 128), j = ix2 p q := ⟨j 0, j 1, eq_ix2 j⟩
  have e0 : E1 m c (Pipeline.arrRef spec1 0) = _ := (W5_W3 m c main_v22 (by decide) (by decide)).trans (W3_v22 m c)
  have e1 : E1 m c (Pipeline.arrRef spec1 1) = _ := (W5_W3 m c main_v24 (by decide) (by decide)).trans (W3_v24 m c)
  have e2 : E1 m c (Pipeline.arrRef spec1 2) = _ := (W5_W3 m c main_v23 (by decide) (by decide)).trans (W3_v23 m c)
  have e3 : E1 m c (Pipeline.arrRef spec1 3) = _ := E1_v58 m c
  rw [Closed.msg1_at (E1 m) c p q, e0, e1, e2, e3, h0_eq m c]
  exact msg_pt _ _ _ _ p q

/-- Region 2 leaves the reference's layer output as its new features, -/
theorem h2_eq : (dat2 (E2 m) c).arrAt 5 cfg2.N = (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (m ((c : Thread nD τ).loc main_arg0))) := by
  funext j
  obtain ⟨p, q, rfl⟩ : ∃ (p : Fin 100000) (q : Fin 128), j = ix2 p q := ⟨j 0, j 1, eq_ix2 j⟩
  have e0 : E2 m c (Pipeline.arrRef spec2 0) = _ := (W7_W3 m c main_v45 (by decide) (by decide) (by decide) (by decide)).trans (W3_v45 m c)
  have e1 : E2 m c (Pipeline.arrRef spec2 1) = _ := E2_v70 m c
  have e2 : E2 m c (Pipeline.arrRef spec2 2) = _ := W7_v51_0 m c
  rw [Closed.hnew2_at (E2 m) c p q, e0, e1, e2, msg1_eq m c, h0_eq m c]
  exact keep_pt _ _ _ p q

/-- and the running weighted sum as its new result. -/
theorem r2_eq : (dat2 (E2 m) c).arrAt 6 cfg2.N = addf (mulf (Cert.ReferenceIdeal.Staged.wgt0 (Cert.ReferenceIdeal.Staged.aW (F := Ideal) (m ((c : Thread nD τ).loc main_arg5)))) (m ((c : Thread nD τ).loc main_arg0))) (mulf (Cert.ReferenceIdeal.Staged.wgt1 (Cert.ReferenceIdeal.Staged.aW (F := Ideal) (m ((c : Thread nD τ).loc main_arg5)))) (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (m ((c : Thread nD τ).loc main_arg0)))) := by
  funext j
  obtain ⟨p, q, rfl⟩ : ∃ (p : Fin 100000) (q : Fin 128), j = ix2 p q := ⟨j 0, j 1, eq_ix2 j⟩
  have e3 : E2 m c (Pipeline.arrRef spec2 3) = _ := W7_v51_1 m c
  have e4 : E2 m c (Pipeline.arrRef spec2 4) = _ := E2_v73 m c
  rw [Closed.res2_at (E2 m) c p q, ← Closed.hnew2_at (E2 m) c p q, e3, e4, r0_eq m c]
  exact res_pt _ _ _ p q _ (congrFun (h2_eq m c) (ix2 p q))

/-- Region 3 leaves the reference's per-edge messages of the first layer's output. -/
theorem msg3_eq : (dat3 (E3 m) c).arrAt 4 cfg3.N = Cert.ReferenceIdeal.Staged.edgeMsg (F := Ideal) (Cert.ReferenceIdeal.Staged.vals (F := Ideal) (m ((c : Thread nD τ).loc main_arg1)) (m ((c : Thread nD τ).loc main_arg2)) (m ((c : Thread nD τ).loc main_arg3))) (Cert.ReferenceIdeal.Staged.gatherRows (m ((c : Thread nD τ).loc main_arg2)) (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (m ((c : Thread nD τ).loc main_arg0)))) := by
  funext j
  obtain ⟨p, q, rfl⟩ : ∃ (p : Fin 1600000) (q : Fin 128), j = ix2 p q := ⟨j 0, j 1, eq_ix2 j⟩
  have e0 : E3 m c (Pipeline.arrRef spec3 0) = _ := (W9_v22 m c).trans (W3_v22 m c)
  have e1 : E3 m c (Pipeline.arrRef spec3 1) = _ := (W9_v24 m c).trans (W3_v24 m c)
  have e2 : E3 m c (Pipeline.arrRef spec3 2) = _ := (W9_v23 m c).trans (W3_v23 m c)
  have e3 : E3 m c (Pipeline.arrRef spec3 3) = _ := E3_v81 m c
  rw [Closed.msg3_at (E3 m) c p q, e0, e1, e2, e3, h2_eq m c]
  exact msg_pt _ _ _ _ p q

/-- Region 4 leaves the reference's layer output as its new features, -/
theorem h4_eq : (dat4 (E4 m) c).arrAt 5 cfg4.N = (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (m ((c : Thread nD τ).loc main_arg0)))) := by
  funext j
  obtain ⟨p, q, rfl⟩ : ∃ (p : Fin 100000) (q : Fin 128), j = ix2 p q := ⟨j 0, j 1, eq_ix2 j⟩
  have e0 : E4 m c (Pipeline.arrRef spec4 0) = _ := (W11_v45 m c).trans (W3_v45 m c)
  have e1 : E4 m c (Pipeline.arrRef spec4 1) = _ := E4_v93 m c
  have e2 : E4 m c (Pipeline.arrRef spec4 2) = _ := W11_v74_0 m c
  rw [Closed.hnew4_at (E4 m) c p q, e0, e1, e2, msg3_eq m c, h2_eq m c]
  exact keep_pt _ _ _ p q

/-- and the running weighted sum as its new result. -/
theorem r4_eq : (dat4 (E4 m) c).arrAt 6 cfg4.N = addf (addf (mulf (Cert.ReferenceIdeal.Staged.wgt0 (Cert.ReferenceIdeal.Staged.aW (F := Ideal) (m ((c : Thread nD τ).loc main_arg5)))) (m ((c : Thread nD τ).loc main_arg0))) (mulf (Cert.ReferenceIdeal.Staged.wgt1 (Cert.ReferenceIdeal.Staged.aW (F := Ideal) (m ((c : Thread nD τ).loc main_arg5)))) (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (m ((c : Thread nD τ).loc main_arg0))))) (mulf (Cert.ReferenceIdeal.Staged.wgt2 (Cert.ReferenceIdeal.Staged.aW (F := Ideal) (m ((c : Thread nD τ).loc main_arg5)))) (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (Cert.ReferenceIdeal.Staged.layer (F := Ideal) (m ((c : Thread nD τ).loc main_arg1)) (m ((c : Thread nD τ).loc main_arg2)) (m ((c : Thread nD τ).loc main_arg4)) (Cert.ReferenceIdeal.Staged.vals (F := Ideal) (m ((c : Thread nD τ).loc main_arg1)) (m ((c : Thread nD τ).loc main_arg2)) (m ((c : Thread nD τ).loc main_arg3))) (m ((c : Thread nD τ).loc main_arg0))))) := by
  funext j
  obtain ⟨p, q, rfl⟩ : ∃ (p : Fin 100000) (q : Fin 128), j = ix2 p q := ⟨j 0, j 1, eq_ix2 j⟩
  have e3 : E4 m c (Pipeline.arrRef spec4 3) = _ := W11_v74_1 m c
  have e4 : E4 m c (Pipeline.arrRef spec4 4) = _ := E4_v96 m c
  rw [Closed.res4_at (E4 m) c p q, ← Closed.hnew4_at (E4 m) c p q, e3, e4, r2_eq m c]
  exact res_pt _ _ _ p q _ (congrFun (h4_eq m c) (ix2 p q))

/-- THE BRIDGE: what the kernel program leaves in its result array is the reference's value of the arguments. -/
theorem result_eq : (dat4 (E4 m) c).arrAt 6 cfg4.N
    = Cert.ReferenceIdeal.Staged.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  r4_eq m c

end Cert.KernelIdeal.Bridge

end
-- ==== Proof.lean ====
/-
  The claim: the kernel program and its idealization run to the end without a fault and leave their arguments unchanged, the
  reference program likewise, the idealization rewrote nothing, and at the ideal values (floats are extended reals, operations
  exact) the idealized kernel program and the reference, run from memories that agree on the arguments, leave equal result arrays.

  The program is a two-layer graph message passing with a softmax-weighted layer sum: with x the features, (row, col, val) the
  edges, d = deg^(-1/2) where the degree is positive and 0 elsewhere, v e = d (row e) · val e · d (col e), and μ the mask of the rows
  the index vector names, one layer is  h ↦ (μ-rows from scatter-by-index (segment-sum-by-row (v e · h (col e))), the others from h),
  and the result is  a₀ · x + a₁ · h₁ + a₂ · h₂  with a the softmax of the three raw weights. The kernel program computes the
  per-edge products and the masked update with the running sum in five kernel regions (the masked update as the blend
  μ · s + (1 - μ) · h with μ read as the number 0 or 1; the first region with μ = 1 everywhere and a zero running sum), and the
  gathers, the segment sum and the scatter by index with the reference's own host operations between them.

  * frames of the two kernel programs: Proof/K/Run.lean and Proof/KI/Run.lean (one text at any float model) — @main as twelve
    segments, each region's pipeline over its body's triple, the first region reading the features through two windows at half
    shares;
  * the reference's run: Proof/RefStaged.lean, its value in the stage functions of Proof/RefStages.lean;
  * the equality of the two values: Proof/Bridge.lean, entry by entry — on the extended reals 0 · y = 0 and y + 0 = y for every y,
    so the blend is the selection and the precondition is not used.
-/
import proofs.«119003_j2834678415702_1_alg».proof.Defs
import proofs.«119003_j2834678415702_1_alg».proof.Proof.Gen.Kernel
import proofs.«119003_j2834678415702_1_alg».proof.Proof.Gen.Kernel.Skeleton
import proofs.«119003_j2834678415702_1_alg».proof.Proof.Gen.Kernel.Launch
import proofs.«119003_j2834678415702_1_alg».proof.Proof.Gen.Kernel.Regions
import proofs.«119003_j2834678415702_1_alg».proof.Proof.Gen.Kernel.Points
import proofs.«119003_j2834678415702_1_alg».proof.Proof.Gen.KernelIdeal
import proofs.«119003_j2834678415702_1_alg».proof.Proof.Gen.KernelIdeal.Skeleton
import proofs.«119003_j2834678415702_1_alg».proof.Proof.Gen.KernelIdeal.Launch
import proofs.«119003_j2834678415702_1_alg».proof.Proof.Gen.KernelIdeal.Regions
import proofs.«119003_j2834678415702_1_alg».proof.Proof.Gen.KernelIdeal.Points
import proofs.«119003_j2834678415702_1_alg».proof.Proof.Gen.ReferenceIdeal
import proofs.«119003_j2834678415702_1_alg».proof.Proof.Gen.Pre_finite_inputs
import proofs.«119003_j2834678415702_1_alg».proof.Proof.K.Run
import proofs.«119003_j2834678415702_1_alg».proof.Proof.KI.Run
import proofs.«119003_j2834678415702_1_alg».proof.Proof.RefStaged
import proofs.«119003_j2834678415702_1_alg».proof.Proof.Bridge
import Idealize.ShloMosaic.Adequacy
import Idealize.ShloMosaic.Init

noncomputable section

namespace Cert.Proof

open Idealize.ShloMosaic Idealize.SL.Sem

/-- The word-level kernel program runs to the end, nothing faults, and its arguments end as launched. -/
theorem frame_k : Cert.frame_Kernel := fun m ρ _ => Cert.Kernel.Hand.frame m ρ

/-- So does its idealization, at the ideal values. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- At the ideal values the kernel program's result array ends at what its last region leaves (the run of Proof/KI/Run.lean) and
    the reference's at its staged value of the arguments; from memories agreeing on the arguments the two are one array
    (Proof/Bridge.lean). -/
theorem algebraic : Cert.algebraic_KernelIdeal_ReferenceIdeal := by
  intro m ρ m' ρ' _ hagree
  refine ⟨fun c => (Cert.KernelIdeal.Hand.dat4 (Cert.KernelIdeal.Hand.E4 m) c).arrAt 6 Cert.KernelIdeal.cfg4.N,
    Cert.KernelIdeal.Hand.run_result m ρ, ?_⟩
  refine (θ_run Cert.ReferenceIdeal.defs _ _).mono (fun _ h c => ⟨(h c).1.trans ?_, (h c).2⟩)
    (Cert.ReferenceIdeal.Staged.run (F := Ideal) m' ρ')
  rw [(hagree c).1, (hagree c).2.1, (hagree c).2.2.1, (hagree c).2.2.2.1, (hagree c).2.2.2.2.1, (hagree c).2.2.2.2.2]
  exact (Cert.KernelIdeal.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
